-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x512 : Shape := ⟨4, ![4, 64, 64, 512]⟩
abbrev S512x64 : Shape := ⟨2, ![512, 64]⟩
abbrev S512x512 : Shape := ⟨2, ![512, 512]⟩
abbrev S1 : Shape := ⟨1, ![1]⟩
abbrev S_ : Shape := ⟨0, ![]⟩

class Facts : Prop where
  bcast_S_S4x64x64x512 : S_.BroadcastsInDim S4x64x64x512 (![] : Fin 0 → Fin S4x64x64x512.rank)
  reducesTo_S4x64x64x512_S_d0_1_2_3 : S4x64x64x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S512x512 : S_.BroadcastsInDim S512x512 (![] : Fin 0 → Fin S512x512.rank)
  reducesTo_S512x512_S_d0_1 : S512x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x64x64x512 .f32) (main_arg1 : FVec F S512x64 .f32) (main_arg2 : FVec F S512x64 .f32) (main_arg3 : FVec F S512x512 .f32) (main_arg4 : FVec F S1 .f32) : IVec S_ 1 :=
  let main_v0 : FVec F S4x64x64x512 .f32 := Host.absf main_arg0
  let main_cst : FVec F S_ .f32 := constant S_ .f32 0x7F800000#32
  let main_v1 : FVec F S4x64x64x512 .f32 := broadcastInDim S4x64x64x512 ![] bcast_S_S4x64x64x512 main_cst
  let main_v2 : IVec S4x64x64x512 1 := cmpf .olt main_v0 main_v1
  let main_c : IVec S_ 1 := constantI S_ 1 1#1
  let main_v3 : IVec S_ 1 := (fun x v => Host.reduce IntOp.andi x v reducesTo_S4x64x64x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S4x64x64x512 : Shape := ⟨4, ![4, 64, 64, 512]⟩
abbrev S512x64 : Shape := ⟨2, ![512, 64]⟩
abbrev S512x512 : Shape := ⟨2, ![512, 512]⟩
abbrev S1 : Shape := ⟨1, ![1]⟩
abbrev S16384x512 : Shape := ⟨2, ![16384, 512]⟩
abbrev S512x640 : Shape := ⟨2, ![512, 640]⟩
abbrev S16384x640 : Shape := ⟨2, ![16384, 640]⟩
abbrev S2048x512 : Shape := ⟨2, ![2048, 512]⟩
abbrev S2048x640 : Shape := ⟨2, ![2048, 640]⟩
abbrev S16384x64 : Shape := ⟨2, ![16384, 64]⟩
abbrev S4x4096x64 : Shape := ⟨3, ![4, 4096, 64]⟩
abbrev S4x4096x512 : Shape := ⟨3, ![4, 4096, 512]⟩
abbrev S4x512x4096 : Shape := ⟨3, ![4, 512, 4096]⟩
abbrev S1x2048x64 : Shape := ⟨3, ![1, 2048, 64]⟩
abbrev S1x512x64 : Shape := ⟨3, ![1, 512, 64]⟩
abbrev S1x512x512 : Shape := ⟨3, ![1, 512, 512]⟩
abbrev S1x512x2048 : Shape := ⟨3, ![1, 512, 2048]⟩
abbrev S1x2048x1 : Shape := ⟨3, ![1, 2048, 1]⟩
abbrev S1x2048x512 : Shape := ⟨3, ![1, 2048, 512]⟩
abbrev S1x2048 : Shape := ⟨2, ![1, 2048]⟩
abbrev S1x1x1x1 : Shape := ⟨4, ![1, 1, 1, 1]⟩

abbrev nBuf : Space → Nat
  | .hbm => 21
  | .vmem => 16
  | .smem => 0
  | _ => 0

abbrev bufTy : (tb : Table) → Fin (tcTables nBuf tb) → BufTy
  | .hbm, ⟨0, _⟩ => ⟨S4x64x64x512, .f32⟩
  | .hbm, ⟨1, _⟩ => ⟨S512x64, .f32⟩
  | .hbm, ⟨2, _⟩ => ⟨S512x64, .f32⟩
  | .hbm, ⟨3, _⟩ => ⟨S512x512, .f32⟩
  | .hbm, ⟨4, _⟩ => ⟨S1, .f32⟩
  | .hbm, ⟨5, _⟩ => ⟨S16384x512, .f32⟩
  | .hbm, ⟨6, _⟩ => ⟨S512x640, .f32⟩
  | .hbm, ⟨7, _⟩ => ⟨S512x640, .bf16⟩
  | .hbm, ⟨8, _⟩ => ⟨S16384x640, .bf16⟩
  | .hbm, ⟨9, _⟩ => ⟨S16384x64, .bf16⟩
  | .hbm, ⟨10, _⟩ => ⟨S4x4096x64, .bf16⟩
  | .hbm, ⟨11, _⟩ => ⟨S16384x64, .bf16⟩
  | .hbm, ⟨12, _⟩ => ⟨S4x4096x64, .bf16⟩
  | .hbm, ⟨13, _⟩ => ⟨S16384x512, .bf16⟩
  | .hbm, ⟨14, _⟩ => ⟨S4x4096x512, .bf16⟩
  | .hbm, ⟨15, _⟩ => ⟨S4x512x4096, .f32⟩
  | .hbm, ⟨16, _⟩ => ⟨S4x64x64x512, .f32⟩
  | .hbm, ⟨17, _⟩ => ⟨S1x1x1x1, .f32⟩
  | .hbm, ⟨18, _⟩ => ⟨S4x64x64x512, .f32⟩
  | .hbm, ⟨19, _⟩ => ⟨S4x64x64x512, .f32⟩
  | .hbm, ⟨20, _⟩ => ⟨S4x64x64x512, .f32⟩
  | .local _ .vmem, ⟨0, _⟩ => ⟨S2048x512, .f32⟩
  | .local _ .vmem, ⟨1, _⟩ => ⟨S2048x512, .f32⟩
  | .local _ .vmem, ⟨2, _⟩ => ⟨S512x640, .bf16⟩
  | .local _ .vmem, ⟨3, _⟩ => ⟨S2048x640, .bf16⟩
  | .local _ .vmem, ⟨4, _⟩ => ⟨S2048x640, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x512x64, .bf16⟩
  | .local _ .vmem, ⟨8, _⟩ => ⟨S1x512x64, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x2048, .f32⟩
  | .local _ .vmem, ⟨12, _⟩ => ⟨S1x512x2048, .f32⟩
  | .local _ .vmem, ⟨13, _⟩ => ⟨S1x2048x1, .f32⟩
  | .local _ .vmem, ⟨14, _⟩ => ⟨S1x2048x1, .f32⟩
  | .local _ .vmem, ⟨15, _⟩ => ⟨S1x2048x512, .f32⟩
  | _, _ => ⟨S4x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x64x64x512_S16384x512 : S4x64x64x512.ShapeCasts S16384x512
  concatenates_S512x64_S512x64_S512x512_S512x640_d1 : Shape.Concatenates [S512x64, S512x64, S512x512] S512x640 1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S2048x640_S2048x640_0_0 : ∀ a, (![0, 0] : Fin 2 → Nat) a + S2048x640.size a ≤ S2048x640.size a
  h_S2048x640 : 0 < S2048x640.numel
  packedbf16_S2048x640_S2048x640_0_0 : (Rect.unit (s := S2048x640) ![0, 0] S2048x640.size inb_S2048x640_S2048x640_0_0).PackedRows (EltTy.packing .bf16)
  slices_S16384x640_S16384x64_0_0 : S16384x640.Slices ![0, 0] S16384x64
  shapeCasts_S16384x64_S4x4096x64 : S16384x64.ShapeCasts S4x4096x64
  slices_S16384x640_S16384x64_0_64 : S16384x640.Slices ![0, 64] S16384x64
  slices_S16384x640_S16384x512_0_128 : S16384x640.Slices ![0, 128] S16384x512
  shapeCasts_S16384x512_S4x4096x512 : S16384x512.ShapeCasts S4x4096x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S1x2048x512 : S1x2048x512.ShapeCasts S1x2048x512
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  reduces_S1x2048x512_S1x2048 : S1x2048x512.Reduces [2] S1x2048
  shapeCasts_S1x2048_S1x2048x1 : S1x2048.ShapeCasts S1x2048x1
  broadcasts_S1x2048x1_S1x2048x512 : S1x2048x1.Broadcasts S1x2048x512
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  transposes_S1x2048x512_p0_2_1_S1x512x2048 : S1x2048x512.Transposes [0, 2, 1] S1x512x2048
  inb_S1x512x2048_S1x512x2048_0_0_0 : ∀ a, (![0, 0, 0] : Fin 3 → Nat) a + S1x512x2048.size a ≤ S1x512x2048.size a
  h_S1x512x2048 : 0 < S1x512x2048.numel
  shapeCasts_S4x512x4096_S4x64x64x512 : S4x512x4096.ShapeCasts S4x64x64x512
  bcast_S1_S1x1x1x1_3 : S1.BroadcastsInDim S1x1x1x1 (![3] : Fin 1 → Fin S1x1x1x1.rank)
  bcast_S1x1x1x1_S4x64x64x512_0_1_2_3 : S1x1x1x1.BroadcastsInDim S4x64x64x512 (![0, 1, 2, 3] : Fin 4 → Fin S4x64x64x512.rank)
  dot_S2048x512_S512x640_S2048x640_1_0_0_1_n_n_wf : DotDims.WF S2048x512 S512x640 S2048x640 [1] [0] [0] [1] [] []
  dot_S1x2048x64_S1x512x64_S1x2048x512_2_2_1_1_0_0_wf : DotDims.WF S1x2048x64 S1x512x64 S1x2048x512 [2] [2] [1] [1] [0] [0]
  dot_S1x2048x512_S1x512x512_S1x2048x512_2_1_1_2_0_0_wf : DotDims.WF S1x2048x512 S1x512x512 S1x2048x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .bf16 = 32 ∨ (Rect.block (s := S512x640) S512x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x640.size a ≤ S16384x640.size a
  hwx0_2 : ∀ i : grid0.Coords, EltTy.bits .bf16 = 32 ∨ (Rect.block (s := S16384x640) S2048x640.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S4x4096x64.size a
  hwx1_0 : ∀ i : grid1.Coords, EltTy.bits .bf16 = 32 ∨ (Rect.block (s := S4x4096x64) S1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S4x4096x64.size a
  hwx1_1 : ∀ i : grid1.Coords, EltTy.bits .bf16 = 32 ∨ (Rect.block (s := S4x4096x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x4096x512.size a
  hwx1_2 : ∀ i : grid1.Coords, EltTy.bits .bf16 = 32 ∨ (Rect.block (s := S4x4096x512) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S4x512x4096.size a
  hwx1_3 : ∀ i : grid1.Coords, EltTy.bits .f32 = 32 ∨ (Rect.block (s := S4x512x4096) S1x512x2048.size (cc1_transform_3 i) (hinb1_3 i)).WholeWords (EltTy.packing .f32)

variable [Facts₀]

def dot_S2048x512_S512x640_S2048x640_1_0_0_1_n_n : DotDims S2048x512 S512x640 S2048x640 where
  lhsContracting := [1]
  rhsContracting := [0]
  lhsNonContracting := [0]
  rhsNonContracting := [1]
  lhsBatch := []
  rhsBatch := []
  wf := dot_S2048x512_S512x640_S2048x640_1_0_0_1_n_n_wf
def dot_S1x2048x64_S1x512x64_S1x2048x512_2_2_1_1_0_0 : DotDims S1x2048x64 S1x512x64 S1x2048x512 where
  lhsContracting := [2]
  rhsContracting := [2]
  lhsNonContracting := [1]
  rhsNonContracting := [1]
  lhsBatch := [0]
  rhsBatch := [0]
  wf := dot_S1x2048x64_S1x512x64_S1x2048x512_2_2_1_1_0_0_wf
def dot_S1x2048x512_S1x512x512_S1x2048x512_2_1_1_2_0_0 : DotDims S1x2048x512 S1x512x512 S1x2048x512 where
  lhsContracting := [2]
  rhsContracting := [1]
  lhsNonContracting := [1]
  rhsNonContracting := [2]
  lhsBatch := [0]
  rhsBatch := [0]
  wf := dot_S1x2048x512_S1x512x512_S1x2048x512_2_1_1_2_0_0_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x64x64x512 : Shape := ⟨4, ![4, 64, 64, 512]⟩
abbrev S512x64 : Shape := ⟨2, ![512, 64]⟩
abbrev S512x512 : Shape := ⟨2, ![512, 512]⟩
abbrev S1 : Shape := ⟨1, ![1]⟩
abbrev S4x64x64x64 : Shape := ⟨4, ![4, 64, 64, 64]⟩
abbrev S4x4096x64 : Shape := ⟨3, ![4, 4096, 64]⟩
abbrev S4x4096x512 : Shape := ⟨3, ![4, 4096, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S1x1x1x1 : Shape := ⟨4, ![1, 1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x64x64x512, .f32⟩
  | .hbm, ⟨1, _⟩ => ⟨S512x64, .f32⟩
  | .hbm, ⟨2, _⟩ => ⟨S512x64, .f32⟩
  | .hbm, ⟨3, _⟩ => ⟨S512x512, .f32⟩
  | .hbm, ⟨4, _⟩ => ⟨S1, .f32⟩
  | .hbm, ⟨5, _⟩ => ⟨S4x64x64x64, .f32⟩
  | .hbm, ⟨6, _⟩ => ⟨S4x4096x64, .f32⟩
  | .hbm, ⟨7, _⟩ => ⟨S4x64x64x64, .f32⟩
  | .hbm, ⟨8, _⟩ => ⟨S4x4096x64, .f32⟩
  | .hbm, ⟨9, _⟩ => ⟨S4x64x64x512, .f32⟩
  | .hbm, ⟨10, _⟩ => ⟨S4x4096x512, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x512x4096, .f32⟩
  | .hbm, ⟨27, _⟩ => ⟨S4x64x64x512, .f32⟩
  | .hbm, ⟨28, _⟩ => ⟨S1x1x1x1, .f32⟩
  | .hbm, ⟨29, _⟩ => ⟨S4x64x64x512, .f32⟩
  | .hbm, ⟨30, _⟩ => ⟨S4x64x64x512, .f32⟩
  | .hbm, ⟨31, _⟩ => ⟨S4x64x64x512, .f32⟩
  | _, _ => ⟨S4x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S4x64x64x64_S4x4096x64 : S4x64x64x64.ShapeCasts S4x4096x64
  shapeCasts_S4x64x64x512_S4x4096x512 : S4x64x64x512.ShapeCasts S4x4096x512
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x512x4096_S4x64x64x512 : S4x512x4096.ShapeCasts S4x64x64x512
  bcast_S1_S1x1x1x1_3 : S1.BroadcastsInDim S1x1x1x1 (![3] : Fin 1 → Fin S1x1x1x1.rank)
  bcast_S1x1x1x1_S4x64x64x512_0_1_2_3 : S1x1x1x1.BroadcastsInDim S4x64x64x512 (![0, 1, 2, 3] : Fin 4 → Fin S4x64x64x512.rank)
  dot_S4x64x64x512_S512x64_S4x64x64x64_3_0_012_1_n_n_wf : DotDims.WF S4x64x64x512 S512x64 S4x64x64x64 [3] [0] [0, 1, 2] [1] [] []
  dot_S4x64x64x512_S512x512_S4x64x64x512_3_0_012_1_n_n_wf : DotDims.WF S4x64x64x512 S512x512 S4x64x64x512 [3] [0] [0, 1, 2] [1] [] []
  dot_S4x4096x64_S4x4096x64_S4x4096x4096_2_2_1_1_0_0_wf : DotDims.WF S4x4096x64 S4x4096x64 S4x4096x4096 [2] [2] [1] [1] [0] [0]
  dot_S4x4096x512_S4x4096x4096_S4x512x4096_1_2_2_1_0_0_wf : DotDims.WF S4x4096x512 S4x4096x4096 S4x512x4096 [1] [2] [2] [1] [0] [0]

variable [Facts₀]

def dot_S4x64x64x512_S512x64_S4x64x64x64_3_0_012_1_n_n : DotDims S4x64x64x512 S512x64 S4x64x64x64 where
  lhsContracting := [3]
  rhsContracting := [0]
  lhsNonContracting := [0, 1, 2]
  rhsNonContracting := [1]
  lhsBatch := []
  rhsBatch := []
  wf := dot_S4x64x64x512_S512x64_S4x64x64x64_3_0_012_1_n_n_wf
def dot_S4x64x64x512_S512x512_S4x64x64x512_3_0_012_1_n_n : DotDims S4x64x64x512 S512x512 S4x64x64x512 where
  lhsContracting := [3]
  rhsContracting := [0]
  lhsNonContracting := [0, 1, 2]
  rhsNonContracting := [1]
  lhsBatch := []
  rhsBatch := []
  wf := dot_S4x64x64x512_S512x512_S4x64x64x512_3_0_012_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x512_S4x4096x4096_S4x512x4096_1_2_2_1_0_0 : DotDims S4x4096x512 S4x4096x4096 S4x512x4096 where
  lhsContracting := [1]
  rhsContracting := [2]
  lhsNonContracting := [2]
  rhsNonContracting := [1]
  lhsBatch := [0]
  rhsBatch := [0]
  wf := dot_S4x4096x512_S4x4096x4096_S4x512x4096_1_2_2_1_0_0_wf

class Facts : Prop extends Facts₀ where

variable [Facts]
-- ==== Proof.KernelIdeal.ProjPay.lean ====
/-
  The projection body's product, one entry at a time. At the ideal values a change of format is the identity and the
  matrix unit's product into a zero accumulator is the plain sum of products, so the entry of the stored block at row r
  and column n is the sum over the 512 input channels of the operand row's entry times the weight's entry.
-/
import proofs.«130749_j38989713113556_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

local notation "DD" => dot_S2048x512_S512x640_S2048x640_1_0_0_1_n_n

theorem proj_lhs0 (j : S2048x640.Idx) (q : (DD).contr.Idx) : ((DD).lhsIdx j q 0).val = (j 0).val := by
  unfold DotDims.lhsIdx
  rw [dif_neg (show ¬(0 : Fin S2048x512.rank) ∈ (DD).lhsBatch by decide), dif_pos (show (0 : Fin S2048x512.rank) ∈ (DD).lhsNonContracting by decide)]
  rfl
theorem proj_lhs1 (j : S2048x640.Idx) (q : (DD).contr.Idx) : ((DD).lhsIdx j q 1).val = (q ⟨0, by decide⟩).val :=
  (DD).lhsIdx_val_of_single rfl j q
theorem proj_rhs0 (j : S2048x640.Idx) (q : (DD).contr.Idx) : ((DD).rhsIdx j q 0).val = (q ⟨0, by decide⟩).val :=
  (DD).rhsIdx_val_of_single rfl j q
theorem proj_rhs1 (j : S2048x640.Idx) (q : (DD).contr.Idx) : ((DD).rhsIdx j q 1).val = (j 1).val := by
  unfold DotDims.rhsIdx
  rw [dif_neg (show ¬(1 : Fin S512x640.rank) ∈ (DD).rhsBatch by decide), dif_pos (show (1 : Fin S512x640.rank) ∈ (DD).rhsNonContracting by decide)]
  rfl

/-- The body's payload at row r, column n: the sum over the input channels. -/
theorem pay_apply (x : Vec Ideal S2048x512 .f32) (w : Vec Ideal S512x640 .bf16) (r : Fin 2048) (n : Fin 640) :
    k0_pay1 (F := Ideal) x w (ix2 r n) = ∑ k : Fin 512, x (ix2 r k) * w (ix2 k n) := by
  unfold k0_pay1
  simp only [shapeCast_self]
  refine (Ideal.matmul_constant_zero_apply (φ₁ := .bf16) (φ₂ := .bf16) (DD) none (truncf .bf16 x bitsLt_bf16_f32) w (ix2 r n)).trans ?_
  rw [← Equiv.sum_comp (ValueIdx.contrEquiv1 (DD) 512 rfl rfl).symm]
  refine Finset.sum_congr rfl fun k _ => ?_
  have hk := ValueIdx.contrEquiv1_symm_val (DD) 512 rfl rfl k
  have el : (DD).lhsIdx (ix2 r n) ((ValueIdx.contrEquiv1 (DD) 512 rfl rfl).symm k) = ix2 r k := funext fun a => Fin.ext (by
    match a with
    | ⟨0, _⟩ => exact proj_lhs0 _ _
    | ⟨1, _⟩ => exact (proj_lhs1 _ _).trans hk)
  have er : (DD).rhsIdx (ix2 r n) ((ValueIdx.contrEquiv1 (DD) 512 rfl rfl).symm k) = ix2 k n := funext fun a => Fin.ext (by
    match a with
    | ⟨0, _⟩ => exact (proj_rhs0 _ _).trans hk
    | ⟨1, _⟩ => exact proj_rhs1 _ _)
  rw [el, er]
  rfl

end Cert.KernelIdeal.Hand

end
-- ==== Proof.KernelIdeal.ProjBody.lean ====
/-
  The projection stage, one grid point at a time. The pipeline hands the body a block of 2048 rows of the flattened
  input (2048 x 512), the whole concatenated weight (512 x 640) and an output buffer (2048 x 640) holding anything;
  the body reads the two operands whole, multiplies them on the matrix unit into a zero accumulator and stores the
  product over the whole output buffer. So after the body the output buffer is a function of the two operand blocks
  alone, and the operands' buffers are as they were.
-/
import proofs.«130749_j38989713113556_2_alg».proof.Proof.Gen.KernelIdeal.Launch
import proofs.«130749_j38989713113556_2_alg».proof.Proof.Gen.KernelIdeal.Skeleton
import proofs.«130749_j38989713113556_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each of the body's three buffers, as the rectangle its load or store names. -/
abbrev rX : Rect S2048x512 := Rect.unit (s := S2048x512) ![0, 0] S2048x512.size inb_S2048x512_S2048x512_0_0
abbrev rW : Rect S512x640 := Rect.unit (s := S512x640) ![0, 0] S512x640.size inb_S512x640_S512x640_0_0
abbrev rO : Rect S2048x640 := Rect.unit (s := S2048x640) ![0, 0] S2048x640.size inb_S2048x640_S2048x640_0_0

/-- What the body leaves in the output buffer: its one store, of the product of the two operand blocks. -/
def outBlk (x : Vec F S2048x512 .f32) (w : Vec F S512x640 .bf16) : Vec F S2048x640 .bf16 :=
  View.canon [⟨rO, k0_pay1 (View.ld x rX) (View.ld w rW)⟩]

/-- The one store covers the output buffer. -/
theorem outCover (p : Vec F S2048x640 .bf16) (y : S2048x640.Idx) :
    ∃ pc ∈ ([⟨rO, p⟩] : List (View.Piece (Elt F) S2048x640 .bf16)), y ∈ pc.1.set :=
  View.cover_of_tiled [⟨rO, p⟩] S2048x640.size (by rfl) y

set_option maxHeartbeats 1000000 in
/-- The body on whole buffers: the operands' at contents `x`, `w`, the output's at anything. It runs to the end and
    leaves the operands as they were and the output at `outBlk x w`. -/
theorem run_body (c : Dev nD) (E : Set ℕ) (i : grid0.Coords)
    (a1 : Memref sig .tc .vmem S2048x512 .f32) (h1 : a1.IsWhole)
    (a2 : Memref sig .tc .vmem S512x640 .bf16) (h2 : a2.IsWhole)
    (a3 : Memref sig .tc .vmem S2048x640 .bf16) (h3 : a3.IsWhole)
    (x : Vec F S2048x512 .f32) (w : Vec F S512x640 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (outBlk x w)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.KernelIdeal.Proj

end
-- ==== Proof.KernelIdeal.ProjData.lean ====
/-
  The projection stage's pipeline as proof data, at a parameter `V`: the contents of the core's buffers when the
  region is entered. Window 0 walks the flattened input 2048 rows at a time, window 1 is the whole weight (fetched
  once, found in place at every later point), window 2 the output, written back at every point. After the body at
  point `t` the two operand buffers hold their blocks and the output buffer holds the product of those blocks.
-/
import proofs.«130749_j38989713113556_2_alg».proof.Proof.KernelIdeal.ProjBody

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's buffer holds its block at every point, whether the pipeline fetched there or not: where it
    did not, the block's index has not moved since the fetch. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The proof data: the arrays as the region finds them; after the body each operand's buffer at its block and the
    output's at the product of the two blocks; the body uses nothing else of the core's, owes nothing, holds whole shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlk (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outBlk (blk V c 0 t) (blk V c 1 t) := by dsimp only [dat]

theorem before_0 (c : Dev nD) (t : Fin cfg0.N) (d) : (dat V c).before 0 t d = blk V c 0 t :=
  before_in0 V (dat V c) (dat_A V c 0) (after_0 V c) t d
theorem before_1 (c : Dev nD) (t : Fin cfg0.N) (d) : (dat V c).before 1 t d = blk V c 1 t :=
  before_in1 V (dat V c) (dat_A V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the operands' buffers hold their blocks, so the body's run applies; what the body does not
    touch passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run_body c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KernelIdeal.ProjArr.lean ====
/-
  From the projection's blocks to its array. Grid point t multiplies rows 2048 t … 2048 t + 2047 of the flattened
  input by the whole concatenated weight and writes the product back as the same rows of the output. Each written block
  is therefore the restriction of ONE function of the two operand arrays — entry (r, n) is the sum over the input
  channels of input[r, k] * weight[k, n] — and the eight blocks tile the 16384 rows, so the output array ends holding
  that function.
-/
import proofs.«130749_j38989713113556_2_alg».proof.Proof.KernelIdeal.ProjPay
import proofs.«130749_j38989713113556_2_alg».proof.Proof.KernelIdeal.ProjData
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The product of the flattened input and the concatenated weight, entry by entry. -/
def prodArr (X : S16384x512.Idx → EReal) (W : S512x640.Idx → EReal) : S16384x640.Idx → EReal :=
  fun i => ∑ k : Fin 512, X (ix2 (n0 := 16384) ⟨(i 0).val, idx2_lt0 i⟩ k) * W (ix2 k (n1 := 640) ⟨(i 1).val, idx2_lt1 i⟩)

/-- The printed index maps over the grid: the input's and the output's blocks are block t of the rows, all columns; the
    weight's block is the whole weight. -/
theorem proj_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two operand arrays as the region finds them. -/
theorem proj_flushed (c : Dev nD) (t : Fin cfg0.N) :
    (Proj.dat V c).flushed 2 t = ((cfg0.win 2).blk t).view.read (Elt Ideal) (prodArr (V c main_v0) (V c main_v2)) := by
  show (cfg0.win 2).cut (grid0.coords t) ((Proj.dat V c).after 2 t) = _
  rw [Proj.after_2]
  unfold Proj.outBlk
  rw [View.canon_unit_zero zeros2]
  simp only [View.ld_unit_zero (S := S2048x512) zeros2, View.ld_unit_zero (S := S512x640) zeros2]
  obtain ⟨e0, e1, e2, e3, e4, e5⟩ := proj_index t
  funext j
  have h0 : (j 0).val < 2048 := (j 0).isLt
  have h1 : (j 1).val < 640 := (j 1).isLt
  have hj : (win0 2).xinj (grid0.coords t) j = ix2 (n0 := 2048) (n1 := 640) ⟨(j 0).val, h0⟩ ⟨(j 1).val, h1⟩ :=
    funext fun a => by match a with | ⟨0, _⟩ => rfl | ⟨1, _⟩ => rfl
  show k0_pay1 (Proj.blk V c 0 t) (Proj.blk V c 1 t) ((win0 2).xinj (grid0.coords t) j)
    = prodArr (V c main_v0) (V c main_v2) (((cfg0.win 2).blk t).view.emb j)
  rw [hj]
  refine (pay_apply _ _ _ _).trans ?_
  unfold prodArr
  refine Finset.sum_congr rfl fun k _ => ?_
  have hx : Proj.blk V c 0 t (ix2 ⟨(j 0).val, h0⟩ k)
      = V c main_v0 (ix2 ⟨((((cfg0.win 2).blk t).view.emb j) 0).val, idx2_lt0 _⟩ k) := by
    show V c main_v0 (((cfg0.win 0).blk t).view.emb (ix2 ⟨(j 0).val, h0⟩ k)) = _
    refine congrArg (V c main_v0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  have hw : Proj.blk V c 1 t (ix2 k ⟨(j 1).val, h1⟩)
      = V c main_v2 (ix2 k ⟨((((cfg0.win 2).blk t).view.emb j) 1).val, idx2_lt1 _⟩) := by
    show V c main_v2 (((cfg0.win 1).blk t).view.emb (ix2 k ⟨(j 1).val, h1⟩)) = _
    refine congrArg (V c main_v2) (funext fun a => Fin.ext ?_)
    match a with
    | ⟨0, _⟩ => show win0_1.index t (0 : Fin 2) * 512 + 1 * k.val = k.val; omega
    | ⟨1, _⟩ => show win0_1.index t (1 : Fin 2) * 640 + 1 * (j 1).val = win0_2.index t (1 : Fin 2) * 640 + 1 * (j 1).val; omega
  rw [hx, hw]

/-- An index of the output array is in point t's block iff each coordinate is in the block's range on its axis. -/
theorem proj_mem_blk (t : Fin cfg0.N) (i : S16384x640.Idx) :
    i ∈ ((cfg0.win 2).blk t).view.set ↔ ∀ a : Fin 2, win0_2.index t a * S2048x640.size a ≤ (i a).val
      ∧ (i a).val < win0_2.index t a * S2048x640.size a + S2048x640.size a := by
  show i ∈ ((View.whole main_v3).slice (win0_2.rect t)).set ↔ _
  rw [View.set_slice_whole, Rect.mem_set_unit]
  exact Iff.rfl

/-- Row r of the output lies in the block of point r / 2048. -/
theorem proj_cover (i : S16384x640.Idx) :
    ∃ t : Fin cfg0.N, (cfg0.win 2).flush t = true ∧ i ∈ ((cfg0.win 2).blk t).view.set := by
  have hi0 : (i 0).val < 16384 := (i 0).isLt
  have hi1 : (i 1).val < 640 := (i 1).isLt
  have hN : cfg0.N = 8 := N_0
  refine ⟨⟨(i 0).val / 2048, by rw [hN]; omega⟩, flush0_2 _, ?_⟩
  rw [proj_mem_blk]
  obtain ⟨e0, e1, e2, e3, e4, e5⟩ := proj_index ⟨(i 0).val / 2048, by rw [hN]; omega⟩
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 640 ≤ (i 1).val ∧ (i 1).val < win0_2.index _ (1 : Fin 2) * 640 + 640
    rw [e5]; omega

/-- The output array after the region: the product of the two operand arrays as the region found them. -/
theorem proj_final (c : Dev nD) : (Proj.dat V c).arrAt 2 cfg0.N = prodArr (V c main_v0) (V c main_v2) :=
  (Proj.dat V c).arrAt_eq_of_cover 2 (prodArr (V c main_v0) (V c main_v2)) (fun t _ => proj_flushed V c t) proj_cover

end Cert.KernelIdeal.Hand

end
-- ==== Proof.KernelIdeal.FlashRuns.lean ====
/-
  The attention stage: what its grid points share. The grid is (batch, query tile, key tile) = 4 x 2 x 8, the key
  tile innermost, so the point numbered `t` has key tile `t % 8`. The body keeps three buffers of its own across the
  eight key tiles of one (batch, query tile): the running row maximum, the running row sum and the running weighted sum
  of value rows. At key tile 0 it resets them; at key tile 7 it divides the weighted sum by the row sum and stores the
  transposed quotient into the output buffer, which the pipeline writes back there and only there. Elsewhere the
  output buffer is left untouched.
-/
import proofs.«130749_j38989713113556_2_alg».proof.Proof.Gen.KernelIdeal.Launch
import proofs.«130749_j38989713113556_2_alg».proof.Proof.Gen.KernelIdeal.Skeleton
import proofs.«130749_j38989713113556_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is key tile 0": the body's first conditional, from the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- "This is key tile 7": the body's second conditional. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle and where the output is written back -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Off key tile 7 the output window is idle and not written back; -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
/-- at key tile 7 it is live. -/
theorem live_3 : ∀ t : Fin cfg1.N, isLast (grid1.coords t) → cfg1.idle 3 (grid1.coords t) = false := by decide +kernel

/-! ## The buffers the body is called with -/

abbrev mQ (t : Fin cfg1.N) : Memref sig .tc .vmem S1x2048x64 .bf16 := win1_0.stage (cfg1.slots t 0)
abbrev hQ (t : Fin cfg1.N) : (mQ t).IsWhole := hstage1_0 ((cfg1.slots t 0).cast nbuf1_0)
abbrev mK (t : Fin cfg1.N) : Memref sig .tc .vmem S1x512x64 .bf16 := win1_1.stage (cfg1.slots t 1)
abbrev hK (t : Fin cfg1.N) : (mK t).IsWhole := hstage1_1 ((cfg1.slots t 1).cast nbuf1_1)
abbrev mV (t : Fin cfg1.N) : Memref sig .tc .vmem S1x512x512 .bf16 := win1_2.stage (cfg1.slots t 2)
abbrev hV (t : Fin cfg1.N) : (mV t).IsWhole := hstage1_2 ((cfg1.slots t 2).cast nbuf1_2)
abbrev mO (t : Fin cfg1.N) : Memref sig .tc .vmem S1x512x2048 .f32 := win1_3.stage (cfg1.slots t 3)
abbrev hO (t : Fin cfg1.N) : (mO t).IsWhole := hstage1_3 ((cfg1.slots t 3).cast nbuf1_3)
/-- The running maximum, the running sum and the running weighted sum: whole buffers of the kernel's own. -/
abbrev sM : Memref sig .tc .vmem S1x2048x1 .f32 := Memref.whole cc1_scratch0
abbrev sL : Memref sig .tc .vmem S1x2048x1 .f32 := Memref.whole cc1_scratch1
abbrev sA : Memref sig .tc .vmem S1x2048x512 .f32 := Memref.whole cc1_scratch2
/-- Views through which the contents of the output buffer and of the three carried buffers are stated. -/
abbrev vO : View sig .tc .vmem S1x512x2048 .f32 := (Memref.whole cc1_stg3_0 : Memref sig .tc .vmem S1x512x2048 .f32).view
abbrev vM : View sig .tc .vmem S1x2048x1 .f32 := sM.view
abbrev vL : View sig .tc .vmem S1x2048x1 .f32 := sL.view
abbrev vA : View sig .tc .vmem S1x2048x512 .f32 := sA.view

/-- What the launch hands the region besides the windows, with the three carried buffers as owned memrefs at some
    contents: the other stage's staging buffers (at anything), the three, and the generator register. -/
theorem entryInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) sM fullShare d) ∗ (∃ d, owns (c : Thread nD τ) sL fullShare d) ∗ (∃ d, owns (c : Thread nD τ) sA fullShare d))
        ∗ (∃ r, prngReg c r)) := by
  unfold Pipeline.ΦA; rw [scopedRest1_eq]; simp only [sM, sL, sA, owns_whole]; try rfl

end Cert.KernelIdeal.Flash

end
-- ==== Proof.KernelIdeal.FlashRunA.lean ====
/-
  The attention body at key tile 0. It overwrites its three carried buffers with the neutral values (minus
  infinity, zero, zero), then makes one update step from them with this point's query, key and value blocks, and leaves
  the output buffer as it found it. What the three carried buffers end with is recorded as the pieces the run stores.
-/
import proofs.«130749_j38989713113556_2_alg».proof.Proof.KernelIdeal.FlashRuns

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (aQ : Memref sig .tc .vmem S1x2048x64 .bf16) (hq : aQ.IsWhole) (aK : Memref sig .tc .vmem S1x512x64 .bf16) (hk : aK.IsWhole)
    (aV : Memref sig .tc .vmem S1x512x512 .bf16) (hv : aV.IsWhole) (aO : Memref sig .tc .vmem S1x512x2048 .f32) (ho : aO.IsWhole)
    (aM : Memref sig .tc .vmem S1x2048x1 .f32) (hm : aM.IsWhole) (aL : Memref sig .tc .vmem S1x2048x1 .f32) (hl : aL.IsWhole)
    (aA : Memref sig .tc .vmem S1x2048x512 .f32) (ha : aA.IsWhole)
    (hc0 : isFirst i) (hc1 : ¬isLast i)
    (xq : Vec F S1x2048x64 .bf16) (xk : Vec F S1x512x64 .bf16) (xv : Vec F S1x512x512 .bf16) :
    Σ' (LM : List (View.Piece (Elt F) S1x2048x1 .f32)) (LL : List (View.Piece (Elt F) S1x2048x1 .f32)), { LA : List (View.Piece (Elt F) S1x2048x512 .f32) //
      ∀ (xo : Vec F S1x512x2048 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo
            ∗ (∃ d, owns (c : Thread nD τ) aM fullShare d) ∗ (∃ d, owns (c : Thread nD τ) aL fullShare d) ∗ (∃ d, owns (c : Thread nD τ) aA fullShare d)
            ∗ (iprop(owns (c : Thread nD τ) aQ fullShare xq ∗ owns (c : Thread nD τ) aK fullShare xk ∗ owns (c : Thread nD τ) aV fullShare xv ∗ owns (c : Thread nD τ) aO fullShare xo
                ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1__flash_kernel i aQ hq aK hk aV hv aO ho aM hm aL hl aA ha) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%fq, %hfq, HQ⟩, ⟨%fk, %hfk, HK⟩, ⟨%fv, %hfv, HV⟩, ⟨%fo, %hfo, HO⟩, ⟨%dm, %fm, -, HM⟩, ⟨%dl, %fl, -, HL⟩, ⟨%da, %fa, -, HA⟩, Hk⟩
    obtain rfl := hq.eq_unread hfq; obtain rfl := hk.eq_unread hfk; obtain rfl := hv.eq_unread hfv; obtain rfl := ho.eq_unread hfo
    sl_exec (disch := first | exact hc0 | exact hc1)
    sl_step
    iapply Hk
    isplitl [HQ]
    · iexists _; isplitr; · ipureintro; exact hq.read_unread _
      iexact HQ
    isplitl [HK]
    · iexists _; isplitr; · ipureintro; exact hk.read_unread _
      iexact HK
    isplitl [HV]
    · iexists _; isplitr; · ipureintro; exact hv.read_unread _
      iexact HV
    isplitl [HO]
    · iexists _; isplitr; · ipureintro; exact ho.read_unread _
      iexact HO
    isplitl [HM]; · iexists _; iexact HM
    isplitl [HL]; · iexists _; iexact HL
    iexists _; iexact HA

end Cert.KernelIdeal.Flash

end
-- ==== Proof.KernelIdeal.FlashRunB.lean ====
/-
  The attention body at key tiles 1 to 6. It finds its three carried buffers at what the tile before left, makes one
  update step from them with this point's query, key and value blocks, and leaves the output buffer as it found it.
-/
import proofs.«130749_j38989713113556_2_alg».proof.Proof.KernelIdeal.FlashRunA

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (aQ : Memref sig .tc .vmem S1x2048x64 .bf16) (hq : aQ.IsWhole) (aK : Memref sig .tc .vmem S1x512x64 .bf16) (hk : aK.IsWhole)
    (aV : Memref sig .tc .vmem S1x512x512 .bf16) (hv : aV.IsWhole) (aO : Memref sig .tc .vmem S1x512x2048 .f32) (ho : aO.IsWhole)
    (aM : Memref sig .tc .vmem S1x2048x1 .f32) (hm : aM.IsWhole) (aL : Memref sig .tc .vmem S1x2048x1 .f32) (hl : aL.IsWhole)
    (aA : Memref sig .tc .vmem S1x2048x512 .f32) (ha : aA.IsWhole)
    (hc0 : ¬isFirst i) (hc1 : ¬isLast i)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :
    Σ' (LM : List (View.Piece (Elt F) S1x2048x1 .f32)) (LL : List (View.Piece (Elt F) S1x2048x1 .f32)), { LA : List (View.Piece (Elt F) S1x2048x512 .f32) //
      ∀ (xo : Vec F S1x512x2048 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo
            ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ owns (c : Thread nD τ) aO fullShare xo
                ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1__flash_kernel i aQ hq aK hk aV hv aO ho aM hm aL hl aA ha) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%fq, %hfq, HQ⟩, ⟨%fk, %hfk, HK⟩, ⟨%fv, %hfv, HV⟩, ⟨%fo, %hfo, HO⟩, ⟨%fm, %hfm, HM⟩, ⟨%fl, %hfl, HL⟩, ⟨%fa, %hfa, HA⟩, Hk⟩
    obtain rfl := hq.eq_unread hfq; obtain rfl := hk.eq_unread hfk; obtain rfl := hv.eq_unread hfv; obtain rfl := ho.eq_unread hfo
    obtain rfl := hm.eq_unread hfm; obtain rfl := hl.eq_unread hfl; obtain rfl := ha.eq_unread hfa
    sl_exec (disch := first | exact hc0 | exact hc1)
    sl_step
    iapply Hk
    isplitl [HQ]
    · iexists _; isplitr; · ipureintro; exact hq.read_unread _
      iexact HQ
    isplitl [HK]
    · iexists _; isplitr; · ipureintro; exact hk.read_unread _
      iexact HK
    isplitl [HV]
    · iexists _; isplitr; · ipureintro; exact hv.read_unread _
      iexact HV
    isplitl [HO]
    · iexists _; isplitr; · ipureintro; exact ho.read_unread _
      iexact HO
    isplitl [HM]; · iexists _; iexact HM
    isplitl [HL]; · iexists _; iexact HL
    iexists _; iexact HA

end Cert.KernelIdeal.Flash

end
-- ==== Proof.KernelIdeal.FlashRunC.lean ====
/-
  The attention body at key tile 7. It finds its three carried buffers at what tile 6 left, makes the last update
  step, and then stores into the output buffer the weighted sum divided row by row by the row sum, transposed.
-/
import proofs.«130749_j38989713113556_2_alg».proof.Proof.KernelIdeal.FlashRunB

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (aQ : Memref sig .tc .vmem S1x2048x64 .bf16) (hq : aQ.IsWhole) (aK : Memref sig .tc .vmem S1x512x64 .bf16) (hk : aK.IsWhole)
    (aV : Memref sig .tc .vmem S1x512x512 .bf16) (hv : aV.IsWhole) (aO : Memref sig .tc .vmem S1x512x2048 .f32) (ho : aO.IsWhole)
    (aM : Memref sig .tc .vmem S1x2048x1 .f32) (hm : aM.IsWhole) (aL : Memref sig .tc .vmem S1x2048x1 .f32) (hl : aL.IsWhole)
    (aA : Memref sig .tc .vmem S1x2048x512 .f32) (ha : aA.IsWhole)
    (hc0 : ¬isFirst i) (hc1 : isLast i)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :
    Σ' (LO : List (View.Piece (Elt F) S1x512x2048 .f32)) (LM : List (View.Piece (Elt F) S1x2048x1 .f32)) (LL : List (View.Piece (Elt F) S1x2048x1 .f32)), { LA : List (View.Piece (Elt F) S1x2048x512 .f32) //
      ∀ (E : Set ℕ) (K : PUnit → sProp 𝕄),
        iprop(owns (c : Thread nD τ) aQ fullShare xq ∗ owns (c : Thread nD τ) aK fullShare xk ∗ owns (c : Thread nD τ) aV fullShare xv ∗ (∃ d, owns (c : Thread nD τ) aO fullShare d)
            ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ (∃ f, aO.view.loc (c : Thread nD τ) ↦[aO.view.set]{fullShare} aO.view.writes (Elt F) f LO)
                ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1__flash_kernel i aQ hq aK hk aV hv aO ho aM hm aL hl aA ha) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%fq, %hfq, HQ⟩, ⟨%fk, %hfk, HK⟩, ⟨%fv, %hfv, HV⟩, ⟨%dO, %fo, -, HO⟩, ⟨%fm, %hfm, HM⟩, ⟨%fl, %hfl, HL⟩, ⟨%fa, %hfa, HA⟩, Hk⟩
    obtain rfl := hq.eq_unread hfq; obtain rfl := hk.eq_unread hfk; obtain rfl := hv.eq_unread hfv
    obtain rfl := hm.eq_unread hfm; obtain rfl := hl.eq_unread hfl; obtain rfl := ha.eq_unread hfa
    sl_exec (disch := first | exact hc0 | exact hc1)
    sl_step
    iapply Hk
    isplitl [HQ]
    · iexists _; isplitr; · ipureintro; exact hq.read_unread _
      iexact HQ
    isplitl [HK]
    · iexists _; isplitr; · ipureintro; exact hk.read_unread _
      iexact HK
    isplitl [HV]
    · iexists _; isplitr; · ipureintro; exact hv.read_unread _
      iexact HV
    isplitl [HO]; · iexists _; iexact HO
    isplitl [HM]; · iexists _; iexact HM
    isplitl [HL]; · iexists _; iexact HL
    iexists _; iexact HA

end Cert.KernelIdeal.Flash

end
-- ==== Proof.KernelIdeal.FlashData.lean ====
/-
  The attention stage's pipeline as proof data, at a parameter `V`: the contents of the core's buffers when the region
  is entered. Windows 0, 1, 2 walk the queries (a tile of 2048 rows, fetched once per eight points), the keys and the
  values (tiles of 512 rows, fetched at every point); window 3 is the output, one block per (batch, query tile), written
  back after key tile 7. What the output buffer and the three carried buffers hold after each point is defined by
  recursion on the point: at key tile 0 the step from the neutral values, afterwards the step from what the point before
  left; the region's invariant carries the three buffers at exactly those contents from one point to the next.
-/
import proofs.«130749_j38989713113556_2_alg».proof.Proof.KernelIdeal.FlashRunC

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's buffer holds its block at every point, whether the pipeline fetched there or not. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The three kinds of point, at the point's own buffers -/

/-- The run at a point of key tile 0, 1–6, 7, instantiated at the buffers the pipeline calls the body with there. -/
abbrev firstAt (c : Dev nD) (t : Fin cfg1.N) (h0 : t.val % 8 = 0) (h1 : ¬t.val % 8 = 7)
    (xq : Vec F S1x2048x64 .bf16) (xk : Vec F S1x512x64 .bf16) (xv : Vec F S1x512x512 .bf16) :=
  runFirst (F := F) c (grid1.coords t) (mQ t) (hQ t) (mK t) (hK t) (mV t) (hV t) (mO t) (hO t) sM (Memref.isWhole_whole _) sL (Memref.isWhole_whole _) sA (Memref.isWhole_whole _) ((isFirst_iff t).mpr h0) (fun h => h1 ((isLast_iff t).mp h)) xq xk xv
abbrev midAt (c : Dev nD) (t : Fin cfg1.N) (h0 : ¬t.val % 8 = 0) (h1 : ¬t.val % 8 = 7)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :=
  runMid (F := F) c (grid1.coords t) (mQ t) (hQ t) (mK t) (hK t) (mV t) (hV t) (mO t) (hO t) sM (Memref.isWhole_whole _) sL (Memref.isWhole_whole _) sA (Memref.isWhole_whole _) (fun h => h0 ((isFirst_iff t).mp h)) (fun h => h1 ((isLast_iff t).mp h)) xq xk xv xm xl xa
abbrev lastAt (c : Dev nD) (t : Fin cfg1.N) (h0 : ¬t.val % 8 = 0) (h1 : t.val % 8 = 7)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :=
  runLast (F := F) c (grid1.coords t) (mQ t) (hQ t) (mK t) (hK t) (mV t) (hV t) (mO t) (hO t) sM (Memref.isWhole_whole _) sL (Memref.isWhole_whole _) sA (Memref.isWhole_whole _) (fun h => h0 ((isFirst_iff t).mp h)) ((isLast_iff t).mpr h1) xq xk xv xm xl xa

/-- The four buffers' contents as a tuple: output, running maximum, running sum, running weighted sum. -/
abbrev St (F : FTy → Type) [FloatOps F] : Type := Vec F S1x512x2048 .f32 × Vec F S1x2048x1 .f32 × Vec F S1x2048x1 .f32 × Vec F S1x2048x512 .f32

/-- The output buffer's contents where no point consults them (it is neither written back nor read there). -/
def noOut : Vec F S1x512x2048 .f32 := vO.read (Elt F) (vO.writes (Elt F) vO.junk [])

/-- What a point of key tile 0 leaves: its stores read back. -/
def firstSt (c : Dev nD) (t : Fin cfg1.N) (h0 : t.val % 8 = 0) (h1 : ¬t.val % 8 = 7)
    (xq : Vec F S1x2048x64 .bf16) (xk : Vec F S1x512x64 .bf16) (xv : Vec F S1x512x512 .bf16) : St F :=
  (noOut, vM.read (Elt F) (vM.writes (Elt F) vM.junk (firstAt c t h0 h1 xq xk xv).1),
    vL.read (Elt F) (vL.writes (Elt F) vL.junk (firstAt c t h0 h1 xq xk xv).2.1),
    vA.read (Elt F) (vA.writes (Elt F) vA.junk (firstAt c t h0 h1 xq xk xv).2.2.1))
/-- What a point of key tiles 1–6 leaves, from what the point before left (`s`). -/
def midSt (c : Dev nD) (t : Fin cfg1.N) (h0 : ¬t.val % 8 = 0) (h1 : ¬t.val % 8 = 7)
    (xq : Vec F S1x2048x64 .bf16) (xk : Vec F S1x512x64 .bf16) (xv : Vec F S1x512x512 .bf16) (s : St F) : St F :=
  (noOut, vM.read (Elt F) (vM.writes (Elt F) vM.junk (midAt c t h0 h1 xq xk xv s.2.1 s.2.2.1 s.2.2.2).1),
    vL.read (Elt F) (vL.writes (Elt F) vL.junk (midAt c t h0 h1 xq xk xv s.2.1 s.2.2.1 s.2.2.2).2.1),
    vA.read (Elt F) (vA.writes (Elt F) vA.junk (midAt c t h0 h1 xq xk xv s.2.1 s.2.2.1 s.2.2.2).2.2.1))
/-- What a point of key tile 7 leaves, from what the point before left: now also the output buffer. -/
def lastSt (c : Dev nD) (t : Fin cfg1.N) (h0 : ¬t.val % 8 = 0) (h1 : t.val % 8 = 7)
    (xq : Vec F S1x2048x64 .bf16) (xk : Vec F S1x512x64 .bf16) (xv : Vec F S1x512x512 .bf16) (s : St F) : St F :=
  (vO.read (Elt F) (vO.writes (Elt F) vO.junk (lastAt c t h0 h1 xq xk xv s.2.1 s.2.2.1 s.2.2.2).1),
    vM.read (Elt F) (vM.writes (Elt F) vM.junk (lastAt c t h0 h1 xq xk xv s.2.1 s.2.2.1 s.2.2.2).2.1),
    vL.read (Elt F) (vL.writes (Elt F) vL.junk (lastAt c t h0 h1 xq xk xv s.2.1 s.2.2.1 s.2.2.2).2.2.1),
    vA.read (Elt F) (vA.writes (Elt F) vA.junk (lastAt c t h0 h1 xq xk xv s.2.1 s.2.2.1 s.2.2.2).2.2.2.1))

/-! Each buffer's stores cover it (every store is of the whole buffer). -/
section Covers
variable (c : Dev nD) (t : Fin cfg1.N) (xq : Vec F S1x2048x64 .bf16) (xk : Vec F S1x512x64 .bf16) (xv : Vec F S1x512x512 .bf16)
  (xm : Vec F S1x2048x1 .f32) (xl : Vec F S1x2048x1 .f32) (xa : Vec F S1x2048x512 .f32)
theorem firstM_cover (h0 : t.val % 8 = 0) (h1 : ¬t.val % 8 = 7) (y : S1x2048x1.Idx) : ∃ pc ∈ (firstAt (F := F) c t h0 h1 xq xk xv).1, y ∈ pc.1.set :=
  View.cover_of_tiledL (firstAt (F := F) c t h0 h1 xq xk xv).1 S1x2048x1.size (by sl_kernel_rfl) y
theorem firstL_cover (h0 : t.val % 8 = 0) (h1 : ¬t.val % 8 = 7) (y : S1x2048x1.Idx) : ∃ pc ∈ (firstAt (F := F) c t h0 h1 xq xk xv).2.1, y ∈ pc.1.set :=
  View.cover_of_tiledL (firstAt (F := F) c t h0 h1 xq xk xv).2.1 S1x2048x1.size (by sl_kernel_rfl) y
theorem firstA_cover (h0 : t.val % 8 = 0) (h1 : ¬t.val % 8 = 7) (y : S1x2048x512.Idx) : ∃ pc ∈ (firstAt (F := F) c t h0 h1 xq xk xv).2.2.1, y ∈ pc.1.set :=
  View.cover_of_tiledL (firstAt (F := F) c t h0 h1 xq xk xv).2.2.1 S1x2048x512.size (by sl_kernel_rfl) y
theorem midM_cover (h0 : ¬t.val % 8 = 0) (h1 : ¬t.val % 8 = 7) (y : S1x2048x1.Idx) : ∃ pc ∈ (midAt (F := F) c t h0 h1 xq xk xv xm xl xa).1, y ∈ pc.1.set :=
  View.cover_of_tiledL (midAt (F := F) c t h0 h1 xq xk xv xm xl xa).1 S1x2048x1.size (by sl_kernel_rfl) y
theorem midL_cover (h0 : ¬t.val % 8 = 0) (h1 : ¬t.val % 8 = 7) (y : S1x2048x1.Idx) : ∃ pc ∈ (midAt (F := F) c t h0 h1 xq xk xv xm xl xa).2.1, y ∈ pc.1.set :=
  View.cover_of_tiledL (midAt (F := F) c t h0 h1 xq xk xv xm xl xa).2.1 S1x2048x1.size (by sl_kernel_rfl) y
theorem midA_cover (h0 : ¬t.val % 8 = 0) (h1 : ¬t.val % 8 = 7) (y : S1x2048x512.Idx) : ∃ pc ∈ (midAt (F := F) c t h0 h1 xq xk xv xm xl xa).2.2.1, y ∈ pc.1.set :=
  View.cover_of_tiledL (midAt (F := F) c t h0 h1 xq xk xv xm xl xa).2.2.1 S1x2048x512.size (by sl_kernel_rfl) y
theorem lastO_cover (h0 : ¬t.val % 8 = 0) (h1 : t.val % 8 = 7) (y : S1x512x2048.Idx) : ∃ pc ∈ (lastAt (F := F) c t h0 h1 xq xk xv xm xl xa).1, y ∈ pc.1.set :=
  View.cover_of_tiledL (lastAt (F := F) c t h0 h1 xq xk xv xm xl xa).1 S1x512x2048.size (by sl_kernel_rfl) y
theorem lastM_cover (h0 : ¬t.val % 8 = 0) (h1 : t.val % 8 = 7) (y : S1x2048x1.Idx) : ∃ pc ∈ (lastAt (F := F) c t h0 h1 xq xk xv xm xl xa).2.1, y ∈ pc.1.set :=
  View.cover_of_tiledL (lastAt (F := F) c t h0 h1 xq xk xv xm xl xa).2.1 S1x2048x1.size (by sl_kernel_rfl) y
theorem lastL_cover (h0 : ¬t.val % 8 = 0) (h1 : t.val % 8 = 7) (y : S1x2048x1.Idx) : ∃ pc ∈ (lastAt (F := F) c t h0 h1 xq xk xv xm xl xa).2.2.1, y ∈ pc.1.set :=
  View.cover_of_tiledL (lastAt (F := F) c t h0 h1 xq xk xv xm xl xa).2.2.1 S1x2048x1.size (by sl_kernel_rfl) y
theorem lastA_cover (h0 : ¬t.val % 8 = 0) (h1 : t.val % 8 = 7) (y : S1x2048x512.Idx) : ∃ pc ∈ (lastAt (F := F) c t h0 h1 xq xk xv xm xl xa).2.2.2.1, y ∈ pc.1.set :=
  View.cover_of_tiledL (lastAt (F := F) c t h0 h1 xq xk xv xm xl xa).2.2.2.1 S1x2048x512.size (by sl_kernel_rfl) y
end Covers

/-! ## The contents point by point -/

/-- What the four buffers hold after the body at position `n`. -/
def stAt (c : Dev nD) : (n : ℕ) → n < cfg1.N → St F
  | 0, hn => firstSt c ⟨0, hn⟩ (Nat.zero_mod _) (show ¬(0 % 8 = 7) by decide) (blk V c 0 ⟨0, hn⟩) (blk V c 1 ⟨0, hn⟩) (blk V c 2 ⟨0, hn⟩)
  | n + 1, hn =>
    if h0 : (n + 1) % 8 = 0 then
      if h1 : (n + 1) % 8 = 7 then False.elim (by omega)
      else firstSt c ⟨n + 1, hn⟩ h0 h1 (blk V c 0 ⟨n + 1, hn⟩) (blk V c 1 ⟨n + 1, hn⟩) (blk V c 2 ⟨n + 1, hn⟩)
    else
      if h1 : (n + 1) % 8 = 7 then
        lastSt c ⟨n + 1, hn⟩ h0 h1 (blk V c 0 ⟨n + 1, hn⟩) (blk V c 1 ⟨n + 1, hn⟩) (blk V c 2 ⟨n + 1, hn⟩) (stAt c n (Nat.lt_of_succ_lt hn))
      else
        midSt c ⟨n + 1, hn⟩ h0 h1 (blk V c 0 ⟨n + 1, hn⟩) (blk V c 1 ⟨n + 1, hn⟩) (blk V c 2 ⟨n + 1, hn⟩) (stAt c n (Nat.lt_of_succ_lt hn))

theorem stAt_first (c : Dev nD) (t : Fin cfg1.N) (h0 : t.val % 8 = 0) (h1 : ¬t.val % 8 = 7) :
    stAt V c t.val t.isLt = firstSt c t h0 h1 (blk V c 0 t) (blk V c 1 t) (blk V c 2 t) := by
  obtain ⟨n, hn⟩ := t
  cases n with
  | zero => exact rfl
  | succ n => exact (dif_pos h0).trans ((dif_neg h1).trans rfl)
theorem stAt_mid (c : Dev nD) (t : Fin cfg1.N) (h0 : ¬t.val % 8 = 0) (h1 : ¬t.val % 8 = 7) :
    stAt V c t.val t.isLt = midSt c t h0 h1 (blk V c 0 t) (blk V c 1 t) (blk V c 2 t) (stAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem stAt_last (c : Dev nD) (t : Fin cfg1.N) (h0 : ¬t.val % 8 = 0) (h1 : t.val % 8 = 7) :
    stAt V c t.val t.isLt = lastSt c t h0 h1 (blk V c 0 t) (blk V c 1 t) (blk V c 2 t) (stAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands over (the three carried buffers at anything). Before a later point: the
    three carried buffers at what the point before left, the rest as before. -/
def inv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) sM fullShare (stAt V c n hn).2.1 ∗ owns (c : Thread nD τ) sL fullShare (stAt V c n hn).2.2.1
          ∗ owns (c : Thread nD τ) sA fullShare (stAt V c n hn).2.2.2) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) sM fullShare (stAt V c n hn).2.1 ∗ owns (c : Thread nD τ) sL fullShare (stAt V c n hn).2.2.1
          ∗ owns (c : Thread nD τ) sA fullShare (stAt V c n hn).2.2.2) ∗ (∃ r, prngReg c r)) := rfl
theorem inv_pos (c : Dev nD) (n : ℕ) (h : n ≤ cfg1.N) (hz : n ≠ 0) :
    inv V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) sM fullShare (stAt V c (n - 1) (by omega)).2.1 ∗ owns (c : Thread nD τ) sL fullShare (stAt V c (n - 1) (by omega)).2.2.1
          ∗ owns (c : Thread nD τ) sA fullShare (stAt V c (n - 1) (by omega)).2.2.2) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (stAt V c t.val t.isLt).1 := by dsimp only [dat]
theorem before_0 (c : Dev nD) (t : Fin cfg1.N) (d) : (dat V c).before 0 t d = blk V c 0 t :=
  before_in0 V (dat V c) (dat_A V c 0) (after_0 V c) t d
theorem before_1 (c : Dev nD) (t : Fin cfg1.N) (d) : (dat V c).before 1 t d = blk V c 1 t :=
  before_in1 V (dat V c) (dat_A V c 1) (after_1 V c) t d
theorem before_2 (c : Dev nD) (t : Fin cfg1.N) (d) : (dat V c).before 2 t d = blk V c 2 t :=
  before_in2 V (dat V c) (dat_A V c 2) (after_2 V c) t d

end Cert.KernelIdeal.Flash

end
-- ==== Proof.KernelIdeal.FlashBody.lean ====
/-
  The attention body meets the pipeline's obligation at every point: by the key tile the point is of one of three kinds,
  and at each the corresponding run applies — the operand buffers hold their blocks, the three carried buffers hold what
  the invariant says (anything at key tile 0, where the body resets them), the output buffer is handed back as found
  except at key tile 7, where it ends holding the quotient. The invariant is then reassembled with the carried buffers
  at the contents the recursion assigns to this point.
-/
import proofs.«130749_j38989713113556_2_alg».proof.Proof.KernelIdeal.FlashData

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (mQ t) fullShare ((dat V c).before 0 t d))
    ∗ (∃ d, owns (c : Thread nD τ) (mK t) fullShare ((dat V c).before 1 t d))
    ∗ (∃ d, owns (c : Thread nD τ) (mV t) fullShare ((dat V c).before 2 t d))
    ∗ (∃ d, owns (c : Thread nD τ) (mO t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg1.N = 64 from N_1)
  rw [show (dat V c).leavesExact 0 t = owns (c : Thread nD τ) (mQ t) fullShare ((dat V c).after 0 t) from by
    unfold Dat.leavesExact; rw [live_0 t], after_0]
  rw [show (dat V c).leavesExact 1 t = owns (c : Thread nD τ) (mK t) fullShare ((dat V c).after 1 t) from by
    unfold Dat.leavesExact; rw [live_1 t], after_1]
  rw [show (dat V c).leavesExact 2 t = owns (c : Thread nD τ) (mV t) fullShare ((dat V c).after 2 t) from by
    unfold Dat.leavesExact; rw [live_2 t], after_2]
  by_cases h0 : t.val % 8 = 0
  · have h1 : ¬t.val % 8 = 7 := by omega
    rw [Dat.leavesExact_idle (dat V c) 3 t (idle_3 t (fun h => h1 ((isLast_iff t).mp h))) (noFlush_3 t (fun h => h1 ((isLast_iff t).mp h)))]
    rw [stAt_first V c t h0 h1]
    unfold firstSt; (try dsimp only)
    by_cases hz : t.val = 0
    · rw [inv_castSucc V c t, inv_zero V c _ _ hz, entryInv_eq]
      iintro ⟨⟨⟨H1, H2, H3, H4, H5, HM, HL, HA⟩, Hg⟩, Ho, ⟨%d0, HQ⟩, ⟨%d1, HK⟩, ⟨%d2, HV⟩, ⟨%d3, HO⟩⟩
      iapply ((firstAt c t h0 h1 (blk V c 0 t) (blk V c 1 t) (blk V c 2 t)).2.2.2 _ Set.univ _)
      isplitl [HQ]; · iexact HQ
      isplitl [HK]; · iexact HK
      isplitl [HV]; · iexact HV
      isplitl [HO]; · iexact HO
      isplitl [HM]; · iexact HM
      isplitl [HL]; · iexact HL
      isplitl [HA]; · iexact HA
      iintro ⟨HQ, HK, HV, HO, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (firstM_cover c t _ _ _ h0 h1)
          isplitl [HL]
          · unfold owns; iexists _; isplitr
            swap; · iexact HL
            ipureintro; exact View.read_writes_of_cover _ _ _ _ _ (firstL_cover c t _ _ _ h0 h1)
          unfold owns; iexists _; isplitr
          swap; · iexact HA
          ipureintro; exact View.read_writes_of_cover _ _ _ _ _ (firstA_cover c t _ _ _ h0 h1)
        iexact Hg
      isplitl [Ho]; · iexact Ho
      isplitl [HQ]; · iexact HQ
      isplitl [HK]; · iexact HK
      isplitl [HV]; · iexact HV
      iexists _; iexact HO
    · rw [inv_castSucc V c t, inv_pos V c _ _ hz]
      iintro ⟨⟨⟨H1, H2, H3, H4, H5, HM, HL, HA⟩, Hg⟩, Ho, ⟨%d0, HQ⟩, ⟨%d1, HK⟩, ⟨%d2, HV⟩, ⟨%d3, HO⟩⟩
      iapply ((firstAt c t h0 h1 (blk V c 0 t) (blk V c 1 t) (blk V c 2 t)).2.2.2 _ Set.univ _)
      isplitl [HQ]; · iexact HQ
      isplitl [HK]; · iexact HK
      isplitl [HV]; · iexact HV
      isplitl [HO]; · iexact HO
      isplitl [HM]; · iexists _; iexact HM
      isplitl [HL]; · iexists _; iexact HL
      isplitl [HA]; · iexists _; iexact HA
      iintro ⟨HQ, HK, HV, HO, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (firstM_cover c t _ _ _ h0 h1)
          isplitl [HL]
          · unfold owns; iexists _; isplitr
            swap; · iexact HL
            ipureintro; exact View.read_writes_of_cover _ _ _ _ _ (firstL_cover c t _ _ _ h0 h1)
          unfold owns; iexists _; isplitr
          swap; · iexact HA
          ipureintro; exact View.read_writes_of_cover _ _ _ _ _ (firstA_cover c t _ _ _ h0 h1)
        iexact Hg
      isplitl [Ho]; · iexact Ho
      isplitl [HQ]; · iexact HQ
      isplitl [HK]; · iexact HK
      isplitl [HV]; · iexact HV
      iexists _; iexact HO
  · have hz : t.val ≠ 0 := fun e => h0 (by rw [e])
    by_cases h1 : t.val % 8 = 7
    · rw [show (dat V c).leavesExact 3 t = owns (c : Thread nD τ) (mO t) fullShare ((dat V c).after 3 t) from by
        unfold Dat.leavesExact; rw [live_3 t ((isLast_iff t).mpr h1)], after_3]
      rw [stAt_last V c t h0 h1]
      unfold lastSt; (try dsimp only)
      rw [inv_castSucc V c t, inv_pos V c _ _ hz]
      iintro ⟨⟨⟨H1, H2, H3, H4, H5, HM, HL, HA⟩, Hg⟩, Ho, ⟨%d0, HQ⟩, ⟨%d1, HK⟩, ⟨%d2, HV⟩, ⟨%d3, HO⟩⟩
      iapply ((lastAt c t h0 h1 (blk V c 0 t) (blk V c 1 t) (blk V c 2 t) _ _ _).2.2.2.2 Set.univ _)
      isplitl [HQ]; · iexact HQ
      isplitl [HK]; · iexact HK
      isplitl [HV]; · iexact HV
      isplitl [HO]; · iexists _; iexact HO
      isplitl [HM]; · iexact HM
      isplitl [HL]; · iexact HL
      isplitl [HA]; · iexact HA
      iintro ⟨HQ, HK, HV, ⟨%eo, HO⟩, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (lastM_cover c t _ _ _ _ _ _ h0 h1)
          isplitl [HL]
          · unfold owns; iexists _; isplitr
            swap; · iexact HL
            ipureintro; exact View.read_writes_of_cover _ _ _ _ _ (lastL_cover c t _ _ _ _ _ _ h0 h1)
          unfold owns; iexists _; isplitr
          swap; · iexact HA
          ipureintro; exact View.read_writes_of_cover _ _ _ _ _ (lastA_cover c t _ _ _ _ _ _ h0 h1)
        iexact Hg
      isplitl [Ho]; · iexact Ho
      isplitl [HQ]; · iexact HQ
      isplitl [HK]; · iexact HK
      isplitl [HV]; · iexact HV
      unfold owns; iexists _; isplitr
      swap; · iexact HO
      ipureintro; exact View.read_writes_of_cover _ _ _ _ _ (lastO_cover c t _ _ _ _ _ _ h0 h1)
    · rw [Dat.leavesExact_idle (dat V c) 3 t (idle_3 t (fun h => h1 ((isLast_iff t).mp h))) (noFlush_3 t (fun h => h1 ((isLast_iff t).mp h)))]
      rw [stAt_mid V c t h0 h1]
      unfold midSt; (try dsimp only)
      rw [inv_castSucc V c t, inv_pos V c _ _ hz]
      iintro ⟨⟨⟨H1, H2, H3, H4, H5, HM, HL, HA⟩, Hg⟩, Ho, ⟨%d0, HQ⟩, ⟨%d1, HK⟩, ⟨%d2, HV⟩, ⟨%d3, HO⟩⟩
      iapply ((midAt c t h0 h1 (blk V c 0 t) (blk V c 1 t) (blk V c 2 t) _ _ _).2.2.2 _ Set.univ _)
      isplitl [HQ]; · iexact HQ
      isplitl [HK]; · iexact HK
      isplitl [HV]; · iexact HV
      isplitl [HO]; · iexact HO
      isplitl [HM]; · iexact HM
      isplitl [HL]; · iexact HL
      isplitl [HA]; · iexact HA
      iintro ⟨HQ, HK, HV, HO, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (midM_cover c t _ _ _ _ _ _ h0 h1)
          isplitl [HL]
          · unfold owns; iexists _; isplitr
            swap; · iexact HL
            ipureintro; exact View.read_writes_of_cover _ _ _ _ _ (midL_cover c t _ _ _ _ _ _ h0 h1)
          unfold owns; iexists _; isplitr
          swap; · iexact HA
          ipureintro; exact View.read_writes_of_cover _ _ _ _ _ (midA_cover c t _ _ _ _ _ _ h0 h1)
        iexact Hg
      isplitl [Ho]; · iexact Ho
      isplitl [HQ]; · iexact HQ
      isplitl [HK]; · iexact HK
      isplitl [HV]; · iexact HV
      iexists _; iexact HO

/-- The pipeline library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After any point the invariant gives that back: what the carried buffers hold is forgotten. -/
theorem inv_out_of (c : Dev nD) (t : Fin (cfg1.N + 1)) (ht : t.val ≠ 0) : (dat V c).Φ t ⊢ Pipeline.ΦA spec1 c := by
  rw [show (dat V c).Φ t = inv V c t.val (Nat.le_of_lt_succ t.isLt) from rfl, inv_pos V c _ _ ht, entryInv_eq]
  iintro ⟨⟨H1, H2, H3, H4, H5, HM, HL, HA⟩, Hg⟩
  isplitl [H1 H2 H3 H4 H5 HM HL HA]
  ·
    isplitl [H1]; · iexact H1
    isplitl [H2]; · iexact H2
    isplitl [H3]; · iexact H3
    isplitl [H4]; · iexact H4
    isplitl [H5]; · iexact H5
    isplitl [HM]; · iexists _; iexact HM
    isplitl [HL]; · iexists _; iexact HL
    iexists _; iexact HA
  iexact Hg

theorem inv_out (c : Dev nD) : (dat V c).Φ (Fin.last cfg1.N) ⊢ Pipeline.ΦA spec1 c :=
  inv_out_of V c _ (by rw [Fin.val_last]; have : cfg1.N = 64 := N_1; omega)

end Cert.KernelIdeal.Flash

end
-- ==== Proof.KernelIdeal.Frames.lean ====
/-
  The whole program as a run. @main is: host operations (flatten the input, concatenate and narrow the weights), the
  projection region, host operations (cut the projection into queries, keys and values), the attention region, host
  operations (reshape, scale by gamma, add the input). Between items every unscoped buffer is held whole at a named
  valuation: a host stretch advances it by its operations; a region changes only its output array, to what its
  pipeline's write-backs leave. The run's post names every unscoped buffer's final contents; the frame — the arguments
  end unchanged — is read off it, since no item writes an argument.
-/
import proofs.«130749_j38989713113556_2_alg».proof.Proof.KernelIdeal.ProjData
import proofs.«130749_j38989713113556_2_alg».proof.Proof.KernelIdeal.FlashBody
import proofs.«130749_j38989713113556_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers as the projection region finds them. -/
abbrev In0 : (c : Dev nD) → (b : Ref sig .tc) → Buf (Elt F) ((c : Thread nD τ).loc b) := fun c b => Gen.V1 m c b
/-- After the projection region: its arrays at what the pipeline leaves, the rest as entered. -/
def after0 (c : Dev nD) : Valuation τ sig (Elt F) :=
  Pipeline.withArrays spec0 c (Gen.V1 m c) fun w => (Proj.dat (In0 m) c).arrAt w cfg0.N
/-- The regions' results with only the first chosen (what the second region's entry depends on). -/
def outs0 : Gen.Outs (F := F) := fun _ r c => after0 m c r
/-- The buffers as the attention region finds them. -/
abbrev In1 : (c : Dev nD) → (b : Ref sig .tc) → Buf (Elt F) ((c : Thread nD τ).loc b) := fun c b => Gen.V3 m (outs0 m) c b
/-- After the attention region. -/
def after1 (c : Dev nD) : Valuation τ sig (Elt F) :=
  Pipeline.withArrays spec1 c (Gen.V3 m (outs0 m) c) fun w => (Flash.dat (In1 m) c).arrAt w cfg1.N
/-- Both regions' results. -/
def outs : Gen.Outs (F := F) := fun J r c => if J = 4 then after1 m c r else after0 m c r

theorem outs_2 (c : Dev nD) : outs m 2 main_v3 c = after0 m c main_v3 := rfl
theorem outs_4 (c : Dev nD) : outs m 4 main_v10 c = after1 m c main_v10 := rfl
/-- The attention region's entry contents do not depend on the second choice. -/
theorem V3_outs (c : Dev nD) : Gen.V3 m (outs m) c = Gen.V3 m (outs0 m) c := rfl

/-- Each pipeline's proof data at its region's entry contents. -/
def pdats : (p : Fin 2) → (c : Dev nD) → Dat τ (Elt F) Unit ℕ (UR sig nD τ) ℕ (cfgs p) c
  | ⟨0, _⟩ => fun c => Proj.dat (In0 m) c
  | ⟨1, _⟩ => fun c => Flash.dat (In1 m) c

abbrev Lz : GSem nD τ sig → Finset Unit := fun _ => ∅
abbrev lvz : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-- At the projection region's exit each of its arrays holds what the pipeline leaves, -/
theorem left0 (c : Dev nD) (w : Fin cfg0.W) :
    (pdats m 0 c).arrAt w cfg0.N = (fun b : Ref sig .tc => Gen.V2 m (outs m) c b) (Pipeline.arrRef spec0 w) := by
  match w with
  | ⟨0, _⟩ => exact (((Proj.dat (In0 m) c).arrAt_in 0 rfl _).trans (Proj.dat_A (In0 m) c 0)).trans (Gen.V2_of m (outs m) c main_v0 (by decide)).symm
  | ⟨1, _⟩ => exact (((Proj.dat (In0 m) c).arrAt_in 1 rfl _).trans (Proj.dat_A (In0 m) c 1)).trans (Gen.V2_of m (outs m) c main_v2 (by decide)).symm
  | ⟨2, _⟩ =>
    show _ = Function.update (Gen.V1 m c) (Proc.devRef .tc main_v3) (outs m 2 main_v3 c) (Proc.devRef .tc main_v3)
    rw [Function.update_self, outs_2]
    unfold after0
    exact (Pipeline.withArrays_arr spec0 launch0.win.arr_inj c (Gen.V1 m c) (fun w => (Proj.dat (In0 m) c).arrAt w cfg0.N) 2).symm
/-- and every other buffer what it held at entry. -/
theorem kept0 (c : Dev nD) : ∀ b, b ∉ Finset.univ.image (Pipeline.arrRef spec0) →
    (fun b : Ref sig .tc => Gen.V2 m (outs m) c b) b = In0 m c b :=
  fun b hb => Gen.V2_of m (outs m) c b fun hmem =>
    hb (Finset.mem_image.mpr ⟨2, Finset.mem_univ _, (List.mem_singleton.mp hmem).symm⟩)

theorem left1 (c : Dev nD) (w : Fin cfg1.W) :
    (pdats m 1 c).arrAt w cfg1.N = (fun b : Ref sig .tc => Gen.V4 m (outs m) c b) (Pipeline.arrRef spec1 w) := by
  match w with
  | ⟨0, _⟩ => exact (((Flash.dat (In1 m) c).arrAt_in 0 rfl _).trans (Flash.dat_A (In1 m) c 0)).trans (Gen.V4_of m (outs m) c main_v5 (by decide)).symm
  | ⟨1, _⟩ => exact (((Flash.dat (In1 m) c).arrAt_in 1 rfl _).trans (Flash.dat_A (In1 m) c 1)).trans (Gen.V4_of m (outs m) c main_v7 (by decide)).symm
  | ⟨2, _⟩ => exact (((Flash.dat (In1 m) c).arrAt_in 2 rfl _).trans (Flash.dat_A (In1 m) c 2)).trans (Gen.V4_of m (outs m) c main_v9 (by decide)).symm
  | ⟨3, _⟩ =>
    show _ = Function.update (Gen.V3 m (outs m) c) (Proc.devRef .tc main_v10) (outs m 4 main_v10 c) (Proc.devRef .tc main_v10)
    rw [Function.update_self, outs_4]
    unfold after1
    exact (Pipeline.withArrays_arr spec1 launch1.win.arr_inj c (Gen.V3 m (outs0 m) c) (fun w => (Flash.dat (In1 m) c).arrAt w cfg1.N) 3).symm
theorem kept1 (c : Dev nD) : ∀ b, b ∉ Finset.univ.image (Pipeline.arrRef spec1) →
    (fun b : Ref sig .tc => Gen.V4 m (outs m) c b) b = In1 m c b :=
  fun b hb => Gen.V4_of m (outs m) c b fun hmem =>
    hb (Finset.mem_image.mpr ⟨3, Finset.mem_univ _, (List.mem_singleton.mp hmem).symm⟩)

/-- The invariant of each region at its two ends is what the launch hands over and takes back. -/
theorem in0 (c : Dev nD) : Pipeline.ΦA spec0 c ⊢ ((pdats m 0 c).Φ 0 : sProp 𝕄) := .rfl
theorem out0 (c : Dev nD) : ((pdats m 0 c).Φ (Fin.last cfg0.N) : sProp 𝕄) ⊢ Pipeline.ΦA spec0 c := .rfl
theorem in1 (c : Dev nD) : Pipeline.ΦA spec1 c ⊢ ((pdats m 1 c).Φ 0 : sProp 𝕄) := Flash.inv_in (In1 m) c
theorem out1 (c : Dev nD) : ((pdats m 1 c).Φ (Fin.last cfg1.N) : sProp 𝕄) ⊢ Pipeline.ΦA spec1 c := Flash.inv_out (In1 m) c

set_option backward.isDefEq.respectTransparency.types false in
/-- Region 0 as a segment: entered with every unscoped buffer at the contents before it, left with them at the contents
    after it; its windows' arrays are split out of the unscoped buffers at entry and put back, at what the pipeline
    leaves, at exit; the generator register goes into the region's invariant and comes back; nothing is owed. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (Proj.body_obligation (In0 m) c).loose
  hwaits := Pipeline.hwaits_of_owed_zero _ _ _ _ Lz lvz 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (in0 m c)
    unfold Pipeline.ΦA
    iintro ⟨Hp, -, Hr⟩
    isplitl [Hr]; · iexact Hr
    iexact Hp
  hout c := by
    rw [Pipeline.ownSems0_none]
    refine BIBase.Entails.trans (out0 m c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (fun b => Gen.V2 m (outs m) c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it; its windows' arrays are split out of the unscoped buffers at entry and put back, at what the pipeline
    leaves, at exit; the generator register goes into the region's invariant and comes back; nothing is owed. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (Flash.body_obligation (In1 m) c).loose
  hwaits := Pipeline.hwaits_of_owed_zero _ _ _ _ Lz lvz 1 fun _ _ => rfl
  pre c := iprop(StableHlo.held (c : Thread nD τ) (Pipeline.ucRefs τ sig) (Gen.V3 m (outs0 m) c) ∗ Rest c)
  post c := iprop(StableHlo.held (c : Thread nD τ) (Pipeline.ucRefs τ sig) (Gen.V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (in1 m c)
    unfold Pipeline.ΦA
    iintro ⟨Hp, -, Hr⟩
    isplitl [Hr]; · iexact Hr
    iexact Hp
  hout c := by
    rw [Pipeline.ownSems0_none]
    refine BIBase.Entails.trans (out1 m c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (fun b => Gen.V4 m (outs m) c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The rest state ends owing nothing. -/
theorem rest_owes (c : Dev nD) : Rest c ⊢ (iprop(∃ W, owes (c : Thread nD τ) (0 : CellTallies nD τ sig Unit) W) : sProp 𝕄) := by
  iintro ⟨-, H⟩; iexact H

set_option backward.isDefEq.respectTransparency.types false in
/-- THE RUN. From any memory with zero counters every weakly fair execution of @main terminates, nothing faulting, and
    every unscoped buffer of every core ends at the last valuation: the launch contents advanced through the three host
    stretches and the two regions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) adm (pdats m) () cellOf_inj emb₁ defs₀ Variants.none Lz lvz m ρ main
    (Gen.segs m (outs m) Variants.none Lz lvz (fun _ c => Rest c) () (pdats m) (reg0 m) (reg1 m))
    (fun c Q => by
      rewrite [main_chain c, Seg.run_eq_chain,
        show (Gen.segs m (outs m) Variants.none Lz lvz (fun _ c => Rest c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V5 m (outs m) c))
    (hch := fun c => ⟨.rfl, .rfl, .rfl, .rfl, .rfl, sep_mono .rfl (rest_owes c)⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨Hh, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the run, read at the five arguments; no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Gen.V5_main_arg0 m (outs m) c),
      (h c _ (mem_uc main_arg1 (by decide))).trans (Gen.V5_main_arg1 m (outs m) c),
      (h c _ (mem_uc main_arg2 (by decide))).trans (Gen.V5_main_arg2 m (outs m) c),
      (h c _ (mem_uc main_arg3 (by decide))).trans (Gen.V5_main_arg3 m (outs m) c),
      (h c _ (mem_uc main_arg4 (by decide))).trans (Gen.V5_main_arg4 m (outs m) c)⟩) (run_all m ρ)

end Cert.KernelIdeal.Hand

end
-- ==== Proof.Spec.lean ====
/-
  The two arrangements of position attention, index by index over the extended reals, with no program in sight.

  Inputs: x (4 images of 64 x 64 positions, 512 channels), three weight matrices and a scale gamma. Positions are numbered
  row-major, i = 64 h + w. Queries, keys and values are the three projections of x; the score of query position i
  against key position j is their inner product over the 64 reduced channels.

  The reference's arrangement: subtract the row maximum, exponentiate, divide by the row sum, and contract the result
  with the values over the key position.

  The kernel's arrangement: the 4096 key positions are visited in eight tiles of 512; a running maximum, a running sum
  and a running weighted sum of value entries are carried from tile to tile, each step rescaling what was carried by the
  exponential of (old maximum − new maximum); at the end the weighted sum is divided by the sum.

  Both then read the [512 channels] x [4096 positions] result as a [64, 64, 512] block in storage order (a reshape, not a
  transpose), scale it by gamma and add x.
-/
import Idealize.ShloMosaic.PureOps.Ideal

noncomputable section

namespace Cert.Spec

open Idealize.ShloMosaic

variable (x : Fin 4 → Fin 64 → Fin 64 → Fin 512 → EReal) (W1 W2 : Fin 512 → Fin 64 → EReal)
  (W3 : Fin 512 → Fin 512 → EReal) (g : EReal)

/-- x with its two spatial coordinates flattened: position i = 64 h + w. -/
def xr (b : Fin 4) (i : Fin 4096) (c : Fin 512) : EReal :=
  x b ⟨i.val / 64, by omega⟩ ⟨i.val % 64, Nat.mod_lt _ (by decide)⟩ c

/-- Queries, keys, values: x projected by each weight matrix. -/
def q (b : Fin 4) (i : Fin 4096) (k : Fin 64) : EReal := ∑ c : Fin 512, xr x b i c * W1 c k
def ky (b : Fin 4) (j : Fin 4096) (k : Fin 64) : EReal := ∑ c : Fin 512, xr x b j c * W2 c k
def vl (b : Fin 4) (j : Fin 4096) (d : Fin 512) : EReal := ∑ c : Fin 512, xr x b j c * W3 c d

/-- The score of query position i against key position j. -/
def sc (b : Fin 4) (i j : Fin 4096) : EReal := ∑ k : Fin 64, q x W1 b i k * ky x W2 b j k

/-! ## The reference's arrangement -/

/-- The row maximum, as the reference takes it: the fold of `max` from −∞ over the key positions, once more against −∞. -/
def rowMax (b : Fin 4) (i : Fin 4096) : EReal :=
  max ⊥ ((Finset.univ : Finset (Fin 4096)).fold max ⊥ fun j => sc x W1 W2 b i j)
def ex (b : Fin 4) (i j : Fin 4096) : EReal := Ideal.exp (sc x W1 W2 b i j - rowMax x W1 W2 b i)
def rowSum (b : Fin 4) (i : Fin 4096) : EReal := ∑ j : Fin 4096, ex x W1 W2 b i j
/-- The softmax weight of key position j for query position i. -/
def sm (b : Fin 4) (i j : Fin 4096) : EReal := Ideal.div (ex x W1 W2 b i j) (rowSum x W1 W2 b i)
/-- The reference's attention output, channel d at position i. -/
def oRef (b : Fin 4) (d : Fin 512) (i : Fin 4096) : EReal := ∑ j : Fin 4096, vl x W3 b j d * sm x W1 W2 b i j

/-! ## The kernel's arrangement -/

/-- Key position j of tile t. -/
def tileKey (t : Fin 8) (j : Fin 512) : Fin 4096 := ⟨t.val * 512 + j.val, by omega⟩

/-- The carried triple (running maximum, running sum, running weighted sum for channel d) for query position i after the
    first n key tiles. -/
def carried (b : Fin 4) (i : Fin 4096) (d : Fin 512) : ℕ → EReal × EReal × EReal
  | 0 => (⊥, 0, 0)
  | n + 1 =>
    if h : n < 8 then
      let p := carried b i d n
      let t : Fin 8 := ⟨n, h⟩
      let m' := max p.1 ((Finset.univ : Finset (Fin 512)).fold max ⊥ fun j => sc x W1 W2 b i (tileKey t j))
      let α := Ideal.exp (p.1 - m')
      (m', α * p.2.1 + ∑ j : Fin 512, Ideal.exp (sc x W1 W2 b i (tileKey t j) - m'),
        α * p.2.2 + ∑ j : Fin 512, Ideal.exp (sc x W1 W2 b i (tileKey t j) - m') * vl x W3 b (tileKey t j) d)
    else carried b i d n

/-- The kernel's attention output, channel d at position i: the weighted sum over the sum after all eight tiles. -/
def oKer (b : Fin 4) (d : Fin 512) (i : Fin 4096) : EReal :=
  Ideal.div (carried x W1 W2 W3 b i d 8).2.2 (carried x W1 W2 W3 b i d 8).2.1

/-! ## The shared tail -/

/-- An attention output [512 channels, 4096 positions] read in storage order as [64, 64, 512], scaled by gamma, plus x. -/
def outOf (o : Fin 4 → Fin 512 → Fin 4096 → EReal) (b : Fin 4) (h w : Fin 64) (c : Fin 512) : EReal :=
  g * o b ⟨((h.val * 64 + w.val) * 512 + c.val) / 4096, by omega⟩ ⟨((h.val * 64 + w.val) * 512 + c.val) % 4096, Nat.mod_lt _ (by decide)⟩
    + x b h w c

end Cert.Spec

end
-- ==== Proof.KernelIdeal.Args.lean ====
/-
  The program's five arguments as plain indexed families: the input by (image, row, column, channel), the three weight
  matrices by (input channel, output channel), the scale as one number. Everything the kernel's side states about values
  is a statement about these.
-/
import proofs.«130749_j38989713113556_2_alg».proof.Proof.KernelIdeal.Frames
import proofs.«130749_j38989713113556_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

def argX : Fin 4 → Fin 64 → Fin 64 → Fin 512 → EReal :=
  fun b h w ch => (m ((c.tc : Thread nD τ).loc main_arg0) : S4x64x64x512.Idx → EReal) (ix4 b h w ch)
def argW1 : Fin 512 → Fin 64 → EReal := fun a k => (m ((c.tc : Thread nD τ).loc main_arg1) : S512x64.Idx → EReal) (ix2 a k)
def argW2 : Fin 512 → Fin 64 → EReal := fun a k => (m ((c.tc : Thread nD τ).loc main_arg2) : S512x64.Idx → EReal) (ix2 a k)
def argW3 : Fin 512 → Fin 512 → EReal := fun a d => (m ((c.tc : Thread nD τ).loc main_arg3) : S512x512.Idx → EReal) (ix2 a d)
def argG : EReal := (m ((c.tc : Thread nD τ).loc main_arg4) : S1.Idx → EReal) (ix1 0)

end Cert.KernelIdeal.Hand

end
-- ==== Proof.KernelIdeal.ProjHost.lean ====
/-
  The host operations around the projection, read at an index. Before the region: the flattened input is x with
  its image, row and column coordinates run together (row 4096 b + 64 h + w), and the concatenated weight has W1 in columns
  0 … 63, W2 in columns 64 … 127 and W3 in columns 128 … 639. After it: queries, keys and values are those three column
  ranges of the product, with the row coordinate split again into image and position.
-/
import proofs.«130749_j38989713113556_2_alg».proof.Proof.KernelIdeal.Args
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The flattened input, as the projection region finds it. -/
theorem flatX_eq : (In0 (F := Ideal) m c main_v0 : S16384x512.Idx → EReal)
    = shapeCast S16384x512 (m ((c.tc : Thread nD τ).loc main_arg0) : S4x64x64x512.Idx → EReal) shapeCasts_S4x64x64x512_S16384x512 := by
  show StableHlo.after hostOps0 _ (Proc.devRef .tc main_v0) = _
  after_results
  rfl

/-- Row 4096 b + i of the flattened input is x at image b, position i. -/
theorem flatX_apply (b : Fin 4) (i : Fin 4096) (k : Fin 512) :
    (In0 (F := Ideal) m c main_v0 : S16384x512.Idx → EReal) (ix2 (n0 := 16384) ⟨b.val * 4096 + i.val, by omega⟩ k)
      = Cert.Spec.xr (argX m c) b i k := by
  rw [flatX_eq]
  unfold Cert.Spec.xr argX
  refine shapeCast_apply _ shapeCasts_S4x64x64x512_S16384x512 _ (ix4 b ⟨i.val / 64, by omega⟩ ⟨i.val % 64, Nat.mod_lt _ (by decide)⟩ k) ?_
  rewrite [Shape.rowMajor_val_four, Shape.rowMajor_val_two]
  show ((b.val * 64 + i.val / 64) * 64 + i.val % 64) * 512 + k.val = (b.val * 4096 + i.val) * 512 + k.val
  omega

local notation "catH" => concatenates_S512x64_S512x64_S512x512_S512x640_d1

/-- The concatenated weight, as the projection region finds it. -/
theorem catW_eq : (In0 (F := Ideal) m c main_v2 : S512x640.Idx → EReal)
    = concatenate S512x640 1 [⟨S512x64, (m ((c.tc : Thread nD τ).loc main_arg1) : S512x64.Idx → EReal)⟩,
        ⟨S512x64, (m ((c.tc : Thread nD τ).loc main_arg2) : S512x64.Idx → EReal)⟩,
        ⟨S512x512, (m ((c.tc : Thread nD τ).loc main_arg3) : S512x512.Idx → EReal)⟩] catH := by
  show StableHlo.after hostOps0 _ (Proc.devRef .tc main_v2) = _
  after_results
  rfl

section ThreePieces
variable (A B : S512x64.Idx → EReal) (C : S512x512.Idx → EReal)

/-- Three matrices side by side, read at a column of the first, -/
theorem cat3_fst (k : Fin 512) (n : Fin 64) :
    concatenate S512x640 1 [⟨S512x64, A⟩, ⟨S512x64, B⟩, ⟨S512x512, C⟩] catH (ix2 k (n1 := 640) ⟨n.val, by omega⟩) = A (ix2 k n) := by
  refine concatenate_apply_piece (t := S512x640) (1 : Fin 2) [⟨S512x64, A⟩, ⟨S512x64, B⟩, ⟨S512x512, C⟩] catH _ 0 (by show 0 < 3; omega) S512x64 A rfl rfl 0 rfl (ix2 k n) ?_ ?_
  · intro b hb
    match b with
    | ⟨0, _⟩ => rfl
    | ⟨1, _⟩ => exact absurd rfl hb
  · show 0 + n.val = n.val; omega

/-- of the second, -/
theorem cat3_snd (k : Fin 512) (n : Fin 64) :
    concatenate S512x640 1 [⟨S512x64, A⟩, ⟨S512x64, B⟩, ⟨S512x512, C⟩] catH (ix2 k (n1 := 640) ⟨64 + n.val, by omega⟩) = B (ix2 k n) := by
  refine concatenate_apply_piece (t := S512x640) (1 : Fin 2) [⟨S512x64, A⟩, ⟨S512x64, B⟩, ⟨S512x512, C⟩] catH _ 1 (by show 1 < 3; omega) S512x64 B rfl rfl 64 rfl (ix2 k n) ?_ ?_
  · intro b hb
    match b with
    | ⟨0, _⟩ => rfl
    | ⟨1, _⟩ => exact absurd rfl hb
  · rfl

/-- and of the third. -/
theorem cat3_thd (k : Fin 512) (d : Fin 512) :
    concatenate S512x640 1 [⟨S512x64, A⟩, ⟨S512x64, B⟩, ⟨S512x512, C⟩] catH (ix2 k (n1 := 640) ⟨128 + d.val, by omega⟩) = C (ix2 k d) := by
  refine concatenate_apply_piece (t := S512x640) (1 : Fin 2) [⟨S512x64, A⟩, ⟨S512x64, B⟩, ⟨S512x512, C⟩] catH _ 2 (by show 2 < 3; omega) S512x512 C rfl rfl 128 rfl (ix2 k d) ?_ ?_
  · intro b hb
    match b with
    | ⟨0, _⟩ => rfl
    | ⟨1, _⟩ => exact absurd rfl hb
  · rfl

end ThreePieces

/-- Columns 0 … 63 of the concatenated weight are W1, -/
theorem catW_q (k : Fin 512) (n : Fin 64) :
    (In0 (F := Ideal) m c main_v2 : S512x640.Idx → EReal) (ix2 k (n1 := 640) ⟨n.val, by omega⟩) = argW1 m c k n := by
  rw [catW_eq]; exact cat3_fst _ _ _ k n

/-- columns 64 … 127 are W2, -/
theorem catW_k (k : Fin 512) (n : Fin 64) :
    (In0 (F := Ideal) m c main_v2 : S512x640.Idx → EReal) (ix2 k (n1 := 640) ⟨64 + n.val, by omega⟩) = argW2 m c k n := by
  rw [catW_eq]; exact cat3_snd _ _ _ k n

/-- and columns 128 … 639 are W3. -/
theorem catW_v (k : Fin 512) (d : Fin 512) :
    (In0 (F := Ideal) m c main_v2 : S512x640.Idx → EReal) (ix2 k (n1 := 640) ⟨128 + d.val, by omega⟩) = argW3 m c k d := by
  rw [catW_eq]; exact cat3_thd _ _ _ k d

end Cert.KernelIdeal.Hand

end
-- ==== Proof.KernelIdeal.ProjCut.lean ====
/-
  The host operations after the projection, read at an index. Queries are columns 0 … 63 of the product, keys columns
  64 … 127 and values columns 128 … 639; each is then read with its 16384 rows split into 4 images of 4096 positions:
  row 4096 b + i is image b, position i.
-/
import proofs.«130749_j38989713113556_2_alg».proof.Proof.KernelIdeal.Args
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The product array, as the host operations after the projection find it, is what the projection's pipeline left. -/
theorem prod_found : (Gen.V2 (F := Ideal) m (outs0 m) c (Proc.devRef .tc main_v3) : S16384x640.Idx → EReal)
    = (Proj.dat (In0 m) c).arrAt 2 cfg0.N := by
  show Function.update (Gen.V1 m c) (Proc.devRef .tc main_v3) (outs0 m 2 main_v3 c) (Proc.devRef .tc main_v3) = _
  rw [Function.update_self]
  show after0 m c main_v3 = _
  unfold after0
  exact Pipeline.withArrays_arr spec0 launch0.win.arr_inj c (Gen.V1 m c) (fun w => (Proj.dat (In0 m) c).arrAt w cfg0.N) 2

/-- The queries, keys and values as the attention region finds them: slices of the product, reshaped. -/
theorem qArr_eq : (In1 (F := Ideal) m c main_v5 : S4x4096x64.Idx → EReal)
    = shapeCast S4x4096x64 (extractStridedSlice S16384x64 ![0, 0]
        ((Proj.dat (In0 m) c).arrAt 2 cfg0.N : S16384x640.Idx → EReal) slices_S16384x640_S16384x64_0_0) shapeCasts_S16384x64_S4x4096x64 := by
  rw [← prod_found]
  show StableHlo.after hostOps1 _ (Proc.devRef .tc main_v5) = _
  after_results
  rfl
theorem kArr_eq : (In1 (F := Ideal) m c main_v7 : S4x4096x64.Idx → EReal)
    = shapeCast S4x4096x64 (extractStridedSlice S16384x64 ![0, 64]
        ((Proj.dat (In0 m) c).arrAt 2 cfg0.N : S16384x640.Idx → EReal) slices_S16384x640_S16384x64_0_64) shapeCasts_S16384x64_S4x4096x64 := by
  rw [← prod_found]
  show StableHlo.after hostOps1 _ (Proc.devRef .tc main_v7) = _
  after_results
  rfl
theorem vArr_eq : (In1 (F := Ideal) m c main_v9 : S4x4096x512.Idx → EReal)
    = shapeCast S4x4096x512 (extractStridedSlice S16384x512 ![0, 128]
        ((Proj.dat (In0 m) c).arrAt 2 cfg0.N : S16384x640.Idx → EReal) slices_S16384x640_S16384x512_0_128) shapeCasts_S16384x512_S4x4096x512 := by
  rw [← prod_found]
  show StableHlo.after hostOps1 _ (Proc.devRef .tc main_v9) = _
  after_results
  rfl

section Cuts
variable (Y : S16384x640.Idx → EReal)

/-- Columns 0 … 63 with the rows split: image b, position i, column k is row 4096 b + i, column k. -/
theorem cut_q (b : Fin 4) (i : Fin 4096) (k : Fin 64) :
    shapeCast S4x4096x64 (extractStridedSlice S16384x64 ![0, 0] Y slices_S16384x640_S16384x64_0_0) shapeCasts_S16384x64_S4x4096x64 (ix3 b i k)
      = Y (ix2 (n0 := 16384) (n1 := 640) ⟨b.val * 4096 + i.val, by omega⟩ ⟨k.val, by omega⟩) := by
  refine (shapeCast_apply _ shapeCasts_S16384x64_S4x4096x64 _ (ix2 (n0 := 16384) (n1 := 64) ⟨b.val * 4096 + i.val, by omega⟩ k) ?_).trans ?_
  · rewrite [Shape.rowMajor_val_two, Shape.rowMajor_val_three]; rfl
  · refine extractStridedSlice_apply _ _ _ _ _ fun a => ?_
    match a with
    | ⟨0, _⟩ => show b.val * 4096 + i.val = 0 + (b.val * 4096 + i.val); omega
    | ⟨1, _⟩ => show k.val = 0 + k.val; omega

/-- Columns 64 … 127 likewise, -/
theorem cut_k (b : Fin 4) (i : Fin 4096) (k : Fin 64) :
    shapeCast S4x4096x64 (extractStridedSlice S16384x64 ![0, 64] Y slices_S16384x640_S16384x64_0_64) shapeCasts_S16384x64_S4x4096x64 (ix3 b i k)
      = Y (ix2 (n0 := 16384) (n1 := 640) ⟨b.val * 4096 + i.val, by omega⟩ ⟨64 + k.val, by omega⟩) := by
  refine (shapeCast_apply _ shapeCasts_S16384x64_S4x4096x64 _ (ix2 (n0 := 16384) (n1 := 64) ⟨b.val * 4096 + i.val, by omega⟩ k) ?_).trans ?_
  · rewrite [Shape.rowMajor_val_two, Shape.rowMajor_val_three]; rfl
  · refine extractStridedSlice_apply _ _ _ _ _ fun a => ?_
    match a with
    | ⟨0, _⟩ => show b.val * 4096 + i.val = 0 + (b.val * 4096 + i.val); omega
    | ⟨1, _⟩ => rfl

/-- and columns 128 … 639. -/
theorem cut_v (b : Fin 4) (i : Fin 4096) (d : Fin 512) :
    shapeCast S4x4096x512 (extractStridedSlice S16384x512 ![0, 128] Y slices_S16384x640_S16384x512_0_128) shapeCasts_S16384x512_S4x4096x512 (ix3 b i d)
      = Y (ix2 (n0 := 16384) (n1 := 640) ⟨b.val * 4096 + i.val, by omega⟩ ⟨128 + d.val, by omega⟩) := by
  refine (shapeCast_apply _ shapeCasts_S16384x512_S4x4096x512 _ (ix2 (n0 := 16384) (n1 := 512) ⟨b.val * 4096 + i.val, by omega⟩ d) ?_).trans ?_
  · rewrite [Shape.rowMajor_val_two, Shape.rowMajor_val_three]; rfl
  · refine extractStridedSlice_apply _ _ _ _ _ fun a => ?_
    match a with
    | ⟨0, _⟩ => show b.val * 4096 + i.val = 0 + (b.val * 4096 + i.val); omega
    | ⟨1, _⟩ => rfl

end Cuts

end Cert.KernelIdeal.Hand

end
-- ==== Proof.KernelIdeal.ProjQKV.lean ====
/-
  The kernel's queries, keys and values are the specification's. The attention region finds, in its three operand
  arrays, the three column ranges of the projection's product with the rows split into image and position; the product's
  entry at row 4096 b + i is the sum over the input channels of x at image b, position i, times the concatenated weight's
  entry; and the concatenated weight's three column ranges are W1, W2 and W3. So each entry is the specification's sum.
-/
import proofs.«130749_j38989713113556_2_alg».proof.Proof.KernelIdeal.ProjArr
import proofs.«130749_j38989713113556_2_alg».proof.Proof.KernelIdeal.ProjHost
import proofs.«130749_j38989713113556_2_alg».proof.Proof.KernelIdeal.ProjCut

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The queries the attention region finds are the specification's. -/
theorem q_eq (b : Fin 4) (i : Fin 4096) (k : Fin 64) :
    (In1 (F := Ideal) m c main_v5 : S4x4096x64.Idx → EReal) (ix3 b i k) = Cert.Spec.q (argX m c) (argW1 m c) b i k := by
  rw [qArr_eq, cut_q, proj_final]
  unfold prodArr Cert.Spec.q
  show (_ : EReal) = _
  exact Finset.sum_congr rfl fun ch _ => congrArg₂ (· * ·) (flatX_apply m c b i ch) (catW_q m c ch k)

/-- The keys the attention region finds are the specification's. -/
theorem ky_eq (b : Fin 4) (j : Fin 4096) (k : Fin 64) :
    (In1 (F := Ideal) m c main_v7 : S4x4096x64.Idx → EReal) (ix3 b j k) = Cert.Spec.ky (argX m c) (argW2 m c) b j k := by
  rw [kArr_eq, cut_k, proj_final]
  unfold prodArr Cert.Spec.ky
  show (_ : EReal) = _
  exact Finset.sum_congr rfl fun ch _ => congrArg₂ (· * ·) (flatX_apply m c b j ch) (catW_k m c ch k)

/-- The values the attention region finds are the specification's. -/
theorem vl_eq (b : Fin 4) (j : Fin 4096) (d : Fin 512) :
    (In1 (F := Ideal) m c main_v9 : S4x4096x512.Idx → EReal) (ix3 b j d) = Cert.Spec.vl (argX m c) (argW3 m c) b j d := by
  rw [vArr_eq, cut_v, proj_final]
  unfold prodArr Cert.Spec.vl
  show (_ : EReal) = _
  exact Finset.sum_congr rfl fun ch _ => congrArg₂ (· * ·) (flatX_apply m c b j ch) (catW_v m c ch d)

end Cert.KernelIdeal.Hand

end
-- ==== Proof.KernelIdeal.FlashStep.lean ====
/-
  One key tile's update of the three carried buffers, as pure functions of the query, key and value blocks and of what was
  carried: the new running maximum is the old one against the tile's row maxima of the scores; the running sum and the
  running weighted sum are rescaled by the exponential of (old maximum − new maximum) and increased by the tile's
  exponentials and by their product with the value block. What each kind of point stores is exactly these functions of
  what it found — at key tile 0, of the neutral values it has just written.
-/
import proofs.«130749_j38989713113556_2_alg».proof.Proof.KernelIdeal.FlashData
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def stepM (q : Vec F S1x2048x64 .bf16) (k : Vec F S1x512x64 .bf16) (m : Vec F S1x2048x1 .f32) : Vec F S1x2048x1 .f32 :=
  k1_pay2 (k1_pay8 q k m)
def stepL (q : Vec F S1x2048x64 .bf16) (k : Vec F S1x512x64 .bf16) (m l : Vec F S1x2048x1 .f32) : Vec F S1x2048x1 .f32 :=
  k1_pay11 q k m m l
def stepA (q : Vec F S1x2048x64 .bf16) (k : Vec F S1x512x64 .bf16) (v : Vec F S1x512x512 .bf16) (m : Vec F S1x2048x1 .f32)
    (a : Vec F S1x2048x512 .f32) : Vec F S1x2048x512 .f32 :=
  k1_pay1 (k1_pay10 q k m) (k1_pay12 q k m m a) v
/-- The last tile's extra store: the weighted sum over the sum, transposed. -/
def quot (a : Vec F S1x2048x512 .f32) (l : Vec F S1x2048x1 .f32) : Vec F S1x512x2048 .f32 := k1_pay3 a l

theorem hz3 : (![0, 0, 0] : Fin 3 → Nat) = fun _ => 0 := by funext a; fin_cases a <;> rfl

/-- A whole carried buffer, written at contents `X`, reads back `X`. -/
theorem readM (h : (sM : Memref sig .tc .vmem S1x2048x1 .f32).IsWhole) (X : Vec F S1x2048x1 .f32) :
    View.read (Elt F) (View.whole cc1_scratch0 : View sig .tc .vmem S1x2048x1 .f32) (h.unread X) = X := h.read_unread X
theorem readL (h : (sL : Memref sig .tc .vmem S1x2048x1 .f32).IsWhole) (X : Vec F S1x2048x1 .f32) :
    View.read (Elt F) (View.whole cc1_scratch1 : View sig .tc .vmem S1x2048x1 .f32) (h.unread X) = X := h.read_unread X
theorem readA (h : (sA : Memref sig .tc .vmem S1x2048x512 .f32).IsWhole) (X : Vec F S1x2048x512 .f32) :
    View.read (Elt F) (View.whole cc1_scratch2 : View sig .tc .vmem S1x2048x512 .f32) (h.unread X) = X := h.read_unread X

section
variable (c : Dev nD) (t : Fin cfg1.N) (xq : Vec F S1x2048x64 .bf16) (xk : Vec F S1x512x64 .bf16) (xv : Vec F S1x512x512 .bf16) (s : St F)

section First
variable (h0 : t.val % 8 = 0) (h1 : ¬t.val % 8 = 7)
theorem firstSt_M : (firstSt (F := F) c t h0 h1 xq xk xv).2.1 = stepM xq xk k1_pay4 := by
  unfold firstSt; dsimp only
  rw [View.read_writes_eq_canon _ _ _ (firstM_cover c t xq xk xv h0 h1)]
  unfold firstAt runFirst; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem firstSt_L : (firstSt (F := F) c t h0 h1 xq xk xv).2.2.1 = stepL xq xk k1_pay4 k1_pay5 := by
  unfold firstSt; dsimp only
  rw [View.read_writes_eq_canon _ _ _ (firstL_cover c t xq xk xv h0 h1)]
  unfold firstAt runFirst; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem firstSt_A : (firstSt (F := F) c t h0 h1 xq xk xv).2.2.2 = stepA xq xk xv k1_pay4 k1_pay6 := by
  unfold firstSt; dsimp only
  rw [View.read_writes_eq_canon _ _ _ (firstA_cover c t xq xk xv h0 h1)]
  unfold firstAt runFirst; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

end First

section Mid
variable (h0 : ¬t.val % 8 = 0) (h1 : ¬t.val % 8 = 7)
theorem midSt_M : (midSt (F := F) c t h0 h1 xq xk xv s).2.1 = stepM xq xk s.2.1 := by
  unfold midSt; dsimp only
  rw [View.read_writes_eq_canon _ _ _ (midM_cover c t xq xk xv _ _ _ h0 h1)]
  unfold midAt runMid; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem midSt_L : (midSt (F := F) c t h0 h1 xq xk xv s).2.2.1 = stepL xq xk s.2.1 s.2.2.1 := by
  unfold midSt; dsimp only
  rw [View.read_writes_eq_canon _ _ _ (midL_cover c t xq xk xv _ _ _ h0 h1)]
  unfold midAt runMid; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem midSt_A : (midSt (F := F) c t h0 h1 xq xk xv s).2.2.2 = stepA xq xk xv s.2.1 s.2.2.2 := by
  unfold midSt; dsimp only
  rw [View.read_writes_eq_canon _ _ _ (midA_cover c t xq xk xv _ _ _ h0 h1)]
  unfold midAt runMid; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

end Mid

section Last
variable (h0 : ¬t.val % 8 = 0) (h1 : t.val % 8 = 7)
theorem lastSt_M : (lastSt (F := F) c t h0 h1 xq xk xv s).2.1 = stepM xq xk s.2.1 := by
  unfold lastSt; dsimp only
  rw [View.read_writes_eq_canon _ _ _ (lastM_cover c t xq xk xv _ _ _ h0 h1)]
  unfold lastAt runLast; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem lastSt_L : (lastSt (F := F) c t h0 h1 xq xk xv s).2.2.1 = stepL xq xk s.2.1 s.2.2.1 := by
  unfold lastSt; dsimp only
  rw [View.read_writes_eq_canon _ _ _ (lastL_cover c t xq xk xv _ _ _ h0 h1)]
  unfold lastAt runLast; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem lastSt_A : (lastSt (F := F) c t h0 h1 xq xk xv s).2.2.2 = stepA xq xk xv s.2.1 s.2.2.2 := by
  unfold lastSt; dsimp only
  rw [View.read_writes_eq_canon _ _ _ (lastA_cover c t xq xk xv _ _ _ h0 h1)]
  unfold lastAt runLast; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

theorem lastSt_O : (lastSt (F := F) c t h0 h1 xq xk xv s).1 = quot (stepA xq xk xv s.2.1 s.2.2.2) (stepL xq xk s.2.1 s.2.2.1) := by
  unfold lastSt; dsimp only
  rw [View.read_writes_eq_canon _ _ _ (lastO_cover c t xq xk xv _ _ _ h0 h1)]
  unfold lastAt runLast; dsimp only
  sl_unfold_words
  rw [View.canon_cons_unit_zero hz3]
  simp only [stepM, stepL, stepA, quot, View.readAt_eq_ld, Memref.IsWhole.read_unread, readM, readL, readA,
    View.ld_unit_zero (S := S1x2048x64) hz3, View.ld_unit_zero (S := S1x512x64) hz3,
    View.ld_unit_zero (S := S1x512x512) hz3, View.ld_unit_zero (S := S1x2048x1) hz3, View.ld_unit_zero (S := S1x2048x512) hz3,
    View.readCov_unit_zero (S := S1x2048x1) _ hz3, View.readCov_unit_zero (S := S1x2048x512) _ hz3]
  try rfl

end Last
end

end Cert.KernelIdeal.Flash

end
-- ==== Proof.KernelIdeal.FlashIdx.lean ====
/-
  One key tile's update, entry by entry, over the extended reals. For a row r of the query tile and a key row j of the
  key tile the score is the inner product of the two rows over the 64 reduced channels; the tile's row maximum is the fold
  of max from −∞ over the 512 key rows; the new running maximum is the old one against it.
-/
import proofs.«130749_j38989713113556_2_alg».proof.Proof.KernelIdeal.FlashStep
import Idealize.ShloMosaic.Lib.ValueIdx
import Idealize.ShloMosaic.Lib.Pipeline.Value
import Idealize.ShloMosaic.PureOps.Ideal.Laws

set_option maxRecDepth 16384

noncomputable section

namespace Cert.KernelIdeal.Flash

open Cert.KernelIdeal Cert.KernelIdeal.Gen
open Idealize.ShloMosaic Idealize.ShloMosaic.ValueIdx

/-- The pattern of −∞ denotes the bottom of the extended reals, the zero pattern zero. -/
theorem negInf_eq : Ideal.ofBits .f32 0xFF800000#32 = (⊥ : EReal) := by simp [Ideal.ofBits, Ideal.ieee]

/-! The operand indices of the two matrix products, coordinate by coordinate. -/
theorem sc_l0 (i : S1x2048x512.Idx) (qq : dot_S1x2048x64_S1x512x64_S1x2048x512_2_2_1_1_0_0.contr.Idx) :
    (dot_S1x2048x64_S1x512x64_S1x2048x512_2_2_1_1_0_0.lhsIdx i qq 0).val = (i 0).val := by
  unfold DotDims.lhsIdx
  rw [dif_pos (show (0 : Fin S1x2048x64.rank) ∈ dot_S1x2048x64_S1x512x64_S1x2048x512_2_2_1_1_0_0.lhsBatch by decide)]
  rfl
theorem sc_l1 (i : S1x2048x512.Idx) (qq : dot_S1x2048x64_S1x512x64_S1x2048x512_2_2_1_1_0_0.contr.Idx) :
    (dot_S1x2048x64_S1x512x64_S1x2048x512_2_2_1_1_0_0.lhsIdx i qq 1).val = (i 1).val := by
  unfold DotDims.lhsIdx
  rw [dif_neg (show ¬(1 : Fin S1x2048x64.rank) ∈ dot_S1x2048x64_S1x512x64_S1x2048x512_2_2_1_1_0_0.lhsBatch by decide), dif_pos (show (1 : Fin S1x2048x64.rank) ∈ dot_S1x2048x64_S1x512x64_S1x2048x512_2_2_1_1_0_0.lhsNonContracting by decide)]
  rfl
theorem sc_l2 (i : S1x2048x512.Idx) (qq : dot_S1x2048x64_S1x512x64_S1x2048x512_2_2_1_1_0_0.contr.Idx) :
    (dot_S1x2048x64_S1x512x64_S1x2048x512_2_2_1_1_0_0.lhsIdx i qq 2).val = (qq ⟨0, by decide⟩).val :=
  dot_S1x2048x64_S1x512x64_S1x2048x512_2_2_1_1_0_0.lhsIdx_val_of_single rfl i qq
theorem sc_r0 (i : S1x2048x512.Idx) (qq : dot_S1x2048x64_S1x512x64_S1x2048x512_2_2_1_1_0_0.contr.Idx) :
    (dot_S1x2048x64_S1x512x64_S1x2048x512_2_2_1_1_0_0.rhsIdx i qq 0).val = (i 0).val := by
  unfold DotDims.rhsIdx
  rw [dif_pos (show (0 : Fin S1x512x64.rank) ∈ dot_S1x2048x64_S1x512x64_S1x2048x512_2_2_1_1_0_0.rhsBatch by decide)]
  rfl
theorem sc_r1 (i : S1x2048x512.Idx) (qq : dot_S1x2048x64_S1x512x64_S1x2048x512_2_2_1_1_0_0.contr.Idx) :
    (dot_S1x2048x64_S1x512x64_S1x2048x512_2_2_1_1_0_0.rhsIdx i qq 1).val = (i 2).val := by
  unfold DotDims.rhsIdx
  rw [dif_neg (show ¬(1 : Fin S1x512x64.rank) ∈ dot_S1x2048x64_S1x512x64_S1x2048x512_2_2_1_1_0_0.rhsBatch by decide), dif_pos (show (1 : Fin S1x512x64.rank) ∈ dot_S1x2048x64_S1x512x64_S1x2048x512_2_2_1_1_0_0.rhsNonContracting by decide)]
  rfl
theorem sc_r2 (i : S1x2048x512.Idx) (qq : dot_S1x2048x64_S1x512x64_S1x2048x512_2_2_1_1_0_0.contr.Idx) :
    (dot_S1x2048x64_S1x512x64_S1x2048x512_2_2_1_1_0_0.rhsIdx i qq 2).val = (qq ⟨0, by decide⟩).val :=
  dot_S1x2048x64_S1x512x64_S1x2048x512_2_2_1_1_0_0.rhsIdx_val_of_single rfl i qq
theorem pv_l0 (i : S1x2048x512.Idx) (qq : dot_S1x2048x512_S1x512x512_S1x2048x512_2_1_1_2_0_0.contr.Idx) :
    (dot_S1x2048x512_S1x512x512_S1x2048x512_2_1_1_2_0_0.lhsIdx i qq 0).val = (i 0).val := by
  unfold DotDims.lhsIdx
  rw [dif_pos (show (0 : Fin S1x2048x512.rank) ∈ dot_S1x2048x512_S1x512x512_S1x2048x512_2_1_1_2_0_0.lhsBatch by decide)]
  rfl
theorem pv_l1 (i : S1x2048x512.Idx) (qq : dot_S1x2048x512_S1x512x512_S1x2048x512_2_1_1_2_0_0.contr.Idx) :
    (dot_S1x2048x512_S1x512x512_S1x2048x512_2_1_1_2_0_0.lhsIdx i qq 1).val = (i 1).val := by
  unfold DotDims.lhsIdx
  rw [dif_neg (show ¬(1 : Fin S1x2048x512.rank) ∈ dot_S1x2048x512_S1x512x512_S1x2048x512_2_1_1_2_0_0.lhsBatch by decide), dif_pos (show (1 : Fin S1x2048x512.rank) ∈ dot_S1x2048x512_S1x512x512_S1x2048x512_2_1_1_2_0_0.lhsNonContracting by decide)]
  rfl
theorem pv_l2 (i : S1x2048x512.Idx) (qq : dot_S1x2048x512_S1x512x512_S1x2048x512_2_1_1_2_0_0.contr.Idx) :
    (dot_S1x2048x512_S1x512x512_S1x2048x512_2_1_1_2_0_0.lhsIdx i qq 2).val = (qq ⟨0, by decide⟩).val :=
  dot_S1x2048x512_S1x512x512_S1x2048x512_2_1_1_2_0_0.lhsIdx_val_of_single rfl i qq
theorem pv_r0 (i : S1x2048x512.Idx) (qq : dot_S1x2048x512_S1x512x512_S1x2048x512_2_1_1_2_0_0.contr.Idx) :
    (dot_S1x2048x512_S1x512x512_S1x2048x512_2_1_1_2_0_0.rhsIdx i qq 0).val = (i 0).val := by
  unfold DotDims.rhsIdx
  rw [dif_pos (show (0 : Fin S1x512x512.rank) ∈ dot_S1x2048x512_S1x512x512_S1x2048x512_2_1_1_2_0_0.rhsBatch by decide)]
  rfl
theorem pv_r1 (i : S1x2048x512.Idx) (qq : dot_S1x2048x512_S1x512x512_S1x2048x512_2_1_1_2_0_0.contr.Idx) :
    (dot_S1x2048x512_S1x512x512_S1x2048x512_2_1_1_2_0_0.rhsIdx i qq 1).val = (qq ⟨0, by decide⟩).val :=
  dot_S1x2048x512_S1x512x512_S1x2048x512_2_1_1_2_0_0.rhsIdx_val_of_single rfl i qq
theorem pv_r2 (i : S1x2048x512.Idx) (qq : dot_S1x2048x512_S1x512x512_S1x2048x512_2_1_1_2_0_0.contr.Idx) :
    (dot_S1x2048x512_S1x512x512_S1x2048x512_2_1_1_2_0_0.rhsIdx i qq 2).val = (i 2).val := by
  unfold DotDims.rhsIdx
  rw [dif_neg (show ¬(2 : Fin S1x512x512.rank) ∈ dot_S1x2048x512_S1x512x512_S1x2048x512_2_1_1_2_0_0.rhsBatch by decide), dif_pos (show (2 : Fin S1x512x512.rank) ∈ dot_S1x2048x512_S1x512x512_S1x2048x512_2_1_1_2_0_0.rhsNonContracting by decide)]
  rfl

variable (q : Vec Ideal S1x2048x64 .bf16) (k : Vec Ideal S1x512x64 .bf16)

/-- The score of query row `r` against key row `j` of the tile. -/
def score (r : Fin 2048) (j : Fin 512) : EReal := ∑ e : Fin 64, q (ix3 0 r e) * k (ix3 0 j e)

theorem scores_apply (r : Fin 2048) (j : Fin 512) : k1_pay7 (F := Ideal) q k (ix3 0 r j) = score q k r j := by
  unfold k1_pay7 score
  simp only [matmul, shapeCast_self]
  rw [Ideal.matmul_constant_zero_apply, ← Equiv.sum_comp (contrEquiv1 dot_S1x2048x64_S1x512x64_S1x2048x512_2_2_1_1_0_0 64 rfl rfl).symm]
  refine Finset.sum_congr rfl fun e _ => ?_
  have hk := contrEquiv1_symm_val dot_S1x2048x64_S1x512x64_S1x2048x512_2_2_1_1_0_0 64 rfl rfl e
  have el : dot_S1x2048x64_S1x512x64_S1x2048x512_2_2_1_1_0_0.lhsIdx (ix3 0 r j) ((contrEquiv1 dot_S1x2048x64_S1x512x64_S1x2048x512_2_2_1_1_0_0 64 rfl rfl).symm e) = ix3 0 r e := funext fun a => Fin.ext (by
    match a with
    | ⟨0, _⟩ => exact sc_l0 _ _
    | ⟨1, _⟩ => exact sc_l1 _ _
    | ⟨2, _⟩ => exact (sc_l2 _ _).trans hk)
  have er : dot_S1x2048x64_S1x512x64_S1x2048x512_2_2_1_1_0_0.rhsIdx (ix3 0 r j) ((contrEquiv1 dot_S1x2048x64_S1x512x64_S1x2048x512_2_2_1_1_0_0 64 rfl rfl).symm e) = ix3 0 j e := funext fun a => Fin.ext (by
    match a with
    | ⟨0, _⟩ => exact sc_r0 _ _
    | ⟨1, _⟩ => exact sc_r1 _ _
    | ⟨2, _⟩ => exact (sc_r2 _ _).trans hk)
  rw [el, er]

/-! ## The row maximum, the rescale factor and the exponentials -/

variable (m l : Vec Ideal S1x2048x1 .f32) (a : Vec Ideal S1x2048x512 .f32) (v : Vec Ideal S1x512x512 .bf16)

/-- The tile's maximum of row `r`'s scores, and the new running maximum. -/
def tileMax (r : Fin 2048) : EReal := (Finset.univ : Finset (Fin 512)).fold max ⊥ fun j => score q k r j
def newMax (r : Fin 2048) : EReal := max (m (ix3 0 r 0)) (tileMax q k r)

/-- A [1, 2048] vector stored as [1, 2048, 1] reads (0, r, 0) at (0, r). -/
theorem col_of_row (x : (S1x2048).Idx → EReal) (h : S1x2048.ShapeCasts S1x2048x1) (r : Fin 2048) :
    shapeCast S1x2048x1 x h (ix3 0 r 0) = x (ix2 0 r) :=
  shapeCast_apply x h (ix3 0 r 0) (ix2 0 r) (by rw [Shape.rowMajor_val_two, Shape.rowMajor_val_three]; simp)

/-- A [1, 2048, 1] column spread over 512 lanes reads (0, r, j) at (0, r, 0). -/
theorem spread_col (x : (S1x2048x1).Idx → EReal) (h : S1x2048x1.Broadcasts S1x2048x512) (r : Fin 2048) (j : Fin 512) :
    broadcastTo S1x2048x512 x h (ix3 0 r j) = x (ix3 0 r 0) :=
  broadcastTo_apply x h (ix3 0 r j) (ix3 0 r 0) (fun a => by
    match a with
    | ⟨0, _⟩ => rfl
    | ⟨1, _⟩ => rfl
    | ⟨2, _⟩ => rfl)

/-- The reduced index (0, r) with the lane coordinate j put back is (0, r, j). -/
theorem lift_row (r : Fin 2048) (j : Fin 512) : reduces_S1x2048x512_S1x2048.lift (ix2 0 r) j = ix3 0 r j :=
  funext fun a => Fin.ext (by
    match a with
    | ⟨0, _⟩ => rfl
    | ⟨1, _⟩ => rfl
    | ⟨2, _⟩ => rfl)

theorem pay8_apply (r : Fin 2048) : k1_pay8 (F := Ideal) q k m (ix3 0 r 0) = newMax q k m r := by
  unfold k1_pay8 newMax tileMax
  rw [maximumf_apply, col_of_row]
  refine congrArg (max _) ?_
  refine (Ideal.multiReduction_maximumf_single (k1_pay7 (F := Ideal) q k) 0xFF800000#32 reduces_S1x2048x512_S1x2048 (.inl rfl) rfl (ix2 0 r)).trans ?_
  rw [show FloatOps.ofBits (F := Ideal) .f32 0xFF800000#32 = (⊥ : EReal) from negInf_eq]
  refine congrArg (fun f => (Finset.univ : Finset (Fin 512)).fold max ⊥ f) (funext fun j => ?_)
  exact scores_apply q k r j

theorem stepM_apply (r : Fin 2048) : stepM (F := Ideal) q k m (ix3 0 r 0) = newMax q k m r := by
  unfold stepM k1_pay2
  rw [shapeCast_self]
  exact pay8_apply q k m r

theorem pay9_apply (r : Fin 2048) :
    k1_pay9 (F := Ideal) q k m m (ix3 0 r 0) = Ideal.exp (m (ix3 0 r 0) - newMax q k m r) := by
  unfold k1_pay9
  show Ideal.exp (m (ix3 0 r 0) - k1_pay8 (F := Ideal) q k m (ix3 0 r 0)) = _
  rw [pay8_apply]

theorem pay10_apply (r : Fin 2048) (j : Fin 512) :
    k1_pay10 (F := Ideal) q k m (ix3 0 r j) = Ideal.exp (score q k r j - newMax q k m r) := by
  unfold k1_pay10
  show Ideal.exp (k1_pay7 (F := Ideal) q k (ix3 0 r j) - broadcastTo S1x2048x512 (k1_pay8 (F := Ideal) q k m) broadcasts_S1x2048x1_S1x2048x512 (ix3 0 r j)) = _
  rw [spread_col, pay8_apply, scores_apply]

theorem stepL_apply (r : Fin 2048) :
    stepL (F := Ideal) q k m l (ix3 0 r 0)
      = Ideal.exp (m (ix3 0 r 0) - newMax q k m r) * l (ix3 0 r 0) + ∑ j : Fin 512, Ideal.exp (score q k r j - newMax q k m r) := by
  unfold stepL k1_pay11
  rw [shapeCast_self, addf_apply, mulf_apply, pay9_apply, col_of_row]
  congr 1
  refine (Ideal.multiReduction_add_single (k1_pay10 (F := Ideal) q k m) 0x00000000#32 reduces_S1x2048x512_S1x2048 (.inl rfl) rfl (ix2 0 r)).trans ?_
  exact Finset.sum_congr rfl fun j _ => (congrArg (k1_pay10 (F := Ideal) q k m) (lift_row r j)).trans (pay10_apply q k m r j)

theorem stepA_apply (r : Fin 2048) (d : Fin 512) :
    stepA (F := Ideal) q k v m a (ix3 0 r d)
      = Ideal.exp (m (ix3 0 r 0) - newMax q k m r) * a (ix3 0 r d)
        + ∑ j : Fin 512, Ideal.exp (score q k r j - newMax q k m r) * v (ix3 0 j d) := by
  unfold stepA k1_pay1 k1_pay12
  rw [shapeCast_self, addf_apply, mulf_apply, spread_col, pay9_apply]
  congr 1
  simp only [matmul, shapeCast_self]
  rw [Ideal.matmul_constant_zero_apply, ← Equiv.sum_comp (contrEquiv1 dot_S1x2048x512_S1x512x512_S1x2048x512_2_1_1_2_0_0 512 rfl rfl).symm]
  refine Finset.sum_congr rfl fun j _ => ?_
  have hk := contrEquiv1_symm_val dot_S1x2048x512_S1x512x512_S1x2048x512_2_1_1_2_0_0 512 rfl rfl j
  have el : dot_S1x2048x512_S1x512x512_S1x2048x512_2_1_1_2_0_0.lhsIdx (ix3 0 r d) ((contrEquiv1 dot_S1x2048x512_S1x512x512_S1x2048x512_2_1_1_2_0_0 512 rfl rfl).symm j) = ix3 0 r j := funext fun a => Fin.ext (by
    match a with
    | ⟨0, _⟩ => exact pv_l0 _ _
    | ⟨1, _⟩ => exact pv_l1 _ _
    | ⟨2, _⟩ => exact (pv_l2 _ _).trans hk)
  have er : dot_S1x2048x512_S1x512x512_S1x2048x512_2_1_1_2_0_0.rhsIdx (ix3 0 r d) ((contrEquiv1 dot_S1x2048x512_S1x512x512_S1x2048x512_2_1_1_2_0_0 512 rfl rfl).symm j) = ix3 0 j d := funext fun a => Fin.ext (by
    match a with
    | ⟨0, _⟩ => exact pv_r0 _ _
    | ⟨1, _⟩ => exact (pv_r1 _ _).trans hk
    | ⟨2, _⟩ => exact pv_r2 _ _)
  rw [el, er, truncf_apply, pay10_apply]

/-- The last tile's store: channel `d`, row `r` of the output block is the weighted sum over the sum. -/
theorem quot_apply (d : Fin 512) (r : Fin 2048) :
    quot (F := Ideal) a l (ix3 0 d r) = Ideal.div (a (ix3 0 r d)) (l (ix3 0 r 0)) := by
  unfold quot k1_pay3
  rw [transpose_apply [0, 2, 1] _ transposes_S1x2048x512_p0_2_1_S1x512x2048 (ix3 0 d r) (ix3 0 r d) (fun b => by
    match b with
    | ⟨0, _⟩ => rfl
    | ⟨1, _⟩ => rfl
    | ⟨2, _⟩ => rfl)]
  rw [divf_apply, spread_col]

/-- The neutral values the first tile starts from. -/
theorem neutralM_apply (i : S1x2048x1.Idx) : k1_pay4 (F := Ideal) i = (⊥ : EReal) := by
  unfold k1_pay4; rw [shapeCast_self]; exact negInf_eq
theorem neutralL_apply (i : S1x2048x1.Idx) : k1_pay5 (F := Ideal) i = (0 : EReal) := by
  unfold k1_pay5; rw [shapeCast_self]; exact Ideal.ofBits_zero_f32
theorem neutralA_apply (i : S1x2048x512.Idx) : k1_pay6 (F := Ideal) i = (0 : EReal) := by
  unfold k1_pay6; rw [shapeCast_self]; exact Ideal.ofBits_zero_f32

end Cert.KernelIdeal.Flash

end
-- ==== Proof.KernelIdeal.FlashBlk.lean ====
/-
  Where the attention stage's blocks sit in their arrays. Point t of the grid is (image b, query tile, key tile) with
  b = t / 16, query tile = t / 8 % 2, key tile = t % 8. The query block is rows [2048 · query tile, +2048) of image b;
  the key and value blocks are rows [512 · key tile, +512); the output block is columns [2048 · query tile, +2048) of
  image b's [512, 4096] result.
-/
import proofs.«130749_j38989713113556_2_alg».proof.Proof.KernelIdeal.FlashData
import Idealize.ShloMosaic.Lib.ValueIdx
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.ValueIdx Idealize.SL.Sem
open Idealize.ShloMosaic.Pipeline (Dat)

/-- The block index maps, decided over the 64 points. -/
theorem idxQ : ∀ t : Fin cfg1.N, (cfg1.win 0).index t 0 = t.val / 16 ∧ (cfg1.win 0).index t 1 = t.val / 8 % 2 ∧ (cfg1.win 0).index t 2 = 0 :=
  (by decide +kernel : ∀ t : Fin grid1.N, win1_0.index t 0 = t.val / 16 ∧ win1_0.index t 1 = t.val / 8 % 2 ∧ win1_0.index t 2 = 0)
theorem idxK : ∀ t : Fin cfg1.N, (cfg1.win 1).index t 0 = t.val / 16 ∧ (cfg1.win 1).index t 1 = t.val % 8 ∧ (cfg1.win 1).index t 2 = 0 :=
  (by decide +kernel : ∀ t : Fin grid1.N, win1_1.index t 0 = t.val / 16 ∧ win1_1.index t 1 = t.val % 8 ∧ win1_1.index t 2 = 0)
theorem idxV : ∀ t : Fin cfg1.N, (cfg1.win 2).index t 0 = t.val / 16 ∧ (cfg1.win 2).index t 1 = t.val % 8 ∧ (cfg1.win 2).index t 2 = 0 :=
  (by decide +kernel : ∀ t : Fin grid1.N, win1_2.index t 0 = t.val / 16 ∧ win1_2.index t 1 = t.val % 8 ∧ win1_2.index t 2 = 0)
theorem idxO : ∀ t : Fin cfg1.N, (cfg1.win 3).index t 0 = t.val / 16 ∧ (cfg1.win 3).index t 1 = 0 ∧ (cfg1.win 3).index t 2 = t.val / 8 % 2 :=
  (by decide +kernel : ∀ t : Fin grid1.N, win1_3.index t 0 = t.val / 16 ∧ win1_3.index t 1 = 0 ∧ win1_3.index t 2 = t.val / 8 % 2)

variable (V : (c : Dev nD) → (b : Ref sig .tc) → Buf (Elt Ideal) ((c : Thread nD τ).loc b))

/-- The image and the rows a point works on. -/
def imgOf (n : ℕ) : Fin 4 := ⟨n / 16 % 4, Nat.mod_lt _ (by decide)⟩
def qRow (n : ℕ) (r : Fin 2048) : Fin 4096 := ⟨n / 8 % 2 * 2048 + r.val, by have := r.isLt; omega⟩
def kRow (n : ℕ) (j : Fin 512) : Fin 4096 := ⟨n % 8 * 512 + j.val, by have := j.isLt; omega⟩

theorem blkQ_apply (c : Dev nD) (t : Fin cfg1.N) (r : Fin 2048) (e : Fin 64) :
    blk V c 0 t (ix3 0 r e) = (V c main_v5 : S4x4096x64.Idx → EReal) (ix3 (imgOf t.val) (qRow t.val r) e) := by
  have hN : t.val < 64 := lt_of_lt_of_eq t.isLt (show cfg1.N = 64 from N_1)
  obtain ⟨h0, h1, h2⟩ := idxQ t
  unfold blk
  show (V c main_v5 : S4x4096x64.Idx → EReal) (((cfg1.win 0).blk t).view.emb (ix3 0 r e)) = _
  refine congrArg _ (funext fun a => Fin.ext ?_)
  match a with
  | ⟨0, _⟩ => show (cfg1.win 0).index t 0 * 1 + 1 * 0 = t.val / 16 % 4; rw [h0]; omega
  | ⟨1, _⟩ => show (cfg1.win 0).index t 1 * 2048 + 1 * r.val = t.val / 8 % 2 * 2048 + r.val; rw [h1]; omega
  | ⟨2, _⟩ => show (cfg1.win 0).index t 2 * 64 + 1 * e.val = e.val; rw [h2]; omega

theorem blkK_apply (c : Dev nD) (t : Fin cfg1.N) (j : Fin 512) (e : Fin 64) :
    blk V c 1 t (ix3 0 j e) = (V c main_v7 : S4x4096x64.Idx → EReal) (ix3 (imgOf t.val) (kRow t.val j) e) := by
  have hN : t.val < 64 := lt_of_lt_of_eq t.isLt (show cfg1.N = 64 from N_1)
  obtain ⟨h0, h1, h2⟩ := idxK t
  unfold blk
  show (V c main_v7 : S4x4096x64.Idx → EReal) (((cfg1.win 1).blk t).view.emb (ix3 0 j e)) = _
  refine congrArg _ (funext fun a => Fin.ext ?_)
  match a with
  | ⟨0, _⟩ => show (cfg1.win 1).index t 0 * 1 + 1 * 0 = t.val / 16 % 4; rw [h0]; omega
  | ⟨1, _⟩ => show (cfg1.win 1).index t 1 * 512 + 1 * j.val = t.val % 8 * 512 + j.val; rw [h1]; omega
  | ⟨2, _⟩ => show (cfg1.win 1).index t 2 * 64 + 1 * e.val = e.val; rw [h2]; omega

theorem blkV_apply (c : Dev nD) (t : Fin cfg1.N) (j : Fin 512) (d : Fin 512) :
    blk V c 2 t (ix3 0 j d) = (V c main_v9 : S4x4096x512.Idx → EReal) (ix3 (imgOf t.val) (kRow t.val j) d) := by
  have hN : t.val < 64 := lt_of_lt_of_eq t.isLt (show cfg1.N = 64 from N_1)
  obtain ⟨h0, h1, h2⟩ := idxV t
  unfold blk
  show (V c main_v9 : S4x4096x512.Idx → EReal) (((cfg1.win 2).blk t).view.emb (ix3 0 j d)) = _
  refine congrArg _ (funext fun a => Fin.ext ?_)
  match a with
  | ⟨0, _⟩ => show (cfg1.win 2).index t 0 * 1 + 1 * 0 = t.val / 16 % 4; rw [h0]; omega
  | ⟨1, _⟩ => show (cfg1.win 2).index t 1 * 512 + 1 * j.val = t.val % 8 * 512 + j.val; rw [h1]; omega
  | ⟨2, _⟩ => show (cfg1.win 2).index t 2 * 512 + 1 * d.val = d.val; rw [h2]; omega

end Cert.KernelIdeal.Flash

end
-- ==== Proof.KernelIdeal.FlashRec.lean ====
/-
  The carried buffers, row by row, are the specification's recursion. Fix a core and suppose the attention region finds
  the queries, keys and values of the specification in its three operand arrays. Then after the body at point t — image
  b = t / 16, query tile t / 8 % 2, key tile κ = t % 8 — row r of the running maximum, of the running sum and (for each
  channel d) of the running weighted sum are the specification's carried triple for query position 2048 · (query tile)
  + r after κ + 1 key tiles. At κ = 0 the body starts from the neutral triple (−∞, 0, 0), the recursion's start; at
  κ > 0 from what the point before left, which is the recursion's value after κ tiles for the same row.
-/
import proofs.«130749_j38989713113556_2_alg».proof.Proof.KernelIdeal.FlashIdx
import proofs.«130749_j38989713113556_2_alg».proof.Proof.KernelIdeal.FlashBlk
import proofs.«130749_j38989713113556_2_alg».proof.Proof.Spec

set_option maxRecDepth 16384

noncomputable section

namespace Cert.KernelIdeal.Flash

open Cert.KernelIdeal Cert.KernelIdeal.Gen
open Idealize.ShloMosaic Idealize.ShloMosaic.TcCoe Idealize.ShloMosaic.ValueIdx Idealize.SL.Sem

variable (x : Fin 4 → Fin 64 → Fin 64 → Fin 512 → EReal) (W1 W2 : Fin 512 → Fin 64 → EReal) (W3 : Fin 512 → Fin 512 → EReal)

/-- One step of the specification's recursion, written out. -/
theorem carried_succ (b : Fin 4) (i : Fin 4096) (d : Fin 512) (n : ℕ) (h : n < 8) :
    Cert.Spec.carried x W1 W2 W3 b i d (n + 1) =
      (max (Cert.Spec.carried x W1 W2 W3 b i d n).1 ((Finset.univ : Finset (Fin 512)).fold max ⊥ fun j => Cert.Spec.sc x W1 W2 b i (Cert.Spec.tileKey ⟨n, h⟩ j)),
        Ideal.exp ((Cert.Spec.carried x W1 W2 W3 b i d n).1 - max (Cert.Spec.carried x W1 W2 W3 b i d n).1 ((Finset.univ : Finset (Fin 512)).fold max ⊥ fun j => Cert.Spec.sc x W1 W2 b i (Cert.Spec.tileKey ⟨n, h⟩ j)))
            * (Cert.Spec.carried x W1 W2 W3 b i d n).2.1
          + ∑ j : Fin 512, Ideal.exp (Cert.Spec.sc x W1 W2 b i (Cert.Spec.tileKey ⟨n, h⟩ j) - max (Cert.Spec.carried x W1 W2 W3 b i d n).1 ((Finset.univ : Finset (Fin 512)).fold max ⊥ fun j => Cert.Spec.sc x W1 W2 b i (Cert.Spec.tileKey ⟨n, h⟩ j))),
        Ideal.exp ((Cert.Spec.carried x W1 W2 W3 b i d n).1 - max (Cert.Spec.carried x W1 W2 W3 b i d n).1 ((Finset.univ : Finset (Fin 512)).fold max ⊥ fun j => Cert.Spec.sc x W1 W2 b i (Cert.Spec.tileKey ⟨n, h⟩ j)))
            * (Cert.Spec.carried x W1 W2 W3 b i d n).2.2
          + ∑ j : Fin 512, Ideal.exp (Cert.Spec.sc x W1 W2 b i (Cert.Spec.tileKey ⟨n, h⟩ j) - max (Cert.Spec.carried x W1 W2 W3 b i d n).1 ((Finset.univ : Finset (Fin 512)).fold max ⊥ fun j => Cert.Spec.sc x W1 W2 b i (Cert.Spec.tileKey ⟨n, h⟩ j)))
              * Cert.Spec.vl x W3 b (Cert.Spec.tileKey ⟨n, h⟩ j) d) := by
  simp only [Cert.Spec.carried, dif_pos h]

variable (V : (c : Dev nD) → (b : Ref sig .tc) → Buf (Elt Ideal) ((c : Thread nD τ).loc b)) (c : Dev nD)
variable (hq : ∀ b i k, (V c main_v5 : S4x4096x64.Idx → EReal) (ix3 b i k) = Cert.Spec.q x W1 b i k)
  (hk : ∀ b j k, (V c main_v7 : S4x4096x64.Idx → EReal) (ix3 b j k) = Cert.Spec.ky x W2 b j k)
  (hv : ∀ b j d, (V c main_v9 : S4x4096x512.Idx → EReal) (ix3 b j d) = Cert.Spec.vl x W3 b j d)

include hq hk in
/-- A score of the point's blocks is the specification's score of the corresponding positions. -/
theorem score_eq (t : Fin cfg1.N) (r : Fin 2048) (j : Fin 512) :
    score (blk V c 0 t) (blk V c 1 t) r j = Cert.Spec.sc x W1 W2 (imgOf t.val) (qRow t.val r) (kRow t.val j) := by
  unfold score Cert.Spec.sc
  exact Finset.sum_congr rfl fun e _ => by rw [blkQ_apply, blkK_apply, hq, hk]

omit V c hq hk hv in
/-- One tile's update of a row is one step of the recursion: for ANY blocks whose scores and value entries are the
    specification's for image `b`, query position `i` and key tile `κ`. -/
theorem step_row (b : Fin 4) (i : Fin 4096) (κ : ℕ) (hκ : κ < 8) (r : Fin 2048) (d : Fin 512)
    (Qb : Vec Ideal S1x2048x64 .bf16) (Kb : Vec Ideal S1x512x64 .bf16) (Vb : Vec Ideal S1x512x512 .bf16)
    (hsc : ∀ j, score Qb Kb r j = Cert.Spec.sc x W1 W2 b i (Cert.Spec.tileKey ⟨κ, hκ⟩ j))
    (hvv : ∀ j : Fin 512, Vb (ix3 0 j d) = Cert.Spec.vl x W3 b (Cert.Spec.tileKey ⟨κ, hκ⟩ j) d)
    (mv lv : Vec Ideal S1x2048x1 .f32) (av : Vec Ideal S1x2048x512 .f32)
    (hm : mv (ix3 0 r 0) = (Cert.Spec.carried x W1 W2 W3 b i d κ).1)
    (hl : lv (ix3 0 r 0) = (Cert.Spec.carried x W1 W2 W3 b i d κ).2.1)
    (ha : av (ix3 0 r d) = (Cert.Spec.carried x W1 W2 W3 b i d κ).2.2) :
    stepM (F := Ideal) Qb Kb mv (ix3 0 r 0) = (Cert.Spec.carried x W1 W2 W3 b i d (κ + 1)).1
    ∧ stepL (F := Ideal) Qb Kb mv lv (ix3 0 r 0) = (Cert.Spec.carried x W1 W2 W3 b i d (κ + 1)).2.1
    ∧ stepA (F := Ideal) Qb Kb Vb mv av (ix3 0 r d) = (Cert.Spec.carried x W1 W2 W3 b i d (κ + 1)).2.2 := by
  have hmax : newMax Qb Kb mv r
      = max (Cert.Spec.carried x W1 W2 W3 b i d κ).1
          ((Finset.univ : Finset (Fin 512)).fold max ⊥ fun j => Cert.Spec.sc x W1 W2 b i (Cert.Spec.tileKey ⟨κ, hκ⟩ j)) := by
    unfold newMax tileMax
    rw [hm]
    exact congrArg (max _) (congrArg (fun f => (Finset.univ : Finset (Fin 512)).fold max ⊥ f) (funext hsc))
  have hs := carried_succ x W1 W2 W3 b i d κ hκ
  refine ⟨?_, ?_, ?_⟩
  · rw [stepM_apply, hmax]; exact (congrArg (·.1) hs).symm
  · rw [stepL_apply, hmax, hm, hl]
    refine Eq.trans ?_ (congrArg (·.2.1) hs).symm
    congr 1
    exact Finset.sum_congr rfl fun j _ => by rw [hsc j]
  · rw [stepA_apply, hmax, hm, ha]
    refine Eq.trans ?_ (congrArg (·.2.2) hs).symm
    congr 1
    exact Finset.sum_congr rfl fun j _ => by rw [hsc j, hvv j]

include hq hk hv in
/-- The same at a point of the grid, for the point's own blocks. -/
theorem step_at (t : Fin cfg1.N) (r : Fin 2048) (d : Fin 512)
    (mv lv : Vec Ideal S1x2048x1 .f32) (av : Vec Ideal S1x2048x512 .f32)
    (hm : mv (ix3 0 r 0) = (Cert.Spec.carried x W1 W2 W3 (imgOf t.val) (qRow t.val r) d (t.val % 8)).1)
    (hl : lv (ix3 0 r 0) = (Cert.Spec.carried x W1 W2 W3 (imgOf t.val) (qRow t.val r) d (t.val % 8)).2.1)
    (ha : av (ix3 0 r d) = (Cert.Spec.carried x W1 W2 W3 (imgOf t.val) (qRow t.val r) d (t.val % 8)).2.2) :
    stepM (F := Ideal) (blk V c 0 t) (blk V c 1 t) mv (ix3 0 r 0) = (Cert.Spec.carried x W1 W2 W3 (imgOf t.val) (qRow t.val r) d (t.val % 8 + 1)).1
    ∧ stepL (F := Ideal) (blk V c 0 t) (blk V c 1 t) mv lv (ix3 0 r 0) = (Cert.Spec.carried x W1 W2 W3 (imgOf t.val) (qRow t.val r) d (t.val % 8 + 1)).2.1
    ∧ stepA (F := Ideal) (blk V c 0 t) (blk V c 1 t) (blk V c 2 t) mv av (ix3 0 r d) = (Cert.Spec.carried x W1 W2 W3 (imgOf t.val) (qRow t.val r) d (t.val % 8 + 1)).2.2 :=
  step_row x W1 W2 W3 (imgOf t.val) (qRow t.val r) (t.val % 8) (Nat.mod_lt _ (by decide)) r d (blk V c 0 t) (blk V c 1 t) (blk V c 2 t)
    (fun j => score_eq x W1 W2 V c hq hk t r j)
    (fun j => (blkV_apply V c t j d).trans (hv _ _ _)) mv lv av hm hl ha

include hq hk hv in
/-- After the body at position `n`, row `r` of the three carried buffers is the recursion's triple after `n % 8 + 1` tiles. -/
theorem carried_at : ∀ (n : ℕ) (hn : n < cfg1.N) (r : Fin 2048) (d : Fin 512),
    (stAt V c n hn).2.1 (ix3 0 r 0) = (Cert.Spec.carried x W1 W2 W3 (imgOf n) (qRow n r) d (n % 8 + 1)).1
    ∧ (stAt V c n hn).2.2.1 (ix3 0 r 0) = (Cert.Spec.carried x W1 W2 W3 (imgOf n) (qRow n r) d (n % 8 + 1)).2.1
    ∧ (stAt V c n hn).2.2.2 (ix3 0 r d) = (Cert.Spec.carried x W1 W2 W3 (imgOf n) (qRow n r) d (n % 8 + 1)).2.2 := by
  intro n
  induction n with
  | zero =>
    intro hn r d
    have h1 : ¬(⟨0, hn⟩ : Fin cfg1.N).val % 8 = 7 := (show ¬(0 % 8 = 7) by decide)
    rw [stAt_first V c ⟨0, hn⟩ (Nat.zero_mod _) h1, firstSt_M, firstSt_L, firstSt_A]
    exact step_at x W1 W2 W3 V c hq hk hv ⟨0, hn⟩ r d _ _ _ (neutralM_apply _) (neutralL_apply _) (neutralA_apply _)
  | succ n ih =>
    intro hn r d
    have hN : n + 1 < 64 := lt_of_lt_of_eq hn (show cfg1.N = 64 from N_1)
    by_cases h0 : (n + 1) % 8 = 0
    · have h1 : ¬(n + 1) % 8 = 7 := by omega
      have hp : Cert.Spec.carried x W1 W2 W3 (imgOf (n + 1)) (qRow (n + 1) r) d ((n + 1) % 8) = (⊥, 0, 0) := by rw [h0]; rfl
      rw [stAt_first V c ⟨n + 1, hn⟩ h0 h1, firstSt_M, firstSt_L, firstSt_A]
      refine step_at x W1 W2 W3 V c hq hk hv ⟨n + 1, hn⟩ r d _ _ _ ?_ ?_ ?_
      · rw [neutralM_apply]; exact (congrArg (·.1) hp).symm
      · rw [neutralL_apply]; exact (congrArg (·.2.1) hp).symm
      · rw [neutralA_apply]; exact (congrArg (·.2.2) hp).symm
    · obtain ⟨im, il, ia⟩ := ih (Nat.lt_of_succ_lt hn) r d
      have e1 : imgOf n = imgOf (n + 1) := Fin.ext (by show n / 16 % 4 = (n + 1) / 16 % 4; omega)
      have e2 : qRow n r = qRow (n + 1) r := Fin.ext (by show n / 8 % 2 * 2048 + r.val = (n + 1) / 8 % 2 * 2048 + r.val; omega)
      have e3 : n % 8 + 1 = (n + 1) % 8 := by omega
      rw [e1, e2, e3] at im il ia
      by_cases h1 : (n + 1) % 8 = 7
      · rw [stAt_last V c ⟨n + 1, hn⟩ h0 h1, lastSt_M, lastSt_L, lastSt_A]
        exact step_at x W1 W2 W3 V c hq hk hv ⟨n + 1, hn⟩ r d _ _ _ im il ia
      · rw [stAt_mid V c ⟨n + 1, hn⟩ h0 h1, midSt_M, midSt_L, midSt_A]
        exact step_at x W1 W2 W3 V c hq hk hv ⟨n + 1, hn⟩ r d _ _ _ im il ia

end Cert.KernelIdeal.Flash

end
-- ==== Proof.KernelIdeal.FlashOut.lean ====
/-
  The attention stage's output array is the specification's kernel arrangement. The output is written back at the points
  of key tile 7, one block per (image, query tile): columns [2048 · query tile, +2048) of the image's [512, 4096] result.
  What such a point leaves in the output buffer is, at channel d and row r, the running weighted sum over the running sum
  after all eight key tiles — the quotient the specification calls oKer, at query position 2048 · (query tile) + r.
  The eight blocks (four images, two query tiles) cover the array.
-/
import proofs.«130749_j38989713113556_2_alg».proof.Proof.KernelIdeal.FlashRec

set_option maxRecDepth 16384

noncomputable section

namespace Cert.KernelIdeal.Flash

open Cert.KernelIdeal Cert.KernelIdeal.Gen
open Idealize.ShloMosaic Idealize.ShloMosaic.TcCoe Idealize.ShloMosaic.ValueIdx Idealize.SL.Sem
open Idealize.ShloMosaic.Pipeline (Dat)

variable (x : Fin 4 → Fin 64 → Fin 64 → Fin 512 → EReal) (W1 W2 : Fin 512 → Fin 64 → EReal) (W3 : Fin 512 → Fin 512 → EReal)

/-- The whole output array as one function of its index: channel d of image b at position i. -/
def outG : S4x512x4096.Idx → EReal := fun idx => Cert.Spec.oKer x W1 W2 W3 (idx 0) (idx 1) (idx 2)

theorem outG_apply (b : Fin 4) (d : Fin 512) (i : Fin 4096) : outG x W1 W2 W3 (ix3 b d i) = Cert.Spec.oKer x W1 W2 W3 b d i := rfl

variable (V : (c : Dev nD) → (b : Ref sig .tc) → Buf (Elt Ideal) ((c : Thread nD τ).loc b)) (c : Dev nD)

/-- Where an element of the output block of point t sits in the array. -/
theorem embO (t : Fin cfg1.N) (d : Fin 512) (r : Fin 2048) :
    ((cfg1.win 3).blk t).view.emb (ix3 0 d r) = (ix3 (imgOf t.val) d (qRow t.val r) : S4x512x4096.Idx) := by
  have hN : t.val < 64 := lt_of_lt_of_eq t.isLt (show cfg1.N = 64 from N_1)
  obtain ⟨h0, h1, h2⟩ := idxO t
  refine funext fun a => Fin.ext ?_
  match a with
  | ⟨0, _⟩ => show (cfg1.win 3).index t 0 * 1 + 1 * 0 = t.val / 16 % 4; rw [h0]; omega
  | ⟨1, _⟩ => show (cfg1.win 3).index t 1 * 512 + 1 * d.val = d.val; rw [h1]; omega
  | ⟨2, _⟩ => show (cfg1.win 3).index t 2 * 2048 + 1 * r.val = t.val / 8 % 2 * 2048 + r.val; rw [h2]; omega

/-- At a point of key tile 7 the output buffer is the quotient of the two carried sums the point leaves. -/
theorem out_last (t : Fin cfg1.N) (h0 : ¬t.val % 8 = 0) (h1 : t.val % 8 = 7) :
    (stAt V c t.val t.isLt).1 = quot (stAt V c t.val t.isLt).2.2.2 (stAt V c t.val t.isLt).2.2.1 := by
  rw [stAt_last V c t h0 h1, lastSt_O, lastSt_L, lastSt_A]

variable (hq : ∀ b i k, (V c main_v5 : S4x4096x64.Idx → EReal) (ix3 b i k) = Cert.Spec.q x W1 b i k)
  (hk : ∀ b j k, (V c main_v7 : S4x4096x64.Idx → EReal) (ix3 b j k) = Cert.Spec.ky x W2 b j k)
  (hv : ∀ b j d, (V c main_v9 : S4x4096x512.Idx → EReal) (ix3 b j d) = Cert.Spec.vl x W3 b j d)

include hq hk hv in
/-- What a point of key tile 7 leaves in the output buffer, entry by entry. -/
theorem out_entry (t : Fin cfg1.N) (h1 : t.val % 8 = 7) (d : Fin 512) (r : Fin 2048) :
    (stAt V c t.val t.isLt).1 (ix3 0 d r) = Cert.Spec.oKer x W1 W2 W3 (imgOf t.val) d (qRow t.val r) := by
  have h0 : ¬t.val % 8 = 0 := by omega
  obtain ⟨-, hl, ha⟩ := carried_at x W1 W2 W3 V c hq hk hv t.val t.isLt r d
  have e8 : t.val % 8 + 1 = 8 := by omega
  rw [e8] at hl ha
  rw [out_last V c t h0 h1]
  refine (quot_apply _ _ d r).trans ?_
  rw [hl, ha]
  rfl

include hq hk hv in
/-- What a flushing point writes back is its block of the array function. -/
theorem flushedO_eq (t : Fin cfg1.N) (hf : (cfg1.win 3).flush t = true) :
    (dat V c).flushed 3 t = ((cfg1.win 3).blk t).view.read (Elt Ideal) (outG x W1 W2 W3) := by
  have h1 : t.val % 8 = 7 := (flush1_3 t).mp hf
  show (cfg1.win 3).cut (grid1.coords t) ((dat V c).after 3 t) = _
  rw [after_3]
  funext (y : S1x512x2048.Idx)
  obtain ⟨a, d, r, rfl⟩ : ∃ (a : Fin 1) (d : Fin 512) (r : Fin 2048), y = ix3 a d r := ⟨y 0, y 1, y 2, eq_ix3 y⟩
  obtain rfl : a = 0 := Subsingleton.elim _ _
  show (stAt V c t.val t.isLt).1 (ix3 0 d r) = outG x W1 W2 W3 (((cfg1.win 3).blk t).view.emb (ix3 0 d r))
  rw [embO t d r, outG_apply]
  exact out_entry x W1 W2 W3 V c hq hk hv t h1 d r

/-- An index of the array is in point t's output block iff each coordinate is in the block's range on its axis. -/
theorem mem_blkO (t : Fin cfg1.N) (i : S4x512x4096.Idx) :
    i ∈ ((cfg1.win 3).blk t).view.set ↔ ∀ a : Fin 3, win1_3.index t a * S1x512x2048.size a ≤ (i a).val ∧ (i a).val < win1_3.index t a * S1x512x2048.size a + S1x512x2048.size a := by
  show i ∈ ((View.whole main_v10).slice (win1_3.rect t)).set ↔ _
  rw [View.set_slice_whole, Rect.mem_set_unit]
  exact Iff.rfl

/-- Every index of the array is in the block of some point of key tile 7. -/
theorem coverO (i : S4x512x4096.Idx) : ∃ t : Fin cfg1.N, (cfg1.win 3).flush t = true ∧ i ∈ ((cfg1.win 3).blk t).view.set := by
  obtain ⟨b, d, p, rfl⟩ : ∃ (b : Fin 4) (d : Fin 512) (p : Fin 4096), i = ix3 b d p := ⟨i 0, i 1, i 2, eq_ix3 i⟩
  have hb := b.isLt
  have hd := d.isLt
  have hp := p.isLt
  have hN : cfg1.N = 64 := N_1
  have ht : (b.val * 2 + p.val / 2048) * 8 + 7 < cfg1.N := by rw [hN]; omega
  refine ⟨⟨(b.val * 2 + p.val / 2048) * 8 + 7, ht⟩, (flush1_3 _).mpr (by show ((b.val * 2 + p.val / 2048) * 8 + 7) % 8 = 7; omega), ?_⟩
  obtain ⟨e0, e1, e2⟩ := idxO ⟨(b.val * 2 + p.val / 2048) * 8 + 7, ht⟩
  rw [mem_blkO]
  intro a
  match a with
  | ⟨0, _⟩ =>
    show (cfg1.win 3).index ⟨(b.val * 2 + p.val / 2048) * 8 + 7, ht⟩ 0 * 1 ≤ b.val ∧ b.val < (cfg1.win 3).index ⟨(b.val * 2 + p.val / 2048) * 8 + 7, ht⟩ 0 * 1 + 1
    rw [e0]; show ((b.val * 2 + p.val / 2048) * 8 + 7) / 16 * 1 ≤ b.val ∧ b.val < ((b.val * 2 + p.val / 2048) * 8 + 7) / 16 * 1 + 1; omega
  | ⟨1, _⟩ =>
    show (cfg1.win 3).index ⟨(b.val * 2 + p.val / 2048) * 8 + 7, ht⟩ 1 * 512 ≤ d.val ∧ d.val < (cfg1.win 3).index ⟨(b.val * 2 + p.val / 2048) * 8 + 7, ht⟩ 1 * 512 + 512
    rw [e1]; omega
  | ⟨2, _⟩ =>
    show (cfg1.win 3).index ⟨(b.val * 2 + p.val / 2048) * 8 + 7, ht⟩ 2 * 2048 ≤ p.val ∧ p.val < (cfg1.win 3).index ⟨(b.val * 2 + p.val / 2048) * 8 + 7, ht⟩ 2 * 2048 + 2048
    rw [e2]; show ((b.val * 2 + p.val / 2048) * 8 + 7) / 8 % 2 * 2048 ≤ p.val ∧ p.val < ((b.val * 2 + p.val / 2048) * 8 + 7) / 8 % 2 * 2048 + 2048; omega

include hq hk hv in
/-- The output array after the run, entry by entry. -/
theorem out_apply (b : Fin 4) (d : Fin 512) (i : Fin 4096) :
    ((dat V c).arrAt 3 cfg1.N : S4x512x4096.Idx → EReal) (ix3 b d i) = Cert.Spec.oKer x W1 W2 W3 b d i :=
  (congrFun ((dat V c).arrAt_eq_of_cover 3 (outG x W1 W2 W3) (flushedO_eq x W1 W2 W3 V c hq hk hv) coverO) (ix3 b d i)).trans
    (outG_apply x W1 W2 W3 b d i)

end Cert.KernelIdeal.Flash

end
-- ==== Proof.KernelIdeal.Tail.lean ====
/-
  The program's last host stretch, read at coordinates. After the attention region its output is a [4, 512, 4096] array
  (batch, channel, position). The stretch reshapes it to [4, 64, 64, 512], reading entry (h, w, c) at flat offset
  f = (64 h + w) 512 + c of a batch's block, that is channel f / 4096 at position f % 4096; broadcasts the scale gamma
  from its one entry; multiplies; and adds the input. So whatever function O of (batch, channel, position) the region's
  output holds, the program's result at (b, h, w, c) is the specification's shared tail of O.
-/
import proofs.«130749_j38989713113556_2_alg».proof.Proof.KernelIdeal.Args
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

/-- The stretch's result buffer, from any contents V of the buffers before it: the five operations composed, over V at
    the attention output, the scale and the input. -/
theorem tail_after (V : Valuation τ sig (Elt Ideal)) :
    (StableHlo.after (hostOps2 (F := Ideal)) V (Proc.devRef .tc main_v15) : S4x64x64x512.Idx → EReal)
      = addf (F := Ideal) (φ := .f32) (mulf (F := Ideal) (φ := .f32)
            (broadcastInDim S4x64x64x512 ![0, 1, 2, 3] bcast_S1x1x1x1_S4x64x64x512_0_1_2_3
              (broadcastInDim S1x1x1x1 ![3] bcast_S1_S1x1x1x1_3 (V (Proc.devRef .tc main_arg4) : S1.Idx → EReal)))
            (shapeCast S4x64x64x512 (V (Proc.devRef .tc main_v10) : S4x512x4096.Idx → EReal) shapeCasts_S4x512x4096_S4x64x64x512))
          (V (Proc.devRef .tc main_arg0) : S4x64x64x512.Idx → EReal) := by
  after_results
  rfl

/-- Those five operations at (b, h, w, c), over any three operand arrays: gamma's one entry times the attention output
    at channel f / 4096, position f % 4096, plus the input's entry. -/
theorem tail_at (o : FVec Ideal S4x512x4096 .f32) (g : FVec Ideal S1 .f32) (x0 : FVec Ideal S4x64x64x512 .f32)
    (b : Fin 4) (h w : Fin 64) (ch : Fin 512) :
    addf (mulf (broadcastInDim S4x64x64x512 ![0, 1, 2, 3] bcast_S1x1x1x1_S4x64x64x512_0_1_2_3
            (broadcastInDim S1x1x1x1 ![3] bcast_S1_S1x1x1x1_3 g))
          (shapeCast _ o shapeCasts_S4x512x4096_S4x64x64x512)) x0 (ix4 b h w ch)
      = g (ix1 0) * o (ix3 b (⟨((h.val * 64 + w.val) * 512 + ch.val) / 4096, by omega⟩ : Fin 512)
            (⟨((h.val * 64 + w.val) * 512 + ch.val) % 4096, Nat.mod_lt _ (by decide)⟩ : Fin 4096))
          + x0 (ix4 b h w ch) := by
  have hb := b.isLt
  have hh := h.isLt
  have hw := w.isLt
  have hc := ch.isLt
  rw [addf_apply, mulf_apply]
  have e1 : broadcastInDim S4x64x64x512 ![0, 1, 2, 3] bcast_S1x1x1x1_S4x64x64x512_0_1_2_3
      (broadcastInDim S1x1x1x1 ![3] bcast_S1_S1x1x1x1_3 g) (ix4 b h w ch) = g (ix1 0) := by
    refine (broadcastInDim_apply _ bcast_S1x1x1x1_S4x64x64x512_0_1_2_3 _ (ix4 b h w ch)
      (ix4 (0 : Fin 1) (0 : Fin 1) (0 : Fin 1) (0 : Fin 1)) (fun a => ?_)).trans ?_
    · match a with
      | ⟨0, _⟩ => show 0 = if (1 : Nat) = 1 then 0 else b.val; rw [if_pos rfl]
      | ⟨1, _⟩ => show 0 = if (1 : Nat) = 1 then 0 else h.val; rw [if_pos rfl]
      | ⟨2, _⟩ => show 0 = if (1 : Nat) = 1 then 0 else w.val; rw [if_pos rfl]
      | ⟨3, _⟩ => show 0 = if (1 : Nat) = 1 then 0 else ch.val; rw [if_pos rfl]
    · exact broadcastInDim_apply _ bcast_S1_S1x1x1x1_3 g _ (ix1 0) (fun a => by
        match a with
        | ⟨0, _⟩ => show 0 = if (1 : Nat) = 1 then 0 else 0; rw [if_pos rfl])
  have e2 : shapeCast S4x64x64x512 o shapeCasts_S4x512x4096_S4x64x64x512 (ix4 b h w ch)
      = o (ix3 b (⟨((h.val * 64 + w.val) * 512 + ch.val) / 4096, by omega⟩ : Fin 512)
            (⟨((h.val * 64 + w.val) * 512 + ch.val) % 4096, Nat.mod_lt _ (by decide)⟩ : Fin 4096)) :=
    shapeCast_apply o shapeCasts_S4x512x4096_S4x64x64x512 (ix4 b h w ch) _ (by
      rewrite [Shape.rowMajor_val_three, Shape.rowMajor_val_four]
      show (b.val * 512 + ((h.val * 64 + w.val) * 512 + ch.val) / 4096) * 4096 + ((h.val * 64 + w.val) * 512 + ch.val) % 4096
        = ((b.val * 64 + h.val) * 64 + w.val) * 512 + ch.val
      omega)
  rw [e1, e2]

variable (m : (ℓ : Loc nD τ sig) → Buf (Elt Ideal) ℓ) (c : Dev nD)

/-- No item before the last stretch writes the input: it is as launched. -/
theorem V4_arg0 : Gen.V4 m (outs m) c main_arg0 = m ((c.tc : Thread nD τ).loc main_arg0) :=
  (Gen.V4_of m (outs m) c main_arg0 (by decide)).trans <| (Gen.V3_of m (outs m) c main_arg0 (by decide)).trans <|
    (Gen.V2_of m (outs m) c main_arg0 (by decide)).trans <| (Gen.V1_of m c main_arg0 (by decide)).trans rfl
/-- Nor the scale. -/
theorem V4_arg4 : Gen.V4 m (outs m) c main_arg4 = m ((c.tc : Thread nD τ).loc main_arg4) :=
  (Gen.V4_of m (outs m) c main_arg4 (by decide)).trans <| (Gen.V3_of m (outs m) c main_arg4 (by decide)).trans <|
    (Gen.V2_of m (outs m) c main_arg4 (by decide)).trans <| (Gen.V1_of m c main_arg4 (by decide)).trans rfl

/-- THE PROGRAM'S RESULT at (b, h, w, c): if the attention region leaves O (batch, channel, position) in its output
    array, the result is gamma times O read in storage order, plus the input. -/
theorem tail_eq (O : Fin 4 → Fin 512 → Fin 4096 → EReal)
    (hO : ∀ b d i, (Gen.V4 m (outs m) c main_v10 : S4x512x4096.Idx → EReal) (ix3 b d i) = O b d i)
    (b : Fin 4) (h w : Fin 64) (ch : Fin 512) :
    (Gen.V5 m (outs m) c main_v15 : S4x64x64x512.Idx → EReal) (ix4 b h w ch)
      = Cert.Spec.outOf (argX m c) (argG m c) O b h w ch := by
  have e := tail_after (Gen.V4 m (outs m) c)
  rw [show (Gen.V4 m (outs m) c (Proc.devRef .tc main_arg0)) = m ((c.tc : Thread nD τ).loc main_arg0) from V4_arg0 m c,
    show (Gen.V4 m (outs m) c (Proc.devRef .tc main_arg4)) = m ((c.tc : Thread nD τ).loc main_arg4) from V4_arg4 m c] at e
  generalize Gen.V4 m (outs m) c (Proc.devRef .tc main_v10) = o at e hO
  refine (congrFun e (ix4 b h w ch)).trans ?_
  rw [tail_at, hO]
  rfl

end Cert.KernelIdeal.Hand

end
-- ==== Proof.KernelIdeal.KernelValue.lean ====
/-
  The kernel's result in the specification's terms. After the attention region its output array is the kernel's
  arrangement oKer of the specification (the carried recursion read out of the last key tile of every query tile); the
  closing host operations — the storage-order reshape, the scale by gamma, the addition of the input — then give outOf.
-/
import proofs.«130749_j38989713113556_2_alg».proof.Proof.KernelIdeal.ProjQKV
import proofs.«130749_j38989713113556_2_alg».proof.Proof.KernelIdeal.FlashOut
import proofs.«130749_j38989713113556_2_alg».proof.Proof.KernelIdeal.Tail

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- What the attention region leaves in its output array is its pipeline's final array. -/
theorem attn_arr : Gen.V4 m (outs m) c main_v10 = (Flash.dat (In1 (F := Ideal) m) c).arrAt 3 cfg1.N := by
  show Function.update (Gen.V3 m (outs m) c) (Proc.devRef .tc main_v10) (outs m 4 main_v10 c) (Proc.devRef .tc main_v10) = _
  rw [Function.update_self, outs_4]
  unfold after1
  exact Pipeline.withArrays_arr spec1 launch1.win.arr_inj c (Gen.V3 m (outs0 m) c) (fun w => (Flash.dat (In1 m) c).arrAt w cfg1.N) 3

/-- Entry (b, d, i) of it is the kernel's arrangement of the specification. -/
theorem attn_eq (b : Fin 4) (d : Fin 512) (i : Fin 4096) :
    (Gen.V4 m (outs m) c main_v10 : S4x512x4096.Idx → EReal) (ix3 b d i)
      = Cert.Spec.oKer (argX m c) (argW1 m c) (argW2 m c) (argW3 m c) b d i := by
  rw [attn_arr]
  exact Flash.out_apply (argX m c) (argW1 m c) (argW2 m c) (argW3 m c) (In1 (F := Ideal) m) c (q_eq m c) (ky_eq m c) (vl_eq m c) b d i

/-- The kernel's result, entry by entry. -/
theorem kernel_value (b : Fin 4) (h w : Fin 64) (ch : Fin 512) :
    (Gen.V5 m (outs m) c main_v15 : S4x64x64x512.Idx → EReal) (ix4 b h w ch)
      = Cert.Spec.outOf (argX m c) (argG m c) (Cert.Spec.oKer (argX m c) (argW1 m c) (argW2 m c) (argW3 m c)) b h w ch :=
  tail_eq m c _ (attn_eq m c) b h w ch

end Cert.KernelIdeal.Hand

end
-- ==== Proof.KernelIdeal.PreFinite.lean ====
/-
  The precondition decoded. It says of each of the five argument arrays that every entry x has |x| < +∞, the five
  statements and-ed together; at the ideal instance |x| is max x (−x) and the comparison is the extended reals' order, so
  an entry is neither −∞ nor +∞: it is a real number.
-/
import proofs.«130749_j38989713113556_2_alg».proof.Defs
import proofs.«130749_j38989713113556_2_alg».proof.Proof.KernelIdeal.Args
import Idealize.ShloMosaic.Lib.ReduceAll
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

/-- The scalar shape has one index. -/
instance subsingleton_scalar_idx : Subsingleton Cert.Pre_finite_inputs.S_.Idx :=
  ⟨fun a b => funext fun d => d.elim0⟩

theorem ofBool_eq_one (b : Bool) : BitVec.ofBool b = 1#1 ↔ b = true := by cases b <;> decide

/-- The f32 pattern of +∞ denotes +∞. -/
theorem inf_pattern : Ideal.ofBits .f32 0x7F800000#32 = (⊤ : EReal) := by
  simp [Ideal.ofBits, Ideal.ieee]

/-- An extended real x with max x (−x) < +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element fact of the printed predicate: |x| < +∞, as the comparison's one-bit word, makes x a real number. -/
theorem real_of_word (x : Ideal .f32)
    (h : FloatOps.cmpf (F := Ideal) .olt (FloatOps.hostAbsf (F := Ideal) x) (FloatOps.ofBits (F := Ideal) .f32 0x7F800000#32)
      = 1#1) : ∃ r : ℝ, x = (r : EReal) := by
  have h' : Ideal.cmp .olt (max x (-x)) (Ideal.ofBits .f32 0x7F800000#32) = 1#1 := h
  rw [inf_pattern] at h'
  unfold Ideal.cmp at h'
  rw [ofBool_eq_one] at h'
  exact real_of_abs_lt_top x (of_decide_eq_true h')

/-- The predicate over arbitrary argument arrays: all ones means every entry of the first four arrays is real. -/
theorem real_of_fn [Cert.Pre_finite_inputs.Facts] (a0 : FVec Ideal Cert.Pre_finite_inputs.S4x64x64x512 .f32)
    (a1 a2 : FVec Ideal Cert.Pre_finite_inputs.S512x64 .f32) (a3 : FVec Ideal Cert.Pre_finite_inputs.S512x512 .f32)
    (a4 : FVec Ideal Cert.Pre_finite_inputs.S1 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have e := congrFun h ix0
  unfold Cert.Pre_finite_inputs.fn Cert.Pre_finite_inputs.fn_part1 at e
  dsimp only at e
  simp only [andi, IntOp.andi_eq_one] at e
  obtain ⟨⟨⟨⟨e0, e1⟩, e2⟩, e3⟩, -⟩ := e
  refine ⟨fun i => ?_, fun i => ?_, fun i => ?_, fun i => ?_⟩
  · exact real_of_word _ (Host.reduce_andi_all _ _ _ _ _ e0 i)
  · exact real_of_word _ (Host.reduce_andi_all _ _ _ _ _ e1 i)
  · exact real_of_word _ (Host.reduce_andi_all _ _ _ _ _ e2 i)
  · exact real_of_word _ (Host.reduce_andi_all _ _ _ _ _ e3 i)

/-- Under the precondition every entry of the input and of the three weight matrices is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ b hh w ch, ∃ r : ℝ, argX m c b hh w ch = (r : EReal)) ∧ (∀ a k, ∃ r : ℝ, argW1 m c a k = (r : EReal))
    ∧ (∀ a k, ∃ r : ℝ, argW2 m c a k = (r : EReal)) ∧ (∀ a d, ∃ r : ℝ, argW3 m c a d = (r : EReal)) := by
  obtain ⟨h0, h1, h2, h3⟩ := real_of_fn _ _ _ _ _ (h c)
  exact ⟨fun b hh w ch => h0 (ix4 b hh w ch), fun a k => h1 (ix2 a k), fun a k => h2 (ix2 a k), fun a d => h3 (ix2 a d)⟩

end Cert.KernelIdeal.Hand

end
-- ==== Proof.Kernel.ProjBody.lean ====
/-
  The projection stage, one grid point at a time. The pipeline hands the body a block of 2048 rows of the flattened
  input (2048 x 512), the whole concatenated weight (512 x 640) and an output buffer (2048 x 640) holding anything;
  the body reads the two operands whole, multiplies them on the matrix unit into a zero accumulator and stores the
  product over the whole output buffer. So after the body the output buffer is a function of the two operand blocks
  alone, and the operands' buffers are as they were.
-/
import proofs.«130749_j38989713113556_2_alg».proof.Proof.Gen.Kernel.Launch
import proofs.«130749_j38989713113556_2_alg».proof.Proof.Gen.Kernel.Skeleton
import proofs.«130749_j38989713113556_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each of the body's three buffers, as the rectangle its load or store names. -/
abbrev rX : Rect S2048x512 := Rect.unit (s := S2048x512) ![0, 0] S2048x512.size inb_S2048x512_S2048x512_0_0
abbrev rW : Rect S512x640 := Rect.unit (s := S512x640) ![0, 0] S512x640.size inb_S512x640_S512x640_0_0
abbrev rO : Rect S2048x640 := Rect.unit (s := S2048x640) ![0, 0] S2048x640.size inb_S2048x640_S2048x640_0_0

/-- What the body leaves in the output buffer: its one store, of the product of the two operand blocks. -/
def outBlk (x : Vec F S2048x512 .f32) (w : Vec F S512x640 .bf16) : Vec F S2048x640 .bf16 :=
  View.canon [⟨rO, k0_pay1 (View.ld x rX) (View.ld w rW)⟩]

/-- The one store covers the output buffer. -/
theorem outCover (p : Vec F S2048x640 .bf16) (y : S2048x640.Idx) :
    ∃ pc ∈ ([⟨rO, p⟩] : List (View.Piece (Elt F) S2048x640 .bf16)), y ∈ pc.1.set :=
  View.cover_of_tiled [⟨rO, p⟩] S2048x640.size (by rfl) y

set_option maxHeartbeats 1000000 in
/-- The body on whole buffers: the operands' at contents `x`, `w`, the output's at anything. It runs to the end and
    leaves the operands as they were and the output at `outBlk x w`. -/
theorem run_body (c : Dev nD) (E : Set ℕ) (i : grid0.Coords)
    (a1 : Memref sig .tc .vmem S2048x512 .f32) (h1 : a1.IsWhole)
    (a2 : Memref sig .tc .vmem S512x640 .bf16) (h2 : a2.IsWhole)
    (a3 : Memref sig .tc .vmem S2048x640 .bf16) (h3 : a3.IsWhole)
    (x : Vec F S2048x512 .f32) (w : Vec F S512x640 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (outBlk x w)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.Kernel.Proj

end
-- ==== Proof.Kernel.ProjData.lean ====
/-
  The projection stage's pipeline as proof data, at a parameter `V`: the contents of the core's buffers when the
  region is entered. Window 0 walks the flattened input 2048 rows at a time, window 1 is the whole weight (fetched
  once, found in place at every later point), window 2 the output, written back at every point. After the body at
  point `t` the two operand buffers hold their blocks and the output buffer holds the product of those blocks.
-/
import proofs.«130749_j38989713113556_2_alg».proof.Proof.Kernel.ProjBody

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's buffer holds its block at every point, whether the pipeline fetched there or not: where it
    did not, the block's index has not moved since the fetch. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The proof data: the arrays as the region finds them; after the body each operand's buffer at its block and the
    output's at the product of the two blocks; the body uses nothing else of the core's, owes nothing, holds whole shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlk (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outBlk (blk V c 0 t) (blk V c 1 t) := by dsimp only [dat]

theorem before_0 (c : Dev nD) (t : Fin cfg0.N) (d) : (dat V c).before 0 t d = blk V c 0 t :=
  before_in0 V (dat V c) (dat_A V c 0) (after_0 V c) t d
theorem before_1 (c : Dev nD) (t : Fin cfg0.N) (d) : (dat V c).before 1 t d = blk V c 1 t :=
  before_in1 V (dat V c) (dat_A V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the operands' buffers hold their blocks, so the body's run applies; what the body does not
    touch passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run_body c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.Kernel.FlashRuns.lean ====
/-
  The attention stage: what its grid points share. The grid is (batch, query tile, key tile) = 4 x 2 x 8, the key
  tile innermost, so the point numbered `t` has key tile `t % 8`. The body keeps three buffers of its own across the
  eight key tiles of one (batch, query tile): the running row maximum, the running row sum and the running weighted sum
  of value rows. At key tile 0 it resets them; at key tile 7 it divides the weighted sum by the row sum and stores the
  transposed quotient into the output buffer, which the pipeline writes back there and only there. Elsewhere the
  output buffer is left untouched.
-/
import proofs.«130749_j38989713113556_2_alg».proof.Proof.Gen.Kernel.Launch
import proofs.«130749_j38989713113556_2_alg».proof.Proof.Gen.Kernel.Skeleton
import proofs.«130749_j38989713113556_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is key tile 0": the body's first conditional, from the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-- "This is key tile 7": the body's second conditional. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-! ## Where the windows are idle and where the output is written back -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Off key tile 7 the output window is idle and not written back; -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
/-- at key tile 7 it is live. -/
theorem live_3 : ∀ t : Fin cfg1.N, isLast (grid1.coords t) → cfg1.idle 3 (grid1.coords t) = false := by decide +kernel

/-! ## The buffers the body is called with -/

abbrev mQ (t : Fin cfg1.N) : Memref sig .tc .vmem S1x2048x64 .bf16 := win1_0.stage (cfg1.slots t 0)
abbrev hQ (t : Fin cfg1.N) : (mQ t).IsWhole := hstage1_0 ((cfg1.slots t 0).cast nbuf1_0)
abbrev mK (t : Fin cfg1.N) : Memref sig .tc .vmem S1x512x64 .bf16 := win1_1.stage (cfg1.slots t 1)
abbrev hK (t : Fin cfg1.N) : (mK t).IsWhole := hstage1_1 ((cfg1.slots t 1).cast nbuf1_1)
abbrev mV (t : Fin cfg1.N) : Memref sig .tc .vmem S1x512x512 .bf16 := win1_2.stage (cfg1.slots t 2)
abbrev hV (t : Fin cfg1.N) : (mV t).IsWhole := hstage1_2 ((cfg1.slots t 2).cast nbuf1_2)
abbrev mO (t : Fin cfg1.N) : Memref sig .tc .vmem S1x512x2048 .f32 := win1_3.stage (cfg1.slots t 3)
abbrev hO (t : Fin cfg1.N) : (mO t).IsWhole := hstage1_3 ((cfg1.slots t 3).cast nbuf1_3)
/-- The running maximum, the running sum and the running weighted sum: whole buffers of the kernel's own. -/
abbrev sM : Memref sig .tc .vmem S1x2048x1 .f32 := Memref.whole cc1_scratch0
abbrev sL : Memref sig .tc .vmem S1x2048x1 .f32 := Memref.whole cc1_scratch1
abbrev sA : Memref sig .tc .vmem S1x2048x512 .f32 := Memref.whole cc1_scratch2
/-- Views through which the contents of the output buffer and of the three carried buffers are stated. -/
abbrev vO : View sig .tc .vmem S1x512x2048 .f32 := (Memref.whole cc1_stg3_0 : Memref sig .tc .vmem S1x512x2048 .f32).view
abbrev vM : View sig .tc .vmem S1x2048x1 .f32 := sM.view
abbrev vL : View sig .tc .vmem S1x2048x1 .f32 := sL.view
abbrev vA : View sig .tc .vmem S1x2048x512 .f32 := sA.view

/-- What the launch hands the region besides the windows, with the three carried buffers as owned memrefs at some
    contents: the other stage's staging buffers (at anything), the three, and the generator register. -/
theorem entryInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) sM fullShare d) ∗ (∃ d, owns (c : Thread nD τ) sL fullShare d) ∗ (∃ d, owns (c : Thread nD τ) sA fullShare d))
        ∗ (∃ r, prngReg c r)) := by
  unfold Pipeline.ΦA; rw [scopedRest1_eq]; simp only [sM, sL, sA, owns_whole]; try rfl

end Cert.Kernel.Flash

end
-- ==== Proof.Kernel.FlashRunA.lean ====
/-
  The attention body at key tile 0. It overwrites its three carried buffers with the neutral values (minus
  infinity, zero, zero), then makes one update step from them with this point's query, key and value blocks, and leaves
  the output buffer as it found it. What the three carried buffers end with is recorded as the pieces the run stores.
-/
import proofs.«130749_j38989713113556_2_alg».proof.Proof.Kernel.FlashRuns

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (aQ : Memref sig .tc .vmem S1x2048x64 .bf16) (hq : aQ.IsWhole) (aK : Memref sig .tc .vmem S1x512x64 .bf16) (hk : aK.IsWhole)
    (aV : Memref sig .tc .vmem S1x512x512 .bf16) (hv : aV.IsWhole) (aO : Memref sig .tc .vmem S1x512x2048 .f32) (ho : aO.IsWhole)
    (aM : Memref sig .tc .vmem S1x2048x1 .f32) (hm : aM.IsWhole) (aL : Memref sig .tc .vmem S1x2048x1 .f32) (hl : aL.IsWhole)
    (aA : Memref sig .tc .vmem S1x2048x512 .f32) (ha : aA.IsWhole)
    (hc0 : isFirst i) (hc1 : ¬isLast i)
    (xq : Vec F S1x2048x64 .bf16) (xk : Vec F S1x512x64 .bf16) (xv : Vec F S1x512x512 .bf16) :
    Σ' (LM : List (View.Piece (Elt F) S1x2048x1 .f32)) (LL : List (View.Piece (Elt F) S1x2048x1 .f32)), { LA : List (View.Piece (Elt F) S1x2048x512 .f32) //
      ∀ (xo : Vec F S1x512x2048 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo
            ∗ (∃ d, owns (c : Thread nD τ) aM fullShare d) ∗ (∃ d, owns (c : Thread nD τ) aL fullShare d) ∗ (∃ d, owns (c : Thread nD τ) aA fullShare d)
            ∗ (iprop(owns (c : Thread nD τ) aQ fullShare xq ∗ owns (c : Thread nD τ) aK fullShare xk ∗ owns (c : Thread nD τ) aV fullShare xv ∗ owns (c : Thread nD τ) aO fullShare xo
                ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1__flash_kernel i aQ hq aK hk aV hv aO ho aM hm aL hl aA ha) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%fq, %hfq, HQ⟩, ⟨%fk, %hfk, HK⟩, ⟨%fv, %hfv, HV⟩, ⟨%fo, %hfo, HO⟩, ⟨%dm, %fm, -, HM⟩, ⟨%dl, %fl, -, HL⟩, ⟨%da, %fa, -, HA⟩, Hk⟩
    obtain rfl := hq.eq_unread hfq; obtain rfl := hk.eq_unread hfk; obtain rfl := hv.eq_unread hfv; obtain rfl := ho.eq_unread hfo
    sl_exec (disch := first | exact hc0 | exact hc1)
    sl_step
    iapply Hk
    isplitl [HQ]
    · iexists _; isplitr; · ipureintro; exact hq.read_unread _
      iexact HQ
    isplitl [HK]
    · iexists _; isplitr; · ipureintro; exact hk.read_unread _
      iexact HK
    isplitl [HV]
    · iexists _; isplitr; · ipureintro; exact hv.read_unread _
      iexact HV
    isplitl [HO]
    · iexists _; isplitr; · ipureintro; exact ho.read_unread _
      iexact HO
    isplitl [HM]; · iexists _; iexact HM
    isplitl [HL]; · iexists _; iexact HL
    iexists _; iexact HA

end Cert.Kernel.Flash

end
-- ==== Proof.Kernel.FlashRunB.lean ====
/-
  The attention body at key tiles 1 to 6. It finds its three carried buffers at what the tile before left, makes one
  update step from them with this point's query, key and value blocks, and leaves the output buffer as it found it.
-/
import proofs.«130749_j38989713113556_2_alg».proof.Proof.Kernel.FlashRunA

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (aQ : Memref sig .tc .vmem S1x2048x64 .bf16) (hq : aQ.IsWhole) (aK : Memref sig .tc .vmem S1x512x64 .bf16) (hk : aK.IsWhole)
    (aV : Memref sig .tc .vmem S1x512x512 .bf16) (hv : aV.IsWhole) (aO : Memref sig .tc .vmem S1x512x2048 .f32) (ho : aO.IsWhole)
    (aM : Memref sig .tc .vmem S1x2048x1 .f32) (hm : aM.IsWhole) (aL : Memref sig .tc .vmem S1x2048x1 .f32) (hl : aL.IsWhole)
    (aA : Memref sig .tc .vmem S1x2048x512 .f32) (ha : aA.IsWhole)
    (hc0 : ¬isFirst i) (hc1 : ¬isLast i)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :
    Σ' (LM : List (View.Piece (Elt F) S1x2048x1 .f32)) (LL : List (View.Piece (Elt F) S1x2048x1 .f32)), { LA : List (View.Piece (Elt F) S1x2048x512 .f32) //
      ∀ (xo : Vec F S1x512x2048 .f32) (E : Set ℕ) (K : PUnit → sProp 𝕄),
        iprop(owns (c : Thread nD τ) aQ fullShare xq ∗ owns (c : Thread nD τ) aK fullShare xk ∗ owns (c : Thread nD τ) aV fullShare xv ∗ owns (c : Thread nD τ) aO fullShare xo
            ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ owns (c : Thread nD τ) aO fullShare xo
                ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1__flash_kernel i aQ hq aK hk aV hv aO ho aM hm aL hl aA ha) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%fq, %hfq, HQ⟩, ⟨%fk, %hfk, HK⟩, ⟨%fv, %hfv, HV⟩, ⟨%fo, %hfo, HO⟩, ⟨%fm, %hfm, HM⟩, ⟨%fl, %hfl, HL⟩, ⟨%fa, %hfa, HA⟩, Hk⟩
    obtain rfl := hq.eq_unread hfq; obtain rfl := hk.eq_unread hfk; obtain rfl := hv.eq_unread hfv; obtain rfl := ho.eq_unread hfo
    obtain rfl := hm.eq_unread hfm; obtain rfl := hl.eq_unread hfl; obtain rfl := ha.eq_unread hfa
    sl_exec (disch := first | exact hc0 | exact hc1)
    sl_step
    iapply Hk
    isplitl [HQ]
    · iexists _; isplitr; · ipureintro; exact hq.read_unread _
      iexact HQ
    isplitl [HK]
    · iexists _; isplitr; · ipureintro; exact hk.read_unread _
      iexact HK
    isplitl [HV]
    · iexists _; isplitr; · ipureintro; exact hv.read_unread _
      iexact HV
    isplitl [HO]
    · iexists _; isplitr; · ipureintro; exact ho.read_unread _
      iexact HO
    isplitl [HM]; · iexists _; iexact HM
    isplitl [HL]; · iexists _; iexact HL
    iexists _; iexact HA

end Cert.Kernel.Flash

end
-- ==== Proof.Kernel.FlashRunC.lean ====
/-
  The attention body at key tile 7. It finds its three carried buffers at what tile 6 left, makes the last update
  step, and then stores into the output buffer the weighted sum divided row by row by the row sum, transposed.
-/
import proofs.«130749_j38989713113556_2_alg».proof.Proof.Kernel.FlashRunB

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (aQ : Memref sig .tc .vmem S1x2048x64 .bf16) (hq : aQ.IsWhole) (aK : Memref sig .tc .vmem S1x512x64 .bf16) (hk : aK.IsWhole)
    (aV : Memref sig .tc .vmem S1x512x512 .bf16) (hv : aV.IsWhole) (aO : Memref sig .tc .vmem S1x512x2048 .f32) (ho : aO.IsWhole)
    (aM : Memref sig .tc .vmem S1x2048x1 .f32) (hm : aM.IsWhole) (aL : Memref sig .tc .vmem S1x2048x1 .f32) (hl : aL.IsWhole)
    (aA : Memref sig .tc .vmem S1x2048x512 .f32) (ha : aA.IsWhole)
    (hc0 : ¬isFirst i) (hc1 : isLast i)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :
    Σ' (LO : List (View.Piece (Elt F) S1x512x2048 .f32)) (LM : List (View.Piece (Elt F) S1x2048x1 .f32)) (LL : List (View.Piece (Elt F) S1x2048x1 .f32)), { LA : List (View.Piece (Elt F) S1x2048x512 .f32) //
      ∀ (E : Set ℕ) (K : PUnit → sProp 𝕄),
        iprop(owns (c : Thread nD τ) aQ fullShare xq ∗ owns (c : Thread nD τ) aK fullShare xk ∗ owns (c : Thread nD τ) aV fullShare xv ∗ (∃ d, owns (c : Thread nD τ) aO fullShare d)
            ∗ owns (c : Thread nD τ) aM fullShare xm ∗ owns (c : Thread nD τ) aL fullShare xl ∗ owns (c : Thread nD τ) aA fullShare xa
            ∗ (iprop(owns (c : Thread nD τ) aQ fullShare xq ∗ owns (c : Thread nD τ) aK fullShare xk ∗ owns (c : Thread nD τ) aV fullShare xv ∗ (∃ f, aO.view.loc (c : Thread nD τ) ↦[aO.view.set]{fullShare} aO.view.writes (Elt F) f LO)
                ∗ (∃ f, aM.view.loc (c : Thread nD τ) ↦[aM.view.set]{fullShare} aM.view.writes (Elt F) f LM) ∗ (∃ f, aL.view.loc (c : Thread nD τ) ↦[aL.view.set]{fullShare} aL.view.writes (Elt F) f LL) ∗ (∃ f, aA.view.loc (c : Thread nD τ) ↦[aA.view.set]{fullShare} aA.view.writes (Elt F) f LA)) -∗ K ⟨⟩))
          ⊢ wp frame (wpE (defs₀ (F := F)) Variants.none c none) E (cc1__flash_kernel i aQ hq aK hk aV hv aO ho aM hm aL hl aA ha) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%fq, %hfq, HQ⟩, ⟨%fk, %hfk, HK⟩, ⟨%fv, %hfv, HV⟩, ⟨%dO, %fo, -, HO⟩, ⟨%fm, %hfm, HM⟩, ⟨%fl, %hfl, HL⟩, ⟨%fa, %hfa, HA⟩, Hk⟩
    obtain rfl := hq.eq_unread hfq; obtain rfl := hk.eq_unread hfk; obtain rfl := hv.eq_unread hfv
    obtain rfl := hm.eq_unread hfm; obtain rfl := hl.eq_unread hfl; obtain rfl := ha.eq_unread hfa
    sl_exec (disch := first | exact hc0 | exact hc1)
    sl_step
    iapply Hk
    isplitl [HQ]
    · iexists _; isplitr; · ipureintro; exact hq.read_unread _
      iexact HQ
    isplitl [HK]
    · iexists _; isplitr; · ipureintro; exact hk.read_unread _
      iexact HK
    isplitl [HV]
    · iexists _; isplitr; · ipureintro; exact hv.read_unread _
      iexact HV
    isplitl [HO]; · iexists _; iexact HO
    isplitl [HM]; · iexists _; iexact HM
    isplitl [HL]; · iexists _; iexact HL
    iexists _; iexact HA

end Cert.Kernel.Flash

end
-- ==== Proof.Kernel.FlashData.lean ====
/-
  The attention stage's pipeline as proof data, at a parameter `V`: the contents of the core's buffers when the region
  is entered. Windows 0, 1, 2 walk the queries (a tile of 2048 rows, fetched once per eight points), the keys and the
  values (tiles of 512 rows, fetched at every point); window 3 is the output, one block per (batch, query tile), written
  back after key tile 7. What the output buffer and the three carried buffers hold after each point is defined by
  recursion on the point: at key tile 0 the step from the neutral values, afterwards the step from what the point before
  left; the region's invariant carries the three buffers at exactly those contents from one point to the next.
-/
import proofs.«130749_j38989713113556_2_alg».proof.Proof.Kernel.FlashRunC

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's buffer holds its block at every point, whether the pipeline fetched there or not. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The three kinds of point, at the point's own buffers -/

/-- The run at a point of key tile 0, 1–6, 7, instantiated at the buffers the pipeline calls the body with there. -/
abbrev firstAt (c : Dev nD) (t : Fin cfg1.N) (h0 : t.val % 8 = 0) (h1 : ¬t.val % 8 = 7)
    (xq : Vec F S1x2048x64 .bf16) (xk : Vec F S1x512x64 .bf16) (xv : Vec F S1x512x512 .bf16) :=
  runFirst (F := F) c (grid1.coords t) (mQ t) (hQ t) (mK t) (hK t) (mV t) (hV t) (mO t) (hO t) sM (Memref.isWhole_whole _) sL (Memref.isWhole_whole _) sA (Memref.isWhole_whole _) ((isFirst_iff t).mpr h0) (fun h => h1 ((isLast_iff t).mp h)) xq xk xv
abbrev midAt (c : Dev nD) (t : Fin cfg1.N) (h0 : ¬t.val % 8 = 0) (h1 : ¬t.val % 8 = 7)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :=
  runMid (F := F) c (grid1.coords t) (mQ t) (hQ t) (mK t) (hK t) (mV t) (hV t) (mO t) (hO t) sM (Memref.isWhole_whole _) sL (Memref.isWhole_whole _) sA (Memref.isWhole_whole _) (fun h => h0 ((isFirst_iff t).mp h)) (fun h => h1 ((isLast_iff t).mp h)) xq xk xv xm xl xa
abbrev lastAt (c : Dev nD) (t : Fin cfg1.N) (h0 : ¬t.val % 8 = 0) (h1 : t.val % 8 = 7)
    (xq : Vec F S1x2048x64 .bf16) (xk : Vec F S1x512x64 .bf16) (xv : Vec F S1x512x512 .bf16)
    (xm : Vec F S1x2048x1 .f32) (xl : Vec F S1x2048x1 .f32) (xa : Vec F S1x2048x512 .f32) :=
  runLast (F := F) c (grid1.coords t) (mQ t) (hQ t) (mK t) (hK t) (mV t) (hV t) (mO t) (hO t) sM (Memref.isWhole_whole _) sL (Memref.isWhole_whole _) sA (Memref.isWhole_whole _) (fun h => h0 ((isFirst_iff t).mp h)) ((isLast_iff t).mpr h1) xq xk xv xm xl xa

/-- The four buffers' contents as a tuple: output, running maximum, running sum, running weighted sum. -/
abbrev St (F : FTy → Type) [FloatOps F] : Type := Vec F S1x512x2048 .f32 × Vec F S1x2048x1 .f32 × Vec F S1x2048x1 .f32 × Vec F S1x2048x512 .f32

/-- The output buffer's contents where no point consults them (it is neither written back nor read there). -/
def noOut : Vec F S1x512x2048 .f32 := vO.read (Elt F) (vO.writes (Elt F) vO.junk [])

/-- What a point of key tile 0 leaves: its stores read back. -/
def firstSt (c : Dev nD) (t : Fin cfg1.N) (h0 : t.val % 8 = 0) (h1 : ¬t.val % 8 = 7)
    (xq : Vec F S1x2048x64 .bf16) (xk : Vec F S1x512x64 .bf16) (xv : Vec F S1x512x512 .bf16) : St F :=
  (noOut, vM.read (Elt F) (vM.writes (Elt F) vM.junk (firstAt c t h0 h1 xq xk xv).1),
    vL.read (Elt F) (vL.writes (Elt F) vL.junk (firstAt c t h0 h1 xq xk xv).2.1),
    vA.read (Elt F) (vA.writes (Elt F) vA.junk (firstAt c t h0 h1 xq xk xv).2.2.1))
/-- What a point of key tiles 1–6 leaves, from what the point before left (`s`). -/
def midSt (c : Dev nD) (t : Fin cfg1.N) (h0 : ¬t.val % 8 = 0) (h1 : ¬t.val % 8 = 7)
    (xq : Vec F S1x2048x64 .bf16) (xk : Vec F S1x512x64 .bf16) (xv : Vec F S1x512x512 .bf16) (s : St F) : St F :=
  (noOut, vM.read (Elt F) (vM.writes (Elt F) vM.junk (midAt c t h0 h1 xq xk xv s.2.1 s.2.2.1 s.2.2.2).1),
    vL.read (Elt F) (vL.writes (Elt F) vL.junk (midAt c t h0 h1 xq xk xv s.2.1 s.2.2.1 s.2.2.2).2.1),
    vA.read (Elt F) (vA.writes (Elt F) vA.junk (midAt c t h0 h1 xq xk xv s.2.1 s.2.2.1 s.2.2.2).2.2.1))
/-- What a point of key tile 7 leaves, from what the point before left: now also the output buffer. -/
def lastSt (c : Dev nD) (t : Fin cfg1.N) (h0 : ¬t.val % 8 = 0) (h1 : t.val % 8 = 7)
    (xq : Vec F S1x2048x64 .bf16) (xk : Vec F S1x512x64 .bf16) (xv : Vec F S1x512x512 .bf16) (s : St F) : St F :=
  (vO.read (Elt F) (vO.writes (Elt F) vO.junk (lastAt c t h0 h1 xq xk xv s.2.1 s.2.2.1 s.2.2.2).1),
    vM.read (Elt F) (vM.writes (Elt F) vM.junk (lastAt c t h0 h1 xq xk xv s.2.1 s.2.2.1 s.2.2.2).2.1),
    vL.read (Elt F) (vL.writes (Elt F) vL.junk (lastAt c t h0 h1 xq xk xv s.2.1 s.2.2.1 s.2.2.2).2.2.1),
    vA.read (Elt F) (vA.writes (Elt F) vA.junk (lastAt c t h0 h1 xq xk xv s.2.1 s.2.2.1 s.2.2.2).2.2.2.1))

/-! Each buffer's stores cover it (every store is of the whole buffer). -/
section Covers
variable (c : Dev nD) (t : Fin cfg1.N) (xq : Vec F S1x2048x64 .bf16) (xk : Vec F S1x512x64 .bf16) (xv : Vec F S1x512x512 .bf16)
  (xm : Vec F S1x2048x1 .f32) (xl : Vec F S1x2048x1 .f32) (xa : Vec F S1x2048x512 .f32)
theorem firstM_cover (h0 : t.val % 8 = 0) (h1 : ¬t.val % 8 = 7) (y : S1x2048x1.Idx) : ∃ pc ∈ (firstAt (F := F) c t h0 h1 xq xk xv).1, y ∈ pc.1.set :=
  View.cover_of_tiledL (firstAt (F := F) c t h0 h1 xq xk xv).1 S1x2048x1.size (by sl_kernel_rfl) y
theorem firstL_cover (h0 : t.val % 8 = 0) (h1 : ¬t.val % 8 = 7) (y : S1x2048x1.Idx) : ∃ pc ∈ (firstAt (F := F) c t h0 h1 xq xk xv).2.1, y ∈ pc.1.set :=
  View.cover_of_tiledL (firstAt (F := F) c t h0 h1 xq xk xv).2.1 S1x2048x1.size (by sl_kernel_rfl) y
theorem firstA_cover (h0 : t.val % 8 = 0) (h1 : ¬t.val % 8 = 7) (y : S1x2048x512.Idx) : ∃ pc ∈ (firstAt (F := F) c t h0 h1 xq xk xv).2.2.1, y ∈ pc.1.set :=
  View.cover_of_tiledL (firstAt (F := F) c t h0 h1 xq xk xv).2.2.1 S1x2048x512.size (by sl_kernel_rfl) y
theorem midM_cover (h0 : ¬t.val % 8 = 0) (h1 : ¬t.val % 8 = 7) (y : S1x2048x1.Idx) : ∃ pc ∈ (midAt (F := F) c t h0 h1 xq xk xv xm xl xa).1, y ∈ pc.1.set :=
  View.cover_of_tiledL (midAt (F := F) c t h0 h1 xq xk xv xm xl xa).1 S1x2048x1.size (by sl_kernel_rfl) y
theorem midL_cover (h0 : ¬t.val % 8 = 0) (h1 : ¬t.val % 8 = 7) (y : S1x2048x1.Idx) : ∃ pc ∈ (midAt (F := F) c t h0 h1 xq xk xv xm xl xa).2.1, y ∈ pc.1.set :=
  View.cover_of_tiledL (midAt (F := F) c t h0 h1 xq xk xv xm xl xa).2.1 S1x2048x1.size (by sl_kernel_rfl) y
theorem midA_cover (h0 : ¬t.val % 8 = 0) (h1 : ¬t.val % 8 = 7) (y : S1x2048x512.Idx) : ∃ pc ∈ (midAt (F := F) c t h0 h1 xq xk xv xm xl xa).2.2.1, y ∈ pc.1.set :=
  View.cover_of_tiledL (midAt (F := F) c t h0 h1 xq xk xv xm xl xa).2.2.1 S1x2048x512.size (by sl_kernel_rfl) y
theorem lastO_cover (h0 : ¬t.val % 8 = 0) (h1 : t.val % 8 = 7) (y : S1x512x2048.Idx) : ∃ pc ∈ (lastAt (F := F) c t h0 h1 xq xk xv xm xl xa).1, y ∈ pc.1.set :=
  View.cover_of_tiledL (lastAt (F := F) c t h0 h1 xq xk xv xm xl xa).1 S1x512x2048.size (by sl_kernel_rfl) y
theorem lastM_cover (h0 : ¬t.val % 8 = 0) (h1 : t.val % 8 = 7) (y : S1x2048x1.Idx) : ∃ pc ∈ (lastAt (F := F) c t h0 h1 xq xk xv xm xl xa).2.1, y ∈ pc.1.set :=
  View.cover_of_tiledL (lastAt (F := F) c t h0 h1 xq xk xv xm xl xa).2.1 S1x2048x1.size (by sl_kernel_rfl) y
theorem lastL_cover (h0 : ¬t.val % 8 = 0) (h1 : t.val % 8 = 7) (y : S1x2048x1.Idx) : ∃ pc ∈ (lastAt (F := F) c t h0 h1 xq xk xv xm xl xa).2.2.1, y ∈ pc.1.set :=
  View.cover_of_tiledL (lastAt (F := F) c t h0 h1 xq xk xv xm xl xa).2.2.1 S1x2048x1.size (by sl_kernel_rfl) y
theorem lastA_cover (h0 : ¬t.val % 8 = 0) (h1 : t.val % 8 = 7) (y : S1x2048x512.Idx) : ∃ pc ∈ (lastAt (F := F) c t h0 h1 xq xk xv xm xl xa).2.2.2.1, y ∈ pc.1.set :=
  View.cover_of_tiledL (lastAt (F := F) c t h0 h1 xq xk xv xm xl xa).2.2.2.1 S1x2048x512.size (by sl_kernel_rfl) y
end Covers

/-! ## The contents point by point -/

/-- What the four buffers hold after the body at position `n`. -/
def stAt (c : Dev nD) : (n : ℕ) → n < cfg1.N → St F
  | 0, hn => firstSt c ⟨0, hn⟩ (Nat.zero_mod _) (show ¬(0 % 8 = 7) by decide) (blk V c 0 ⟨0, hn⟩) (blk V c 1 ⟨0, hn⟩) (blk V c 2 ⟨0, hn⟩)
  | n + 1, hn =>
    if h0 : (n + 1) % 8 = 0 then
      if h1 : (n + 1) % 8 = 7 then False.elim (by omega)
      else firstSt c ⟨n + 1, hn⟩ h0 h1 (blk V c 0 ⟨n + 1, hn⟩) (blk V c 1 ⟨n + 1, hn⟩) (blk V c 2 ⟨n + 1, hn⟩)
    else
      if h1 : (n + 1) % 8 = 7 then
        lastSt c ⟨n + 1, hn⟩ h0 h1 (blk V c 0 ⟨n + 1, hn⟩) (blk V c 1 ⟨n + 1, hn⟩) (blk V c 2 ⟨n + 1, hn⟩) (stAt c n (Nat.lt_of_succ_lt hn))
      else
        midSt c ⟨n + 1, hn⟩ h0 h1 (blk V c 0 ⟨n + 1, hn⟩) (blk V c 1 ⟨n + 1, hn⟩) (blk V c 2 ⟨n + 1, hn⟩) (stAt c n (Nat.lt_of_succ_lt hn))

theorem stAt_first (c : Dev nD) (t : Fin cfg1.N) (h0 : t.val % 8 = 0) (h1 : ¬t.val % 8 = 7) :
    stAt V c t.val t.isLt = firstSt c t h0 h1 (blk V c 0 t) (blk V c 1 t) (blk V c 2 t) := by
  obtain ⟨n, hn⟩ := t
  cases n with
  | zero => exact rfl
  | succ n => exact (dif_pos h0).trans ((dif_neg h1).trans rfl)
theorem stAt_mid (c : Dev nD) (t : Fin cfg1.N) (h0 : ¬t.val % 8 = 0) (h1 : ¬t.val % 8 = 7) :
    stAt V c t.val t.isLt = midSt c t h0 h1 (blk V c 0 t) (blk V c 1 t) (blk V c 2 t) (stAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem stAt_last (c : Dev nD) (t : Fin cfg1.N) (h0 : ¬t.val % 8 = 0) (h1 : t.val % 8 = 7) :
    stAt V c t.val t.isLt = lastSt c t h0 h1 (blk V c 0 t) (blk V c 1 t) (blk V c 2 t) (stAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands over (the three carried buffers at anything). Before a later point: the
    three carried buffers at what the point before left, the rest as before. -/
def inv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) sM fullShare (stAt V c n hn).2.1 ∗ owns (c : Thread nD τ) sL fullShare (stAt V c n hn).2.2.1
          ∗ owns (c : Thread nD τ) sA fullShare (stAt V c n hn).2.2.2) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) sM fullShare (stAt V c n hn).2.1 ∗ owns (c : Thread nD τ) sL fullShare (stAt V c n hn).2.2.1
          ∗ owns (c : Thread nD τ) sA fullShare (stAt V c n hn).2.2.2) ∗ (∃ r, prngReg c r)) := rfl
theorem inv_pos (c : Dev nD) (n : ℕ) (h : n ≤ cfg1.N) (hz : n ≠ 0) :
    inv V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) sM fullShare (stAt V c (n - 1) (by omega)).2.1 ∗ owns (c : Thread nD τ) sL fullShare (stAt V c (n - 1) (by omega)).2.2.1
          ∗ owns (c : Thread nD τ) sA fullShare (stAt V c (n - 1) (by omega)).2.2.2) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (stAt V c t.val t.isLt).1 := by dsimp only [dat]
theorem before_0 (c : Dev nD) (t : Fin cfg1.N) (d) : (dat V c).before 0 t d = blk V c 0 t :=
  before_in0 V (dat V c) (dat_A V c 0) (after_0 V c) t d
theorem before_1 (c : Dev nD) (t : Fin cfg1.N) (d) : (dat V c).before 1 t d = blk V c 1 t :=
  before_in1 V (dat V c) (dat_A V c 1) (after_1 V c) t d
theorem before_2 (c : Dev nD) (t : Fin cfg1.N) (d) : (dat V c).before 2 t d = blk V c 2 t :=
  before_in2 V (dat V c) (dat_A V c 2) (after_2 V c) t d

end Cert.Kernel.Flash

end
-- ==== Proof.Kernel.FlashBody.lean ====
/-
  The attention body meets the pipeline's obligation at every point: by the key tile the point is of one of three kinds,
  and at each the corresponding run applies — the operand buffers hold their blocks, the three carried buffers hold what
  the invariant says (anything at key tile 0, where the body resets them), the output buffer is handed back as found
  except at key tile 7, where it ends holding the quotient. The invariant is then reassembled with the carried buffers
  at the contents the recursion assigns to this point.
-/
import proofs.«130749_j38989713113556_2_alg».proof.Proof.Kernel.FlashData

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (mQ t) fullShare ((dat V c).before 0 t d))
    ∗ (∃ d, owns (c : Thread nD τ) (mK t) fullShare ((dat V c).before 1 t d))
    ∗ (∃ d, owns (c : Thread nD τ) (mV t) fullShare ((dat V c).before 2 t d))
    ∗ (∃ d, owns (c : Thread nD τ) (mO t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg1.N = 64 from N_1)
  rw [show (dat V c).leavesExact 0 t = owns (c : Thread nD τ) (mQ t) fullShare ((dat V c).after 0 t) from by
    unfold Dat.leavesExact; rw [live_0 t], after_0]
  rw [show (dat V c).leavesExact 1 t = owns (c : Thread nD τ) (mK t) fullShare ((dat V c).after 1 t) from by
    unfold Dat.leavesExact; rw [live_1 t], after_1]
  rw [show (dat V c).leavesExact 2 t = owns (c : Thread nD τ) (mV t) fullShare ((dat V c).after 2 t) from by
    unfold Dat.leavesExact; rw [live_2 t], after_2]
  by_cases h0 : t.val % 8 = 0
  · have h1 : ¬t.val % 8 = 7 := by omega
    rw [Dat.leavesExact_idle (dat V c) 3 t (idle_3 t (fun h => h1 ((isLast_iff t).mp h))) (noFlush_3 t (fun h => h1 ((isLast_iff t).mp h)))]
    rw [stAt_first V c t h0 h1]
    unfold firstSt; (try dsimp only)
    by_cases hz : t.val = 0
    · rw [inv_castSucc V c t, inv_zero V c _ _ hz, entryInv_eq]
      iintro ⟨⟨⟨H1, H2, H3, H4, H5, HM, HL, HA⟩, Hg⟩, Ho, ⟨%d0, HQ⟩, ⟨%d1, HK⟩, ⟨%d2, HV⟩, ⟨%d3, HO⟩⟩
      iapply ((firstAt c t h0 h1 (blk V c 0 t) (blk V c 1 t) (blk V c 2 t)).2.2.2 _ Set.univ _)
      isplitl [HQ]; · iexact HQ
      isplitl [HK]; · iexact HK
      isplitl [HV]; · iexact HV
      isplitl [HO]; · iexact HO
      isplitl [HM]; · iexact HM
      isplitl [HL]; · iexact HL
      isplitl [HA]; · iexact HA
      iintro ⟨HQ, HK, HV, HO, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (firstM_cover c t _ _ _ h0 h1)
          isplitl [HL]
          · unfold owns; iexists _; isplitr
            swap; · iexact HL
            ipureintro; exact View.read_writes_of_cover _ _ _ _ _ (firstL_cover c t _ _ _ h0 h1)
          unfold owns; iexists _; isplitr
          swap; · iexact HA
          ipureintro; exact View.read_writes_of_cover _ _ _ _ _ (firstA_cover c t _ _ _ h0 h1)
        iexact Hg
      isplitl [Ho]; · iexact Ho
      isplitl [HQ]; · iexact HQ
      isplitl [HK]; · iexact HK
      isplitl [HV]; · iexact HV
      iexists _; iexact HO
    · rw [inv_castSucc V c t, inv_pos V c _ _ hz]
      iintro ⟨⟨⟨H1, H2, H3, H4, H5, HM, HL, HA⟩, Hg⟩, Ho, ⟨%d0, HQ⟩, ⟨%d1, HK⟩, ⟨%d2, HV⟩, ⟨%d3, HO⟩⟩
      iapply ((firstAt c t h0 h1 (blk V c 0 t) (blk V c 1 t) (blk V c 2 t)).2.2.2 _ Set.univ _)
      isplitl [HQ]; · iexact HQ
      isplitl [HK]; · iexact HK
      isplitl [HV]; · iexact HV
      isplitl [HO]; · iexact HO
      isplitl [HM]; · iexists _; iexact HM
      isplitl [HL]; · iexists _; iexact HL
      isplitl [HA]; · iexists _; iexact HA
      iintro ⟨HQ, HK, HV, HO, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (firstM_cover c t _ _ _ h0 h1)
          isplitl [HL]
          · unfold owns; iexists _; isplitr
            swap; · iexact HL
            ipureintro; exact View.read_writes_of_cover _ _ _ _ _ (firstL_cover c t _ _ _ h0 h1)
          unfold owns; iexists _; isplitr
          swap; · iexact HA
          ipureintro; exact View.read_writes_of_cover _ _ _ _ _ (firstA_cover c t _ _ _ h0 h1)
        iexact Hg
      isplitl [Ho]; · iexact Ho
      isplitl [HQ]; · iexact HQ
      isplitl [HK]; · iexact HK
      isplitl [HV]; · iexact HV
      iexists _; iexact HO
  · have hz : t.val ≠ 0 := fun e => h0 (by rw [e])
    by_cases h1 : t.val % 8 = 7
    · rw [show (dat V c).leavesExact 3 t = owns (c : Thread nD τ) (mO t) fullShare ((dat V c).after 3 t) from by
        unfold Dat.leavesExact; rw [live_3 t ((isLast_iff t).mpr h1)], after_3]
      rw [stAt_last V c t h0 h1]
      unfold lastSt; (try dsimp only)
      rw [inv_castSucc V c t, inv_pos V c _ _ hz]
      iintro ⟨⟨⟨H1, H2, H3, H4, H5, HM, HL, HA⟩, Hg⟩, Ho, ⟨%d0, HQ⟩, ⟨%d1, HK⟩, ⟨%d2, HV⟩, ⟨%d3, HO⟩⟩
      iapply ((lastAt c t h0 h1 (blk V c 0 t) (blk V c 1 t) (blk V c 2 t) _ _ _).2.2.2.2 Set.univ _)
      isplitl [HQ]; · iexact HQ
      isplitl [HK]; · iexact HK
      isplitl [HV]; · iexact HV
      isplitl [HO]; · iexists _; iexact HO
      isplitl [HM]; · iexact HM
      isplitl [HL]; · iexact HL
      isplitl [HA]; · iexact HA
      iintro ⟨HQ, HK, HV, ⟨%eo, HO⟩, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (lastM_cover c t _ _ _ _ _ _ h0 h1)
          isplitl [HL]
          · unfold owns; iexists _; isplitr
            swap; · iexact HL
            ipureintro; exact View.read_writes_of_cover _ _ _ _ _ (lastL_cover c t _ _ _ _ _ _ h0 h1)
          unfold owns; iexists _; isplitr
          swap; · iexact HA
          ipureintro; exact View.read_writes_of_cover _ _ _ _ _ (lastA_cover c t _ _ _ _ _ _ h0 h1)
        iexact Hg
      isplitl [Ho]; · iexact Ho
      isplitl [HQ]; · iexact HQ
      isplitl [HK]; · iexact HK
      isplitl [HV]; · iexact HV
      unfold owns; iexists _; isplitr
      swap; · iexact HO
      ipureintro; exact View.read_writes_of_cover _ _ _ _ _ (lastO_cover c t _ _ _ _ _ _ h0 h1)
    · rw [Dat.leavesExact_idle (dat V c) 3 t (idle_3 t (fun h => h1 ((isLast_iff t).mp h))) (noFlush_3 t (fun h => h1 ((isLast_iff t).mp h)))]
      rw [stAt_mid V c t h0 h1]
      unfold midSt; (try dsimp only)
      rw [inv_castSucc V c t, inv_pos V c _ _ hz]
      iintro ⟨⟨⟨H1, H2, H3, H4, H5, HM, HL, HA⟩, Hg⟩, Ho, ⟨%d0, HQ⟩, ⟨%d1, HK⟩, ⟨%d2, HV⟩, ⟨%d3, HO⟩⟩
      iapply ((midAt c t h0 h1 (blk V c 0 t) (blk V c 1 t) (blk V c 2 t) _ _ _).2.2.2 _ Set.univ _)
      isplitl [HQ]; · iexact HQ
      isplitl [HK]; · iexact HK
      isplitl [HV]; · iexact HV
      isplitl [HO]; · iexact HO
      isplitl [HM]; · iexact HM
      isplitl [HL]; · iexact HL
      isplitl [HA]; · iexact HA
      iintro ⟨HQ, HK, HV, HO, ⟨%em, HM⟩, ⟨%el, HL⟩, ⟨%ea, HA⟩⟩
      isplitl [H1 H2 H3 H4 H5 HM HL HA Hg]
      · isplitl [H1 H2 H3 H4 H5 HM HL HA]
        ·
          isplitl [H1]; · iexact H1
          isplitl [H2]; · iexact H2
          isplitl [H3]; · iexact H3
          isplitl [H4]; · iexact H4
          isplitl [H5]; · iexact H5
          isplitl [HM]
          · unfold owns; iexists _; isplitr
            swap; · iexact HM
            ipureintro; exact View.read_writes_of_cover _ _ _ _ _ (midM_cover c t _ _ _ _ _ _ h0 h1)
          isplitl [HL]
          · unfold owns; iexists _; isplitr
            swap; · iexact HL
            ipureintro; exact View.read_writes_of_cover _ _ _ _ _ (midL_cover c t _ _ _ _ _ _ h0 h1)
          unfold owns; iexists _; isplitr
          swap; · iexact HA
          ipureintro; exact View.read_writes_of_cover _ _ _ _ _ (midA_cover c t _ _ _ _ _ _ h0 h1)
        iexact Hg
      isplitl [Ho]; · iexact Ho
      isplitl [HQ]; · iexact HQ
      isplitl [HK]; · iexact HK
      isplitl [HV]; · iexact HV
      iexists _; iexact HO

/-- The pipeline library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After any point the invariant gives that back: what the carried buffers hold is forgotten. -/
theorem inv_out_of (c : Dev nD) (t : Fin (cfg1.N + 1)) (ht : t.val ≠ 0) : (dat V c).Φ t ⊢ Pipeline.ΦA spec1 c := by
  rw [show (dat V c).Φ t = inv V c t.val (Nat.le_of_lt_succ t.isLt) from rfl, inv_pos V c _ _ ht, entryInv_eq]
  iintro ⟨⟨H1, H2, H3, H4, H5, HM, HL, HA⟩, Hg⟩
  isplitl [H1 H2 H3 H4 H5 HM HL HA]
  ·
    isplitl [H1]; · iexact H1
    isplitl [H2]; · iexact H2
    isplitl [H3]; · iexact H3
    isplitl [H4]; · iexact H4
    isplitl [H5]; · iexact H5
    isplitl [HM]; · iexists _; iexact HM
    isplitl [HL]; · iexists _; iexact HL
    iexists _; iexact HA
  iexact Hg

theorem inv_out (c : Dev nD) : (dat V c).Φ (Fin.last cfg1.N) ⊢ Pipeline.ΦA spec1 c :=
  inv_out_of V c _ (by rw [Fin.val_last]; have : cfg1.N = 64 := N_1; omega)

end Cert.Kernel.Flash

end
-- ==== Proof.Kernel.Frames.lean ====
/-
  The whole program as a run. @main is: host operations (flatten the input, concatenate and narrow the weights), the
  projection region, host operations (cut the projection into queries, keys and values), the attention region, host
  operations (reshape, scale by gamma, add the input). Between items every unscoped buffer is held whole at a named
  valuation: a host stretch advances it by its operations; a region changes only its output array, to what its
  pipeline's write-backs leave. The run's post names every unscoped buffer's final contents; the frame — the arguments
  end unchanged — is read off it, since no item writes an argument.
-/
import proofs.«130749_j38989713113556_2_alg».proof.Proof.Kernel.ProjData
import proofs.«130749_j38989713113556_2_alg».proof.Proof.Kernel.FlashBody
import proofs.«130749_j38989713113556_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers as the projection region finds them. -/
abbrev In0 : (c : Dev nD) → (b : Ref sig .tc) → Buf (Elt F) ((c : Thread nD τ).loc b) := fun c b => Gen.V1 m c b
/-- After the projection region: its arrays at what the pipeline leaves, the rest as entered. -/
def after0 (c : Dev nD) : Valuation τ sig (Elt F) :=
  Pipeline.withArrays spec0 c (Gen.V1 m c) fun w => (Proj.dat (In0 m) c).arrAt w cfg0.N
/-- The regions' results with only the first chosen (what the second region's entry depends on). -/
def outs0 : Gen.Outs (F := F) := fun _ r c => after0 m c r
/-- The buffers as the attention region finds them. -/
abbrev In1 : (c : Dev nD) → (b : Ref sig .tc) → Buf (Elt F) ((c : Thread nD τ).loc b) := fun c b => Gen.V3 m (outs0 m) c b
/-- After the attention region. -/
def after1 (c : Dev nD) : Valuation τ sig (Elt F) :=
  Pipeline.withArrays spec1 c (Gen.V3 m (outs0 m) c) fun w => (Flash.dat (In1 m) c).arrAt w cfg1.N
/-- Both regions' results. -/
def outs : Gen.Outs (F := F) := fun J r c => if J = 4 then after1 m c r else after0 m c r

theorem outs_2 (c : Dev nD) : outs m 2 main_v3 c = after0 m c main_v3 := rfl
theorem outs_4 (c : Dev nD) : outs m 4 main_v10 c = after1 m c main_v10 := rfl
/-- The attention region's entry contents do not depend on the second choice. -/
theorem V3_outs (c : Dev nD) : Gen.V3 m (outs m) c = Gen.V3 m (outs0 m) c := rfl

/-- Each pipeline's proof data at its region's entry contents. -/
def pdats : (p : Fin 2) → (c : Dev nD) → Dat τ (Elt F) Unit ℕ (UR sig nD τ) ℕ (cfgs p) c
  | ⟨0, _⟩ => fun c => Proj.dat (In0 m) c
  | ⟨1, _⟩ => fun c => Flash.dat (In1 m) c

abbrev Lz : GSem nD τ sig → Finset Unit := fun _ => ∅
abbrev lvz : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-- At the projection region's exit each of its arrays holds what the pipeline leaves, -/
theorem left0 (c : Dev nD) (w : Fin cfg0.W) :
    (pdats m 0 c).arrAt w cfg0.N = (fun b : Ref sig .tc => Gen.V2 m (outs m) c b) (Pipeline.arrRef spec0 w) := by
  match w with
  | ⟨0, _⟩ => exact (((Proj.dat (In0 m) c).arrAt_in 0 rfl _).trans (Proj.dat_A (In0 m) c 0)).trans (Gen.V2_of m (outs m) c main_v0 (by decide)).symm
  | ⟨1, _⟩ => exact (((Proj.dat (In0 m) c).arrAt_in 1 rfl _).trans (Proj.dat_A (In0 m) c 1)).trans (Gen.V2_of m (outs m) c main_v2 (by decide)).symm
  | ⟨2, _⟩ =>
    show _ = Function.update (Gen.V1 m c) (Proc.devRef .tc main_v3) (outs m 2 main_v3 c) (Proc.devRef .tc main_v3)
    rw [Function.update_self, outs_2]
    unfold after0
    exact (Pipeline.withArrays_arr spec0 launch0.win.arr_inj c (Gen.V1 m c) (fun w => (Proj.dat (In0 m) c).arrAt w cfg0.N) 2).symm
/-- and every other buffer what it held at entry. -/
theorem kept0 (c : Dev nD) : ∀ b, b ∉ Finset.univ.image (Pipeline.arrRef spec0) →
    (fun b : Ref sig .tc => Gen.V2 m (outs m) c b) b = In0 m c b :=
  fun b hb => Gen.V2_of m (outs m) c b fun hmem =>
    hb (Finset.mem_image.mpr ⟨2, Finset.mem_univ _, (List.mem_singleton.mp hmem).symm⟩)

theorem left1 (c : Dev nD) (w : Fin cfg1.W) :
    (pdats m 1 c).arrAt w cfg1.N = (fun b : Ref sig .tc => Gen.V4 m (outs m) c b) (Pipeline.arrRef spec1 w) := by
  match w with
  | ⟨0, _⟩ => exact (((Flash.dat (In1 m) c).arrAt_in 0 rfl _).trans (Flash.dat_A (In1 m) c 0)).trans (Gen.V4_of m (outs m) c main_v5 (by decide)).symm
  | ⟨1, _⟩ => exact (((Flash.dat (In1 m) c).arrAt_in 1 rfl _).trans (Flash.dat_A (In1 m) c 1)).trans (Gen.V4_of m (outs m) c main_v7 (by decide)).symm
  | ⟨2, _⟩ => exact (((Flash.dat (In1 m) c).arrAt_in 2 rfl _).trans (Flash.dat_A (In1 m) c 2)).trans (Gen.V4_of m (outs m) c main_v9 (by decide)).symm
  | ⟨3, _⟩ =>
    show _ = Function.update (Gen.V3 m (outs m) c) (Proc.devRef .tc main_v10) (outs m 4 main_v10 c) (Proc.devRef .tc main_v10)
    rw [Function.update_self, outs_4]
    unfold after1
    exact (Pipeline.withArrays_arr spec1 launch1.win.arr_inj c (Gen.V3 m (outs0 m) c) (fun w => (Flash.dat (In1 m) c).arrAt w cfg1.N) 3).symm
theorem kept1 (c : Dev nD) : ∀ b, b ∉ Finset.univ.image (Pipeline.arrRef spec1) →
    (fun b : Ref sig .tc => Gen.V4 m (outs m) c b) b = In1 m c b :=
  fun b hb => Gen.V4_of m (outs m) c b fun hmem =>
    hb (Finset.mem_image.mpr ⟨3, Finset.mem_univ _, (List.mem_singleton.mp hmem).symm⟩)

/-- The invariant of each region at its two ends is what the launch hands over and takes back. -/
theorem in0 (c : Dev nD) : Pipeline.ΦA spec0 c ⊢ ((pdats m 0 c).Φ 0 : sProp 𝕄) := .rfl
theorem out0 (c : Dev nD) : ((pdats m 0 c).Φ (Fin.last cfg0.N) : sProp 𝕄) ⊢ Pipeline.ΦA spec0 c := .rfl
theorem in1 (c : Dev nD) : Pipeline.ΦA spec1 c ⊢ ((pdats m 1 c).Φ 0 : sProp 𝕄) := Flash.inv_in (In1 m) c
theorem out1 (c : Dev nD) : ((pdats m 1 c).Φ (Fin.last cfg1.N) : sProp 𝕄) ⊢ Pipeline.ΦA spec1 c := Flash.inv_out (In1 m) c

set_option backward.isDefEq.respectTransparency.types false in
/-- Region 0 as a segment: entered with every unscoped buffer at the contents before it, left with them at the contents
    after it; its windows' arrays are split out of the unscoped buffers at entry and put back, at what the pipeline
    leaves, at exit; the generator register goes into the region's invariant and comes back; nothing is owed. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (Proj.body_obligation (In0 m) c).loose
  hwaits := Pipeline.hwaits_of_owed_zero _ _ _ _ Lz lvz 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (in0 m c)
    unfold Pipeline.ΦA
    iintro ⟨Hp, -, Hr⟩
    isplitl [Hr]; · iexact Hr
    iexact Hp
  hout c := by
    rw [Pipeline.ownSems0_none]
    refine BIBase.Entails.trans (out0 m c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (fun b => Gen.V2 m (outs m) c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it; its windows' arrays are split out of the unscoped buffers at entry and put back, at what the pipeline
    leaves, at exit; the generator register goes into the region's invariant and comes back; nothing is owed. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (Flash.body_obligation (In1 m) c).loose
  hwaits := Pipeline.hwaits_of_owed_zero _ _ _ _ Lz lvz 1 fun _ _ => rfl
  pre c := iprop(StableHlo.held (c : Thread nD τ) (Pipeline.ucRefs τ sig) (Gen.V3 m (outs0 m) c) ∗ Rest c)
  post c := iprop(StableHlo.held (c : Thread nD τ) (Pipeline.ucRefs τ sig) (Gen.V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (in1 m c)
    unfold Pipeline.ΦA
    iintro ⟨Hp, -, Hr⟩
    isplitl [Hr]; · iexact Hr
    iexact Hp
  hout c := by
    rw [Pipeline.ownSems0_none]
    refine BIBase.Entails.trans (out1 m c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (fun b => Gen.V4 m (outs m) c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The rest state ends owing nothing. -/
theorem rest_owes (c : Dev nD) : Rest c ⊢ (iprop(∃ W, owes (c : Thread nD τ) (0 : CellTallies nD τ sig Unit) W) : sProp 𝕄) := by
  iintro ⟨-, H⟩; iexact H

set_option backward.isDefEq.respectTransparency.types false in
/-- THE RUN. From any memory with zero counters every weakly fair execution of @main terminates, nothing faulting, and
    every unscoped buffer of every core ends at the last valuation: the launch contents advanced through the three host
    stretches and the two regions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) adm (pdats m) () cellOf_inj emb₁ defs₀ Variants.none Lz lvz m ρ main
    (Gen.segs m (outs m) Variants.none Lz lvz (fun _ c => Rest c) () (pdats m) (reg0 m) (reg1 m))
    (fun c Q => by
      rewrite [main_chain c, Seg.run_eq_chain,
        show (Gen.segs m (outs m) Variants.none Lz lvz (fun _ c => Rest c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V5 m (outs m) c))
    (hch := fun c => ⟨.rfl, .rfl, .rfl, .rfl, .rfl, sep_mono .rfl (rest_owes c)⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨Hh, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the run, read at the five arguments; no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Gen.V5_main_arg0 m (outs m) c),
      (h c _ (mem_uc main_arg1 (by decide))).trans (Gen.V5_main_arg1 m (outs m) c),
      (h c _ (mem_uc main_arg2 (by decide))).trans (Gen.V5_main_arg2 m (outs m) c),
      (h c _ (mem_uc main_arg3 (by decide))).trans (Gen.V5_main_arg3 m (outs m) c),
      (h c _ (mem_uc main_arg4 (by decide))).trans (Gen.V5_main_arg4 m (outs m) c)⟩) (run_all m ρ)

end Cert.Kernel.Hand

end
-- ==== Proof.RefProj.lean ====
/-
  The reference's first seven stages read at coordinates: the three projections of x, their reading with the two
  spatial coordinates flattened (position i = 64 h + w, so h = i / 64 and w = i % 64), and the score of a query
  position against a key position. Each stage is identified with the specification's function of the same name,
  for any coordinate functions x, W1, W2, W3 that the argument arrays agree with entry by entry.
-/
import proofs.«130749_j38989713113556_2_alg».proof.Proof.Gen.ReferenceIdeal.Read
import proofs.«130749_j38989713113556_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx

variable (a0 : FVec Ideal S4x64x64x512 .f32) (a1 a2 : FVec Ideal S512x64 .f32) (a3 : FVec Ideal S512x512 .f32)
variable (x : Fin 4 → Fin 64 → Fin 64 → Fin 512 → EReal) (W1 W2 : Fin 512 → Fin 64 → EReal) (W3 : Fin 512 → Fin 512 → EReal)

/-- A projection of x by a [512, 64] matrix at (b, h, w, k): the sum over the 512 channels. -/
theorem proj64_at (hx : ∀ b h w c, a0 (ix4 b h w c) = x b h w c) (h1 : ∀ c k, a1 (ix2 c k) = W1 c k)
    (b : Fin 4) (h w k : Fin 64) :
    Read.val_main_v0 (F := Ideal) a0 a1 (ix4 b h w k) = ∑ c : Fin 512, x b h w c * W1 c k := by
  rw [Read.val_main_v0_apply]
  refine Finset.sum_congr rfl fun c _ => ?_
  have el : Read.lidx_main_v0 (ix4 b h w k) c = ix4 b h w c := funext fun a => Fin.ext (by
    match a with
    | ⟨0, _⟩ => rfl
    | ⟨1, _⟩ => rfl
    | ⟨2, _⟩ => rfl
    | ⟨3, _⟩ => rfl)
  have er : Read.ridx_main_v0 (ix4 b h w k) c = ix2 c k := funext fun a => Fin.ext (by
    match a with
    | ⟨0, _⟩ => rfl
    | ⟨1, _⟩ => rfl)
  rw [el, er, hx, h1]

/-- The projection by the [512, 512] matrix at (b, h, w, d). -/
theorem proj512_at (hx : ∀ b h w c, a0 (ix4 b h w c) = x b h w c) (h3 : ∀ c d, a3 (ix2 c d) = W3 c d)
    (b : Fin 4) (h w : Fin 64) (d : Fin 512) :
    Read.val_main_v4 (F := Ideal) a0 a3 (ix4 b h w d) = ∑ c : Fin 512, x b h w c * W3 c d := by
  rw [Read.val_main_v4_apply]
  refine Finset.sum_congr rfl fun c _ => ?_
  have el : Read.lidx_main_v4 (ix4 b h w d) c = ix4 b h w c := funext fun a => Fin.ext (by
    match a with
    | ⟨0, _⟩ => rfl
    | ⟨1, _⟩ => rfl
    | ⟨2, _⟩ => rfl
    | ⟨3, _⟩ => rfl)
  have er : Read.ridx_main_v4 (ix4 b h w d) c = ix2 c d := funext fun a => Fin.ext (by
    match a with
    | ⟨0, _⟩ => rfl
    | ⟨1, _⟩ => rfl)
  rw [el, er, hx, h3]

/-- Position i of the flattened [4, 4096, 64] array is spatial position (i / 64, i % 64) of the [4, 64, 64, 64] one. -/
theorem flat64 (b : Fin 4) (i : Fin 4096) (k : Fin 64) :
    Read.idx_main_v1 (ix3 b i k) = ix4 b (⟨i.val / 64, by omega⟩ : Fin 64) (⟨i.val % 64, Nat.mod_lt _ (by decide)⟩ : Fin 64) k := by
  have hb := b.isLt
  have hi := i.isLt
  have hk := k.isLt
  refine funext fun a => Fin.ext ?_
  match a with
  | ⟨0, _⟩ => show ((b.val * 4096 + i.val) * 64 + k.val) / 262144 = b.val; omega
  | ⟨1, _⟩ => show ((b.val * 4096 + i.val) * 64 + k.val) / 4096 % 64 = i.val / 64; omega
  | ⟨2, _⟩ => show ((b.val * 4096 + i.val) * 64 + k.val) / 64 % 64 = i.val % 64; omega
  | ⟨3, _⟩ => show ((b.val * 4096 + i.val) * 64 + k.val) % 64 = k.val; omega

/-- The same for the [4, 4096, 512] array of values. -/
theorem flat512 (b : Fin 4) (i : Fin 4096) (d : Fin 512) :
    Read.idx_main_v5 (ix3 b i d) = ix4 b (⟨i.val / 64, by omega⟩ : Fin 64) (⟨i.val % 64, Nat.mod_lt _ (by decide)⟩ : Fin 64) d := by
  have hb := b.isLt
  have hi := i.isLt
  have hd := d.isLt
  refine funext fun a => Fin.ext ?_
  match a with
  | ⟨0, _⟩ => show ((b.val * 4096 + i.val) * 512 + d.val) / 2097152 = b.val; omega
  | ⟨1, _⟩ => show ((b.val * 4096 + i.val) * 512 + d.val) / 32768 % 64 = i.val / 64; omega
  | ⟨2, _⟩ => show ((b.val * 4096 + i.val) * 512 + d.val) / 512 % 64 = i.val % 64; omega
  | ⟨3, _⟩ => show ((b.val * 4096 + i.val) * 512 + d.val) % 512 = d.val; omega

/-- The queries. -/
theorem q_at (hx : ∀ b h w c, a0 (ix4 b h w c) = x b h w c) (h1 : ∀ c k, a1 (ix2 c k) = W1 c k)
    (b : Fin 4) (i : Fin 4096) (k : Fin 64) :
    Read.val_main_v1 (F := Ideal) a0 a1 (ix3 b i k) = Spec.q x W1 b i k := by
  rw [Read.val_main_v1_apply, flat64, proj64_at a0 a1 x W1 hx h1]
  rfl

/-- The keys: the same projection with the second matrix. -/
theorem ky_at (hx : ∀ b h w c, a0 (ix4 b h w c) = x b h w c) (h2 : ∀ c k, a2 (ix2 c k) = W2 c k)
    (b : Fin 4) (j : Fin 4096) (k : Fin 64) :
    Read.val_main_v3 (F := Ideal) a0 a2 (ix3 b j k) = Spec.ky x W2 b j k :=
  q_at a0 a2 x W2 hx h2 b j k

/-- The values. -/
theorem vl_at (hx : ∀ b h w c, a0 (ix4 b h w c) = x b h w c) (h3 : ∀ c d, a3 (ix2 c d) = W3 c d)
    (b : Fin 4) (j : Fin 4096) (d : Fin 512) :
    Read.val_main_v5 (F := Ideal) a0 a3 (ix3 b j d) = Spec.vl x W3 b j d := by
  rw [Read.val_main_v5_apply, flat512, proj512_at a0 a3 x W3 hx h3]
  rfl

/-- The scores: the inner product of a query and a key over the 64 reduced channels. -/
theorem sc_at (hx : ∀ b h w c, a0 (ix4 b h w c) = x b h w c) (h1 : ∀ c k, a1 (ix2 c k) = W1 c k)
    (h2 : ∀ c k, a2 (ix2 c k) = W2 c k) (b : Fin 4) (i j : Fin 4096) :
    Read.val_main_v6 (F := Ideal) a0 a1 a2 (ix3 b i j) = Spec.sc x W1 W2 b i j := by
  rw [Read.val_main_v6_apply]
  unfold Spec.sc
  refine Finset.sum_congr rfl fun k _ => ?_
  have el : Read.lidx_main_v6 (ix3 b i j) k = ix3 b i k := funext fun a => Fin.ext (by
    match a with
    | ⟨0, _⟩ => rfl
    | ⟨1, _⟩ => rfl
    | ⟨2, _⟩ => rfl)
  have er : Read.ridx_main_v6 (ix3 b i j) k = ix3 b j k := funext fun a => Fin.ext (by
    match a with
    | ⟨0, _⟩ => rfl
    | ⟨1, _⟩ => rfl
    | ⟨2, _⟩ => rfl)
  rw [el, er, q_at a0 a1 x W1 hx h1, ky_at a0 a2 x W2 hx h2]

end Cert.ReferenceIdeal.RefValue

end
-- ==== Proof.RefSoftmax.lean ====
/-
  The reference's softmax stages read at coordinates. The row maximum is a fold of max from the initial value −∞ over
  the 4096 key positions of a row, taken once more against a broadcast −∞; the exponentials of score minus row maximum
  are summed over the row from the initial value 0; the softmax weight is the quotient of the two. Each stage is the
  specification's function of the same name.
-/
import proofs.«130749_j38989713113556_2_alg».proof.Proof.RefProj
import Idealize.ShloMosaic.PureOps.Ideal.Laws

noncomputable section

namespace Cert.ReferenceIdeal.RefValue

open Cert.ReferenceIdeal Cert.ReferenceIdeal.Gen Idealize.ShloMosaic Idealize.ShloMosaic.ValueIdx

variable (a0 : FVec Ideal S4x64x64x512 .f32) (a1 a2 : FVec Ideal S512x64 .f32)
variable (x : Fin 4 → Fin 64 → Fin 64 → Fin 512 → EReal) (W1 W2 : Fin 512 → Fin 64 → EReal)

/-- The word of −∞ denotes the bottom element of the extended reals. -/
theorem negInf : Ideal.ofBits .f32 0xFF800000#32 = (⊥ : EReal) := by simp [Ideal.ofBits, Ideal.ieee]

/-- Dropping the last axis of [4, 4096, 4096] leaves [4, 4096]. -/
theorem dropKeys : S4x4096x4096.Reduces [2] S4x4096 := by decide

/-- Row (b, i) with key position j put back on the dropped axis is the index (b, i, j). -/
theorem lift_row (b : Fin 4) (i : Fin 4096) (j : Fin (S4x4096x4096.size 2)) :
    dropKeys.lift (ix2 b i) j = ix3 b i (⟨j.val, j.isLt⟩ : Fin 4096) := by
  funext c; apply Fin.ext
  fin_cases c <;> rfl

/-- The reduce stage: the fold of max from −∞ over the scores of a row. -/
theorem rowFold_at (hx : ∀ b h w c, a0 (ix4 b h w c) = x b h w c) (h1 : ∀ c k, a1 (ix2 c k) = W1 c k)
    (h2 : ∀ c k, a2 (ix2 c k) = W2 c k) (b : Fin 4) (i : Fin 4096) :
    Read.val_main_v7 (F := Ideal) a0 a1 a2 (ix2 b i)
      = (Finset.univ : Finset (Fin 4096)).fold max ⊥ fun j => Spec.sc x W1 W2 b i j := by
  unfold Read.val_main_v7
  have hy : ∀ b i j, Read.val_main_v6 (F := Ideal) a0 a1 a2 (ix3 b i j) = Spec.sc x W1 W2 b i j :=
    sc_at a0 a1 a2 x W1 W2 hx h1 h2
  generalize Read.val_main_v6 (F := Ideal) a0 a1 a2 = y at hy
  refine (Host.reduce_eq_fold_single (FloatOps.maximumf (F := Ideal) (φ := .f32)) y (Read.val_main_cst (F := Ideal))
    reducesTo_S4x4096x4096_S4x4096_d2 dropKeys h_S_ (ix2 b i)).trans ?_
  have hb : Read.val_main_cst (F := Ideal) (Shape.Idx.first h_S_) = (⊥ : EReal) := negInf
  have hf : (y ∘ dropKeys.lift (ix2 b i)) = fun j : Fin 4096 => Spec.sc x W1 W2 b i j :=
    funext fun j => (congrArg y (lift_row b i j)).trans (hy b i _)
  rw [hb]
  exact congrArg (fun f => Finset.fold max (⊥ : EReal) f (Finset.univ : Finset (Fin 4096))) hf

/-- The row maximum as the reference takes it. -/
theorem rowMax_at (hx : ∀ b h w c, a0 (ix4 b h w c) = x b h w c) (h1 : ∀ c k, a1 (ix2 c k) = W1 c k)
    (h2 : ∀ c k, a2 (ix2 c k) = W2 c k) (b : Fin 4) (i : Fin 4096) :
    Read.val_main_v9 (F := Ideal) a0 a1 a2 (ix2 b i) = Spec.rowMax x W1 W2 b i := by
  rw [Read.val_main_v9_apply, Read.val_main_v8_apply, Read.val_main_cst_0_apply,
    rowFold_at a0 a1 a2 x W1 W2 hx h1 h2, Ideal.ofBits_def, negInf]
  rfl

/-- The row maximum broadcast along the key positions. -/
theorem rowMaxB_at (hx : ∀ b h w c, a0 (ix4 b h w c) = x b h w c) (h1 : ∀ c k, a1 (ix2 c k) = W1 c k)
    (h2 : ∀ c k, a2 (ix2 c k) = W2 c k) (b : Fin 4) (i j : Fin 4096) :
    Read.val_main_v11 (F := Ideal) a0 a1 a2 (ix3 b i j) = Spec.rowMax x W1 W2 b i := by
  rw [Read.val_main_v11_apply, Read.val_main_v10_apply]
  have e : Read.idx_main_v10 (Read.idx_main_v11 (ix3 b i j)) = ix2 b i := funext fun a => Fin.ext (by
    match a with
    | ⟨0, _⟩ => rfl
    | ⟨1, _⟩ => rfl)
  rw [e, rowMax_at a0 a1 a2 x W1 W2 hx h1 h2]

/-- The exponential of score minus row maximum. -/
theorem ex_at (hx : ∀ b h w c, a0 (ix4 b h w c) = x b h w c) (h1 : ∀ c k, a1 (ix2 c k) = W1 c k)
    (h2 : ∀ c k, a2 (ix2 c k) = W2 c k) (b : Fin 4) (i j : Fin 4096) :
    Read.val_main_v13 (F := Ideal) a0 a1 a2 (ix3 b i j) = Spec.ex x W1 W2 b i j := by
  rw [Read.val_main_v13_apply, Read.val_main_v12_apply, sc_at a0 a1 a2 x W1 W2 hx h1 h2,
    rowMaxB_at a0 a1 a2 x W1 W2 hx h1 h2]
  rfl

/-- The row sum of the exponentials, from the initial value 0. -/
theorem rowSum_at (hx : ∀ b h w c, a0 (ix4 b h w c) = x b h w c) (h1 : ∀ c k, a1 (ix2 c k) = W1 c k)
    (h2 : ∀ c k, a2 (ix2 c k) = W2 c k) (b : Fin 4) (i : Fin 4096) :
    Read.val_main_v14 (F := Ideal) a0 a1 a2 (ix2 b i) = Spec.rowSum x W1 W2 b i := by
  rw [Read.val_main_v14_apply, Read.val_main_cst_1_apply, Ideal.ofBits_def, Ideal.ofBits_zero_f32, zero_add]
  unfold Spec.rowSum
  refine Finset.sum_congr rfl fun j _ => ?_
  have e : Read.idx_main_v14 (ix2 b i) j = ix3 b i j := funext fun a => Fin.ext (by
    match a with
    | ⟨0, _⟩ => rfl
    | ⟨1, _⟩ => rfl
    | ⟨2, _⟩ => rfl)
  rw [e, ex_at a0 a1 a2 x W1 W2 hx h1 h2]

/-- The softmax weight: the exponential over the row sum. -/
theorem sm_at (hx : ∀ b h w c, a0 (ix4 b h w c) = x b h w c) (h1 : ∀ c k, a1 (ix2 c k) = W1 c k)
    (h2 : ∀ c k, a2 (ix2 c k) = W2 c k) (b : Fin 4) (i j : Fin 4096) :
    Read.val_main_v17 (F := Ideal) a0 a1 a2 (ix3 b i j) = Spec.sm x W1 W2 b i j := by
  rw [Read.val_main_v17_apply, ex_at a0 a1 a2 x W1 W2 hx h1 h2, Read.val_main_v16_apply, Read.val_main_v15_apply]
  have e : Read.idx_main_v15 (Read.idx_main_v16 (ix3 b i j)) = ix2 b i := funext fun a => Fin.ext (by
    match a with
    | ⟨0, _⟩ => rfl
    | ⟨1, _⟩ => rfl)
  rw [e, rowSum_at a0 a1 a2 x W1 W2 hx h1 h2]
  rfl

end Cert.ReferenceIdeal.RefValue

end
-- ==== Proof.RefSpec.lean ====
/-
  The reference is the specification. The contraction of the values with the softmax weights over the key position
  is the specification's attention output; the reshape of the [4, 512, 4096] result to [4, 64, 64, 512] reads entry
  (h, w, c) at flat offset f = (64 h + w) 512 + c of a batch's block, that is channel f / 4096 at position f % 4096;
  the scale gamma is broadcast from its one entry; the last two stages multiply and add x. So the reference's result at
  (b, h, w, c) is the specification's shared tail applied to the reference's arrangement, and the reference's run ends
  with its result array at that function of the argument arrays.
-/
import proofs.«130749_j38989713113556_2_alg».proof.Proof.RefSoftmax
import Idealize.ShloMosaic.Lib.Pipeline.Value

noncomputable section

namespace Cert.ReferenceIdeal.RefValue

open Cert.ReferenceIdeal Cert.ReferenceIdeal.Gen Idealize.ShloMosaic Idealize.ShloMosaic.ValueIdx

open Idealize.ShloMosaic.TcCoe Idealize.SL.Sem Idealize.ShloMosaic.StableHlo

section Stages

variable (a0 : FVec Ideal S4x64x64x512 .f32) (a1 a2 : FVec Ideal S512x64 .f32) (a3 : FVec Ideal S512x512 .f32)
  (a4 : FVec Ideal S1 .f32)
variable (x : Fin 4 → Fin 64 → Fin 64 → Fin 512 → EReal) (W1 W2 : Fin 512 → Fin 64 → EReal) (W3 : Fin 512 → Fin 512 → EReal)

/-- The attention output, channel d at position i: the values contracted with the softmax weights over the key position. -/
theorem oRef_at (hx : ∀ b h w c, a0 (ix4 b h w c) = x b h w c) (h1 : ∀ c k, a1 (ix2 c k) = W1 c k)
    (h2 : ∀ c k, a2 (ix2 c k) = W2 c k) (h3 : ∀ c d, a3 (ix2 c d) = W3 c d) (b : Fin 4) (d : Fin 512) (i : Fin 4096) :
    Read.val_main_v18 (F := Ideal) a0 a1 a2 a3 (ix3 b d i) = Spec.oRef x W1 W2 W3 b d i := by
  rw [Read.val_main_v18_apply]
  unfold Spec.oRef
  refine Finset.sum_congr rfl fun j _ => ?_
  have el : Read.lidx_main_v18 (ix3 b d i) j = ix3 b j d := funext fun a => Fin.ext (by
    match a with
    | ⟨0, _⟩ => rfl
    | ⟨1, _⟩ => rfl
    | ⟨2, _⟩ => rfl)
  have er : Read.ridx_main_v18 (ix3 b d i) j = ix3 b i j := funext fun a => Fin.ext (by
    match a with
    | ⟨0, _⟩ => rfl
    | ⟨1, _⟩ => rfl
    | ⟨2, _⟩ => rfl)
  rw [el, er, vl_at a0 a3 x W3 hx h3, sm_at a0 a1 a2 x W1 W2 hx h1 h2]

/-- Entry (b, h, w, c) of the [4, 64, 64, 512] array is entry (b, f / 4096, f % 4096) of the [4, 512, 4096] one, where
    f = (64 h + w) 512 + c is its offset inside the batch's block. -/
theorem unflat (b : Fin 4) (h w : Fin 64) (c : Fin 512) :
    Read.idx_main_v19 (ix4 b h w c)
      = ix3 b (⟨((h.val * 64 + w.val) * 512 + c.val) / 4096, by omega⟩ : Fin 512)
          (⟨((h.val * 64 + w.val) * 512 + c.val) % 4096, Nat.mod_lt _ (by decide)⟩ : Fin 4096) := by
  have hb := b.isLt
  have hh := h.isLt
  have hw := w.isLt
  have hc := c.isLt
  refine funext fun a => Fin.ext ?_
  match a with
  | ⟨0, _⟩ => show (((b.val * 64 + h.val) * 64 + w.val) * 512 + c.val) / 2097152 = b.val; omega
  | ⟨1, _⟩ =>
    show (((b.val * 64 + h.val) * 64 + w.val) * 512 + c.val) / 4096 % 512 = ((h.val * 64 + w.val) * 512 + c.val) / 4096
    omega
  | ⟨2, _⟩ =>
    show (((b.val * 64 + h.val) * 64 + w.val) * 512 + c.val) % 4096 = ((h.val * 64 + w.val) * 512 + c.val) % 4096
    omega

/-- The scale, broadcast to every entry. -/
theorem gamma_at (b : Fin 4) (h w : Fin 64) (c : Fin 512) :
    Read.val_main_v21 (F := Ideal) a4 (ix4 b h w c) = a4 (ix1 0) := by
  rw [Read.val_main_v21_apply, Read.val_main_v20_apply]
  exact congrArg a4 (funext fun a => Fin.ext (by
    match a with
    | ⟨0, _⟩ => rfl))

/-- THE REFERENCE'S RESULT at (b, h, w, c): gamma times the attention output read in storage order, plus x. -/
theorem result_at (hx : ∀ b h w c, a0 (ix4 b h w c) = x b h w c) (h1 : ∀ c k, a1 (ix2 c k) = W1 c k)
    (h2 : ∀ c k, a2 (ix2 c k) = W2 c k) (h3 : ∀ c d, a3 (ix2 c d) = W3 c d) (b : Fin 4) (h w : Fin 64) (c : Fin 512) :
    Read.val_main_v23 (F := Ideal) a0 a1 a2 a3 a4 (ix4 b h w c)
      = Spec.outOf x (a4 (ix1 0)) (Spec.oRef x W1 W2 W3) b h w c := by
  rw [Read.val_main_v23_apply, Read.val_main_v22_apply, gamma_at, Read.val_main_v19_apply, unflat,
    oRef_at a0 a1 a2 a3 x W1 W2 W3 hx h1 h2 h3, hx]
  rfl

end Stages

/-- The reference's result as ONE function of the argument arrays: the shared tail over the reference's arrangement,
    the arrays read by coordinates. -/
def refOut (a0 : FVec Ideal S4x64x64x512 .f32) (a1 a2 : FVec Ideal S512x64 .f32) (a3 : FVec Ideal S512x512 .f32)
    (a4 : FVec Ideal S1 .f32) : FVec Ideal S4x64x64x512 .f32 := fun i =>
  Spec.outOf (fun b h w c => a0 (ix4 b h w c)) (a4 (ix1 0))
    (Spec.oRef (fun b h w c => a0 (ix4 b h w c)) (fun a k => a1 (ix2 a k)) (fun a k => a2 (ix2 a k)) (fun a d => a3 (ix2 a d)))
    (i 0) (i 1) (i 2) (i 3)

theorem refOut_apply (a0 : FVec Ideal S4x64x64x512 .f32) (a1 a2 : FVec Ideal S512x64 .f32) (a3 : FVec Ideal S512x512 .f32)
    (a4 : FVec Ideal S1 .f32) (b : Fin 4) (h w : Fin 64) (c : Fin 512) :
    refOut a0 a1 a2 a3 a4 (ix4 b h w c)
      = Spec.outOf (fun b h w c => a0 (ix4 b h w c)) (a4 (ix1 0))
          (Spec.oRef (fun b h w c => a0 (ix4 b h w c)) (fun a k => a1 (ix2 a k)) (fun a k => a2 (ix2 a k)) (fun a d => a3 (ix2 a d)))
          b h w c := rfl

/-- The last stage of the reference, at coordinates, is the specification. -/
theorem stage_spec (a0 : FVec Ideal S4x64x64x512 .f32) (a1 a2 : FVec Ideal S512x64 .f32) (a3 : FVec Ideal S512x512 .f32)
    (a4 : FVec Ideal S1 .f32) (b : Fin 4) (h w : Fin 64) (c : Fin 512) :
    Read.val_main_v23 (F := Ideal) a0 a1 a2 a3 a4 (ix4 b h w c)
      = Spec.outOf (fun b h w c => a0 (ix4 b h w c)) (a4 (ix1 0))
          (Spec.oRef (fun b h w c => a0 (ix4 b h w c)) (fun a k => a1 (ix2 a k)) (fun a k => a2 (ix2 a k)) (fun a d => a3 (ix2 a d)))
          b h w c :=
  result_at a0 a1 a2 a3 a4 _ _ _ _ (fun _ _ _ _ => rfl) (fun _ _ => rfl) (fun _ _ => rfl) (fun _ _ => rfl) b h w c

/-- As arrays: the last stage is `refOut` of the arguments. -/
theorem stage_eq (a0 : FVec Ideal S4x64x64x512 .f32) (a1 a2 : FVec Ideal S512x64 .f32) (a3 : FVec Ideal S512x512 .f32)
    (a4 : FVec Ideal S1 .f32) :
    Read.val_main_v23 (F := Ideal) a0 a1 a2 a3 a4 = refOut a0 a1 a2 a3 a4 := by
  funext i
  obtain ⟨b, h, w, c, rfl⟩ : ∃ (b : Fin 4) (h w : Fin 64) (c : Fin 512), i = ix4 b h w c := ⟨i 0, i 1, i 2, i 3, eq_ix4 i⟩
  exact stage_spec a0 a1 a2 a3 a4 b h w c

/-- THE REFERENCE'S RUN: every weakly fair execution terminates with the result array at `refOut` of the argument
    arrays' launch contents, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((Read.val_main_v23_eq (F := Ideal) _ _ _ _ _).trans (stage_eq _ _ _ _ _)), (h c).2⟩)
    (Value.run (F := Ideal) m ρ)

end Cert.ReferenceIdeal.RefValue

end
-- ==== Proof.Finite.lean ====
/-
  Finiteness. Every input entry is a real number, so the projections, the scores and the value entries — finite sums of
  products of reals — are real numbers too. The two arrangements are then restated over an arbitrary row of scores and
  an arbitrary column of value entries, which is all that the rest of the argument needs of the inputs.
-/
import proofs.«130749_j38989713113556_2_alg».proof.Proof.Spec

noncomputable section

namespace Cert.Spec

open Idealize.ShloMosaic

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type*} [Fintype ι] (f g : ι → EReal) (hf : ∀ i, ∃ r : ℝ, f i = (r : EReal))
    (hg : ∀ i, ∃ r : ℝ, g i = (r : EReal)) : ∃ r : ℝ, ∑ i, f i * g i = (r : EReal) := by
  choose F hF using hf
  choose G hG using hg
  refine ⟨∑ i, F i * G i, ?_⟩
  rw [coe_finset_sum]
  exact Finset.sum_congr rfl fun i _ => by rw [hF, hG, EReal.coe_mul]

section Inputs

variable (x : Fin 4 → Fin 64 → Fin 64 → Fin 512 → EReal) (W1 W2 : Fin 512 → Fin 64 → EReal)
  (W3 : Fin 512 → Fin 512 → EReal)
  (hx : ∀ b h w c, ∃ r : ℝ, x b h w c = (r : EReal)) (h1 : ∀ a k, ∃ r : ℝ, W1 a k = (r : EReal))
  (h2 : ∀ a k, ∃ r : ℝ, W2 a k = (r : EReal)) (h3 : ∀ a d, ∃ r : ℝ, W3 a d = (r : EReal))

include hx in
theorem xr_real (b : Fin 4) (i : Fin 4096) (c : Fin 512) : ∃ r : ℝ, xr x b i c = (r : EReal) := hx _ _ _ _

include hx h1 in
theorem q_real (b : Fin 4) (i : Fin 4096) (k : Fin 64) : ∃ r : ℝ, q x W1 b i k = (r : EReal) :=
  sum_mul_real _ _ (fun c => xr_real x hx b i c) (fun c => h1 c k)

include hx h2 in
theorem ky_real (b : Fin 4) (j : Fin 4096) (k : Fin 64) : ∃ r : ℝ, ky x W2 b j k = (r : EReal) :=
  sum_mul_real _ _ (fun c => xr_real x hx b j c) (fun c => h2 c k)

include hx h3 in
theorem vl_real (b : Fin 4) (j : Fin 4096) (d : Fin 512) : ∃ r : ℝ, vl x W3 b j d = (r : EReal) :=
  sum_mul_real _ _ (fun c => xr_real x hx b j c) (fun c => h3 c d)

include hx h1 h2 in
theorem sc_real (b : Fin 4) (i j : Fin 4096) : ∃ r : ℝ, sc x W1 W2 b i j = (r : EReal) :=
  sum_mul_real _ _ (fun k => q_real x W1 hx h1 b i k) (fun k => ky_real x W2 hx h2 b j k)

end Inputs

/-! ## The two arrangements over an arbitrary row of scores s and column of value entries v -/

/-- The reference's arrangement: the softmax of the row s contracted with v. -/
def refOf (s v : Fin 4096 → EReal) : EReal :=
  ∑ j : Fin 4096, v j *
    Ideal.div (Ideal.exp (s j - max ⊥ ((Finset.univ : Finset (Fin 4096)).fold max ⊥ s)))
      (∑ j' : Fin 4096, Ideal.exp (s j' - max ⊥ ((Finset.univ : Finset (Fin 4096)).fold max ⊥ s)))

/-- One step of the kernel's recursion: the carried triple p meets a tile with scores s and value entries v. -/
def stepOf (p : EReal × EReal × EReal) (s v : Fin 512 → EReal) : EReal × EReal × EReal :=
  (max p.1 ((Finset.univ : Finset (Fin 512)).fold max ⊥ s),
    Ideal.exp (p.1 - max p.1 ((Finset.univ : Finset (Fin 512)).fold max ⊥ s)) * p.2.1
      + ∑ j : Fin 512, Ideal.exp (s j - max p.1 ((Finset.univ : Finset (Fin 512)).fold max ⊥ s)),
    Ideal.exp (p.1 - max p.1 ((Finset.univ : Finset (Fin 512)).fold max ⊥ s)) * p.2.2
      + ∑ j : Fin 512, Ideal.exp (s j - max p.1 ((Finset.univ : Finset (Fin 512)).fold max ⊥ s)) * v j)

/-- The kernel's carried triple after the first n tiles. -/
def carriedOf (s v : Fin 4096 → EReal) : ℕ → EReal × EReal × EReal
  | 0 => (⊥, 0, 0)
  | n + 1 =>
    if h : n < 8 then
      stepOf (carriedOf s v n) (fun j => s (tileKey ⟨n, h⟩ j)) (fun j => v (tileKey ⟨n, h⟩ j))
    else carriedOf s v n

variable (x : Fin 4 → Fin 64 → Fin 64 → Fin 512 → EReal) (W1 W2 : Fin 512 → Fin 64 → EReal)
  (W3 : Fin 512 → Fin 512 → EReal)

theorem oRef_eq_refOf (b : Fin 4) (d : Fin 512) (i : Fin 4096) :
    oRef x W1 W2 W3 b d i = refOf (sc x W1 W2 b i) (fun j => vl x W3 b j d) := rfl

theorem carried_eq_carriedOf (b : Fin 4) (i : Fin 4096) (d : Fin 512) (n : ℕ) :
    carried x W1 W2 W3 b i d n = carriedOf (sc x W1 W2 b i) (fun j => vl x W3 b j d) n := by
  induction n with
  | zero => rfl
  | succ n ih =>
    rw [carried, carriedOf]
    split
    · rw [ih]; rfl
    · exact ih

end Cert.Spec

end
-- ==== Proof.OnlineStep.lean ====
/-
  The invariant of the kernel's recursion. Over a row of real scores S and a column of real value entries V, after
  n ≥ 1 tiles the carried triple is (M, ∑ exp (S j − M), ∑ exp (S j − M) · V j) for some real M, the sums running over
  the key positions of the tiles visited so far. A step rescales the two carried sums by exp (M − M'), which turns
  every exp (S j − M) into exp (S j − M'); the first step starts from −∞, whose exponential is zero.
-/
import proofs.«130749_j38989713113556_2_alg».proof.Proof.Finite

noncomputable section

namespace Cert.Spec

open Idealize.ShloMosaic

/-- The coercion of the larger of two reals. -/
theorem coe_max (a b : ℝ) : ((max a b : ℝ) : EReal) = max (a : EReal) (b : EReal) :=
  EReal.coe_strictMono.monotone.map_max

/-- The fold of max from −∞ over real entries is −∞ or a real. -/
theorem fold_max_bot_or_real {ι : Type*} (s : Finset ι) (f : ι → ℝ) :
    s.fold max ⊥ (fun j => (f j : EReal)) = ⊥ ∨ ∃ r : ℝ, s.fold max ⊥ (fun j => (f j : EReal)) = (r : EReal) := by
  classical
  induction s using Finset.induction_on with
  | empty => left; simp
  | insert a s ha ih =>
    right
    rw [Finset.fold_insert ha]
    rcases ih with h | ⟨r, h⟩
    · exact ⟨f a, by rw [h]; exact max_bot_right _⟩
    · exact ⟨max (f a) r, by rw [h, coe_max]⟩

/-- Over a nonempty index type it is a real. -/
theorem fold_max_real {ι : Type*} [Fintype ι] [Nonempty ι] (f : ι → ℝ) :
    ∃ r : ℝ, (Finset.univ : Finset ι).fold max ⊥ (fun j => (f j : EReal)) = (r : EReal) := by
  rcases fold_max_bot_or_real Finset.univ f with h | h
  · exfalso
    have hle : ((f (Classical.arbitrary ι) : ℝ) : EReal)
        ≤ (Finset.univ : Finset ι).fold max ⊥ (fun j => (f j : EReal)) :=
      (Finset.le_fold_max _).mpr (Or.inr ⟨Classical.arbitrary ι, Finset.mem_univ _, le_rfl⟩)
    rw [h] at hle
    exact absurd hle (not_le.mpr (EReal.bot_lt_coe _))
  · exact h

/-- The exponential of a difference of reals. -/
theorem exp_coe_sub (a b : ℝ) : Ideal.exp ((a : EReal) - (b : EReal)) = ((Real.exp (a - b) : ℝ) : EReal) := by
  rw [← EReal.coe_sub]; rfl

/-- The first step: from (−∞, 0, 0). -/
theorem stepOf_bot (s v : Fin 512 → ℝ) :
    ∃ M : ℝ, stepOf (⊥, 0, 0) (fun j => (s j : EReal)) (fun j => (v j : EReal))
      = ((M : EReal), ((∑ j, Real.exp (s j - M) : ℝ) : EReal), ((∑ j, Real.exp (s j - M) * v j : ℝ) : EReal)) := by
  obtain ⟨T, hT⟩ := fold_max_real s
  refine ⟨T, ?_⟩
  have hm : max (⊥ : EReal) ((Finset.univ : Finset (Fin 512)).fold max ⊥ fun j => (s j : EReal)) = (T : EReal) := by
    rw [hT]; exact max_bot_left _
  unfold stepOf
  simp only [hm, EReal.bot_sub, Ideal.exp_bot, mul_zero, zero_add, exp_coe_sub, coe_finset_sum, EReal.coe_mul]

/-- A later step: from a triple of reals. -/
theorem stepOf_real (M L A : ℝ) (s v : Fin 512 → ℝ) :
    ∃ M' : ℝ, stepOf ((M : EReal), (L : EReal), (A : EReal)) (fun j => (s j : EReal)) (fun j => (v j : EReal))
      = ((M' : EReal), ((Real.exp (M - M') * L + ∑ j, Real.exp (s j - M') : ℝ) : EReal),
          ((Real.exp (M - M') * A + ∑ j, Real.exp (s j - M') * v j : ℝ) : EReal)) := by
  obtain ⟨T, hT⟩ := fold_max_real s
  refine ⟨max M T, ?_⟩
  have hm : max (M : EReal) ((Finset.univ : Finset (Fin 512)).fold max ⊥ fun j => (s j : EReal))
      = ((max M T : ℝ) : EReal) := by
    rw [hT, coe_max]
  unfold stepOf
  simp only [hm, exp_coe_sub, coe_finset_sum, EReal.coe_mul, EReal.coe_add]

/-- Rescaling a sum of exponentials from the shift M to the shift M'. -/
theorem rescale_sum {ι : Type*} (M M' : ℝ) (s : Finset ι) (f : ι → ℝ) :
    Real.exp (M - M') * ∑ i ∈ s, Real.exp (f i - M) = ∑ i ∈ s, Real.exp (f i - M') := by
  rw [Finset.mul_sum]
  refine Finset.sum_congr rfl fun i _ => ?_
  rw [← Real.exp_add]; congr 1; ring

theorem rescale_sum_mul {ι : Type*} (M M' : ℝ) (s : Finset ι) (f g : ι → ℝ) :
    Real.exp (M - M') * ∑ i ∈ s, Real.exp (f i - M) * g i = ∑ i ∈ s, Real.exp (f i - M') * g i := by
  rw [Finset.mul_sum]
  refine Finset.sum_congr rfl fun i _ => ?_
  rw [← mul_assoc, ← Real.exp_add]; congr 2; ring

/-- Key position j of tile t, for a tile number given as a natural number. -/
def key (t : ℕ) (j : Fin 512) : Fin 4096 := ⟨(t * 512 + j.val) % 4096, Nat.mod_lt _ (by decide)⟩

theorem tileKey_eq_key (n : ℕ) (h : n < 8) (j : Fin 512) : tileKey ⟨n, h⟩ j = key n j := by
  apply Fin.ext
  have := j.isLt
  simp only [tileKey, key]
  omega

theorem carriedOf_succ (s v : Fin 4096 → EReal) (n : ℕ) (h : n < 8) :
    carriedOf s v (n + 1) = stepOf (carriedOf s v n) (fun j => s (key n j)) (fun j => v (key n j)) := by
  rw [carriedOf, dif_pos h]
  simp only [tileKey_eq_key]

/-- The invariant after n + 1 ≤ 8 tiles. -/
theorem carriedOf_inv (S V : Fin 4096 → ℝ) (n : ℕ) (hn : n < 8) :
    ∃ M : ℝ, carriedOf (fun j => (S j : EReal)) (fun j => (V j : EReal)) (n + 1)
      = ((M : EReal),
          ((∑ t ∈ Finset.range (n + 1), ∑ j : Fin 512, Real.exp (S (key t j) - M) : ℝ) : EReal),
          ((∑ t ∈ Finset.range (n + 1), ∑ j : Fin 512, Real.exp (S (key t j) - M) * V (key t j) : ℝ) : EReal)) := by
  induction n with
  | zero =>
    obtain ⟨M, hM⟩ := stepOf_bot (fun j => S (key 0 j)) (fun j => V (key 0 j))
    refine ⟨M, ?_⟩
    rw [carriedOf_succ _ _ _ hn, carriedOf, hM, Finset.sum_range_one, Finset.sum_range_one]
  | succ n ih =>
    obtain ⟨M, hM⟩ := ih (by omega)
    obtain ⟨M', hM'⟩ := stepOf_real M
      (∑ t ∈ Finset.range (n + 1), ∑ j : Fin 512, Real.exp (S (key t j) - M))
      (∑ t ∈ Finset.range (n + 1), ∑ j : Fin 512, Real.exp (S (key t j) - M) * V (key t j))
      (fun j => S (key (n + 1) j)) (fun j => V (key (n + 1) j))
    refine ⟨M', ?_⟩
    rw [carriedOf_succ _ _ _ hn, hM, hM']
    have ha : Real.exp (M - M') * (∑ t ∈ Finset.range (n + 1), ∑ j : Fin 512, Real.exp (S (key t j) - M))
          + ∑ j : Fin 512, Real.exp (S (key (n + 1) j) - M')
        = ∑ t ∈ Finset.range (n + 1 + 1), ∑ j : Fin 512, Real.exp (S (key t j) - M') := by
      rw [Finset.sum_range_succ _ (n + 1), Finset.mul_sum]
      congr 1
      exact Finset.sum_congr rfl fun t _ => rescale_sum M M' _ _
    have hb : Real.exp (M - M')
            * (∑ t ∈ Finset.range (n + 1), ∑ j : Fin 512, Real.exp (S (key t j) - M) * V (key t j))
          + ∑ j : Fin 512, Real.exp (S (key (n + 1) j) - M') * V (key (n + 1) j)
        = ∑ t ∈ Finset.range (n + 1 + 1), ∑ j : Fin 512, Real.exp (S (key t j) - M') * V (key t j) := by
      rw [Finset.sum_range_succ _ (n + 1), Finset.mul_sum]
      congr 1
      exact Finset.sum_congr rfl fun t _ => rescale_sum_mul M M' _ _ _
    rw [ha, hb]

end Cert.Spec

end
-- ==== Proof.SoftmaxLaw.lean ====
/-
  The two arrangements agree. After all eight tiles the kernel holds (M, ∑ exp (S j − M), ∑ exp (S j − M) · V j) over
  all 4096 key positions, for some real M; the reference holds the same two sums with its own real shift M'. A quotient
  (∑ exp (S j − M) · V j) / (∑ exp (S j − M)) does not depend on the shift: a common factor exp (−M) cancels. The sums
  are positive, so the division is multiplication by a real reciprocal on both sides.
-/
import proofs.«130749_j38989713113556_2_alg».proof.Proof.OnlineStep

noncomputable section

namespace Cert.Spec

open Idealize.ShloMosaic

/-- The eight tiles of 512 key positions cover the 4096 key positions exactly once. -/
def tileEquiv : Fin 8 × Fin 512 ≃ Fin 4096 where
  toFun p := tileKey p.1 p.2
  invFun i := (⟨i.val / 512, by omega⟩, ⟨i.val % 512, Nat.mod_lt _ (by decide)⟩)
  left_inv p := by
    rcases p with ⟨t, j⟩
    have ht := t.isLt
    have hj := j.isLt
    refine Prod.ext (Fin.ext ?_) (Fin.ext ?_)
    · simp only [tileKey]; omega
    · simp only [tileKey]; omega
  right_inv i := by
    apply Fin.ext
    simp only [tileKey]
    omega

/-- A sum over the tiles and the positions of each tile is the sum over all key positions. -/
theorem sum_tiles (f : Fin 4096 → ℝ) :
    ∑ t ∈ Finset.range 8, ∑ j : Fin 512, f (key t j) = ∑ j : Fin 4096, f j := by
  rw [Finset.sum_range (fun t => ∑ j : Fin 512, f (key t j))]
  have h : ∀ t : Fin 8, ∑ j : Fin 512, f (key t.val j) = ∑ j : Fin 512, f (tileKey t j) := fun t =>
    Finset.sum_congr rfl fun j _ => by rw [← tileKey_eq_key t.val t.isLt j]
  rw [Finset.sum_congr rfl fun t _ => h t, ← Fintype.sum_prod_type' (f := fun t j => f (tileKey t j))]
  exact Fintype.sum_equiv tileEquiv _ _ fun p => rfl

/-- The softmax quotient does not depend on the shift. -/
theorem quotient_shift {ι : Type*} [Fintype ι] (S V : ι → ℝ) (M : ℝ) :
    (∑ j, Real.exp (S j - M) * V j) / (∑ j, Real.exp (S j - M))
      = (∑ j, Real.exp (S j) * V j) / (∑ j, Real.exp (S j)) := by
  have h1 : ∑ j, Real.exp (S j - M) * V j = Real.exp (-M) * ∑ j, Real.exp (S j) * V j := by
    rw [Finset.mul_sum]
    refine Finset.sum_congr rfl fun j _ => ?_
    rw [sub_eq_add_neg, Real.exp_add]; ring
  have h2 : ∑ j, Real.exp (S j - M) = Real.exp (-M) * ∑ j, Real.exp (S j) := by
    rw [Finset.mul_sum]
    refine Finset.sum_congr rfl fun j _ => ?_
    rw [sub_eq_add_neg, Real.exp_add]; ring
  rw [h1, h2, mul_div_mul_left _ _ (Real.exp_ne_zero _)]

/-- A sum of exponentials over a nonempty index type is positive. -/
theorem sum_exp_pos {ι : Type*} [Fintype ι] [Nonempty ι] (f : ι → ℝ) : 0 < ∑ j, Real.exp (f j) :=
  Finset.sum_pos (fun j _ => Real.exp_pos _) Finset.univ_nonempty

/-- The reference's arrangement over real scores and value entries. -/
theorem refOf_real (S V : Fin 4096 → ℝ) :
    refOf (fun j => (S j : EReal)) (fun j => (V j : EReal))
      = (((∑ j, Real.exp (S j) * V j) / (∑ j, Real.exp (S j)) : ℝ) : EReal) := by
  obtain ⟨T, hT⟩ := fold_max_real S
  have hm : max (⊥ : EReal) ((Finset.univ : Finset (Fin 4096)).fold max ⊥ fun j => (S j : EReal)) = (T : EReal) := by
    rw [hT]; exact max_bot_left _
  have hL : (∑ j, Real.exp (S j - T)) ≠ 0 := (sum_exp_pos fun j => S j - T).ne'
  unfold refOf
  simp only [hm, exp_coe_sub, ← coe_finset_sum, Ideal.div_coe hL, ← EReal.coe_mul]
  rw [← quotient_shift S V T, Finset.sum_div]
  refine congrArg _ (Finset.sum_congr rfl fun j _ => ?_)
  ring

/-- The kernel's arrangement over real scores and value entries. -/
theorem kerOf_real (S V : Fin 4096 → ℝ) :
    Ideal.div (carriedOf (fun j => (S j : EReal)) (fun j => (V j : EReal)) 8).2.2
        (carriedOf (fun j => (S j : EReal)) (fun j => (V j : EReal)) 8).2.1
      = (((∑ j, Real.exp (S j) * V j) / (∑ j, Real.exp (S j)) : ℝ) : EReal) := by
  obtain ⟨M, hM⟩ := carriedOf_inv S V 7 (by decide)
  rw [hM, sum_tiles (fun j => Real.exp (S j - M)), sum_tiles (fun j => Real.exp (S j - M) * V j)]
  have hL : (∑ j, Real.exp (S j - M)) ≠ 0 := (sum_exp_pos fun j => S j - M).ne'
  simp only [Ideal.div_coe hL, ← EReal.coe_mul]
  rw [← quotient_shift S V M, mul_one_div]

/-- The kernel's eight-tile recursion computes the reference's softmax contraction. -/
theorem oKer_eq_oRef (x : Fin 4 → Fin 64 → Fin 64 → Fin 512 → EReal) (W1 W2 : Fin 512 → Fin 64 → EReal)
    (W3 : Fin 512 → Fin 512 → EReal)
    (hx : ∀ b h w c, ∃ r : ℝ, x b h w c = (r : EReal)) (h1 : ∀ a k, ∃ r : ℝ, W1 a k = (r : EReal))
    (h2 : ∀ a k, ∃ r : ℝ, W2 a k = (r : EReal)) (h3 : ∀ a d, ∃ r : ℝ, W3 a d = (r : EReal))
    (b : Fin 4) (d : Fin 512) (i : Fin 4096) :
    oKer x W1 W2 W3 b d i = oRef x W1 W2 W3 b d i := by
  choose S hS using fun j => sc_real x W1 W2 hx h1 h2 b i j
  choose V hV using fun j => vl_real x W3 hx h3 b j d
  have hs : sc x W1 W2 b i = fun j => (S j : EReal) := funext hS
  have hv : (fun j => vl x W3 b j d) = fun j => (V j : EReal) := funext hV
  rw [oRef_eq_refOf, oKer, carried_eq_carriedOf, hs, hv, kerOf_real, refOf_real]

end Cert.Spec

end
-- ==== Proof.Algebraic.lean ====
/-
  The two idealized programs agree. From memories that agree on the five arguments, the idealized kernel ends with its
  result at outOf (oKer …) of the arguments and the idealized reference at outOf (oRef …) of the same arguments; the
  precondition makes every entry of the arguments a real number, and for real inputs the kernel's eight-tile recursion
  and the reference's softmax contraction are one function. The frames are read off the same runs: no item of either
  program writes an argument.
-/
import proofs.«130749_j38989713113556_2_alg».proof.Proof.KernelIdeal.KernelValue
import proofs.«130749_j38989713113556_2_alg».proof.Proof.KernelIdeal.PreFinite
import proofs.«130749_j38989713113556_2_alg».proof.Proof.Kernel.Frames
import proofs.«130749_j38989713113556_2_alg».proof.Proof.RefSpec
import proofs.«130749_j38989713113556_2_alg».proof.Proof.SoftmaxLaw
import proofs.«130749_j38989713113556_2_alg».proof.Proof.Gen.Kernel
import proofs.«130749_j38989713113556_2_alg».proof.Proof.Gen.KernelIdeal
import proofs.«130749_j38989713113556_2_alg».proof.Proof.Gen.ReferenceIdeal
import proofs.«130749_j38989713113556_2_alg».proof.Proof.Gen.Pre_finite_inputs

noncomputable section

namespace Cert.Proof.Claims

open Idealize.ShloMosaic Idealize.ShloMosaic.TcCoe Idealize.ShloMosaic.ValueIdx Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

theorem algebraic : Cert.algebraic_KernelIdeal_ReferenceIdeal := by
  intro m ρ m' ρ' hpre hagree
  refine ⟨fun c => Cert.KernelIdeal.Gen.V5 m (Cert.KernelIdeal.Hand.outs m) c Cert.KernelIdeal.main_v15, ?_, ?_⟩
  · exact (θ_run Cert.KernelIdeal.defs _ _).mono (fun r h c =>
      ⟨h c _ (Cert.KernelIdeal.Hand.mem_uc Cert.KernelIdeal.main_v15 (by decide)),
        (h c _ (Cert.KernelIdeal.Hand.mem_uc Cert.KernelIdeal.main_arg0 (by decide))).trans (Cert.KernelIdeal.Gen.V5_main_arg0 m (Cert.KernelIdeal.Hand.outs m) c),
        (h c _ (Cert.KernelIdeal.Hand.mem_uc Cert.KernelIdeal.main_arg1 (by decide))).trans (Cert.KernelIdeal.Gen.V5_main_arg1 m (Cert.KernelIdeal.Hand.outs m) c),
        (h c _ (Cert.KernelIdeal.Hand.mem_uc Cert.KernelIdeal.main_arg2 (by decide))).trans (Cert.KernelIdeal.Gen.V5_main_arg2 m (Cert.KernelIdeal.Hand.outs m) c),
        (h c _ (Cert.KernelIdeal.Hand.mem_uc Cert.KernelIdeal.main_arg3 (by decide))).trans (Cert.KernelIdeal.Gen.V5_main_arg3 m (Cert.KernelIdeal.Hand.outs m) c),
        (h c _ (Cert.KernelIdeal.Hand.mem_uc Cert.KernelIdeal.main_arg4 (by decide))).trans (Cert.KernelIdeal.Gen.V5_main_arg4 m (Cert.KernelIdeal.Hand.outs m) c)⟩)
      (Cert.KernelIdeal.Hand.run_all (F := Ideal) m ρ)
  · refine (θ_run Cert.ReferenceIdeal.defs _ _).mono (fun r h c => ⟨(h c).1.trans ?_, (h c).2⟩)
      (Cert.ReferenceIdeal.RefValue.run_spec m' ρ')
    obtain ⟨e0, e1, e2, e3, e4⟩ := hagree c
    rw [e0, e1, e2, e3, e4]
    obtain ⟨hx, h1, h2, h3⟩ := Cert.KernelIdeal.Hand.finite_of_pre m hpre c
    have hO : Cert.Spec.oRef (Cert.KernelIdeal.Hand.argX m c) (Cert.KernelIdeal.Hand.argW1 m c) (Cert.KernelIdeal.Hand.argW2 m c) (Cert.KernelIdeal.Hand.argW3 m c)
        = Cert.Spec.oKer (Cert.KernelIdeal.Hand.argX m c) (Cert.KernelIdeal.Hand.argW1 m c) (Cert.KernelIdeal.Hand.argW2 m c) (Cert.KernelIdeal.Hand.argW3 m c) :=
      funext fun b => funext fun d => funext fun i => (Cert.Spec.oKer_eq_oRef _ _ _ _ hx h1 h2 h3 b d i).symm
    funext i
    obtain ⟨b, h, w, ch, rfl⟩ : ∃ (b : Fin 4) (h w : Fin 64) (ch : Fin 512), i = ix4 b h w ch := ⟨i 0, i 1, i 2, i 3, eq_ix4 i⟩
    rw [Cert.ReferenceIdeal.RefValue.refOut_apply]
    refine Eq.trans ?_ (Cert.KernelIdeal.Hand.kernel_value m c b h w ch).symm
    show Cert.Spec.outOf (Cert.KernelIdeal.Hand.argX m c) (Cert.KernelIdeal.Hand.argG m c)
        (Cert.Spec.oRef (Cert.KernelIdeal.Hand.argX m c) (Cert.KernelIdeal.Hand.argW1 m c) (Cert.KernelIdeal.Hand.argW2 m c) (Cert.KernelIdeal.Hand.argW3 m c)) b h w ch = _
    rw [hO]

end Cert.Proof.Claims

end
-- ==== Proof.lean ====
/-
  Position attention on 4 images of 64 x 64 positions and 512 channels: a two-stage kernel — one matrix product for the
  three projections of the input, then attention computed key tile by key tile with a running maximum, a running sum
  and a running weighted sum of the values — against the plain reference: three projections, the score matrix, its
  row-wise softmax, the contraction with the values, the storage-order reshape, gamma times that plus the input.

  Both programs run to the end, fault nowhere and leave their arguments as they found them: @main of the kernel is a
  chain of host operations and two kernel regions, each region's body meeting its pipeline's obligation at every grid
  point (the attention body by the kind of its key tile: first, middle, last); @main of the reference is a straight line
  of host operations.

  Read over the extended reals the two results are the same function of the arguments wherever every input entry is a
  real number: the kernel's carried triple after eight key tiles is (row maximum, row sum of exponentials, their sum
  weighted by the values), by the identity exp (M − M′) · exp (s − M) = exp (s − M′) at every rescale, and dividing the
  weighted sum by the row sum is contracting the values with the quotients. The idealization changed no operation of
  the kernel, so it has nothing to preserve.
-/
import proofs.«130749_j38989713113556_2_alg».proof.Defs
import proofs.«130749_j38989713113556_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
